-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768x768 : Shape := ⟨2, ![768, 768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_arg4 : FVec F S768x768 .f32) (main_arg5 : FVec F S768x768 .f32) (main_arg6 : FVec F S768x768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768x768 .f32 := Host.absf main_arg6
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  main_v33

def fn {F : FTy → Type} [FloatOps F] (main_arg0 : FVec F S4x2048x768 .f32) (main_arg1 : FVec F S4x2048x768 .f32) (main_arg2 : FVec F S4x2048x768 .f32) (main_arg3 : FVec F S768x768 .f32) (main_arg4 : FVec F S768x768 .f32) (main_arg5 : FVec F S768x768 .f32) (main_arg6 : FVec F S768x768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S4x2048x768 .f32 := Host.absf main_arg1
  let main_cst_0 : FVec F S_ .f32 := constant S_ .f32 0x7F800000#32
  let main_v5 : FVec F S4x2048x768 .f32 := broadcastInDim S4x2048x768 ![] bcast_S_S4x2048x768 main_cst_0
  let main_v6 : IVec S4x2048x768 1 := cmpf .olt main_v4 main_v5
  let main_c_1 : IVec S_ 1 := constantI S_ 1 1#1
  let main_v7 : IVec S_ 1 := (fun x v => Host.reduce IntOp.andi x v reducesTo_S4x2048x768_S_d0_1_2 h_S_) main_v6 main_c_1
  let main_v8 : IVec S_ 1 := andi main_v3 main_v7
  let main_v9 : FVec F S4x2048x768 .f32 := Host.absf main_arg2
  let main_cst_2 : FVec F S_ .f32 := constant S_ .f32 0x7F800000#32
  let main_v10 : FVec F S4x2048x768 .f32 := broadcastInDim S4x2048x768 ![] bcast_S_S4x2048x768 main_cst_2
  let main_v11 : IVec S4x2048x768 1 := cmpf .olt main_v9 main_v10
  let main_c_3 : IVec S_ 1 := constantI S_ 1 1#1
  let main_v12 : IVec S_ 1 := (fun x v => Host.reduce IntOp.andi x v reducesTo_S4x2048x768_S_d0_1_2 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_v13 main_v16
-- ==== Kernel.lean ====
abbrev S4x2048x768 : Shape := ⟨3, ![4, 2048, 768]⟩
abbrev S768x768 : Shape := ⟨2, ![768, 768]⟩
abbrev S48x2048x64 : Shape := ⟨3, ![48, 2048, 64]⟩
abbrev S1x1024x768 : Shape := ⟨3, ![1, 1024, 768]⟩
abbrev S1x1024x64 : Shape := ⟨3, ![1, 1024, 64]⟩
abbrev S1024x768 : Shape := ⟨2, ![1024, 768]⟩
abbrev S64x768 : Shape := ⟨2, ![64, 768]⟩
abbrev S1024x64 : Shape := ⟨2, ![1024, 64]⟩
abbrev S1x512x64 : Shape := ⟨3, ![1, 512, 64]⟩
abbrev S1x2048x64 : Shape := ⟨3, ![1, 2048, 64]⟩
abbrev S1x512x2048 : Shape := ⟨3, ![1, 512, 2048]⟩
abbrev S1x512 : Shape := ⟨2, ![1, 512]⟩
abbrev S1x512x1 : Shape := ⟨3, ![1, 512, 1]⟩

abbrev nBuf : Space → Nat
  | .hbm => 13
  | .vmem => 29
  | .smem => 0
  | _ => 0

abbrev bufTy : (tb : Table) → Fin (tcTables nBuf tb) → BufTy
  | .hbm, ⟨0, _⟩ => ⟨S4x2048x768, .f32⟩
  | .hbm, ⟨1, _⟩ => ⟨S4x2048x768, .f32⟩
  | .hbm, ⟨2, _⟩ => ⟨S4x2048x768, .f32⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S48x2048x64, .bf16⟩
  | .hbm, ⟨8, _⟩ => ⟨S48x2048x64, .bf16⟩
  | .hbm, ⟨9, _⟩ => ⟨S48x2048x64, .bf16⟩
  | .hbm, ⟨10, _⟩ => ⟨S48x2048x64, .bf16⟩
  | .hbm, ⟨11, _⟩ => ⟨S768x768, .f32⟩
  | .hbm, ⟨12, _⟩ => ⟨S4x2048x768, .f32⟩
  | .local _ .vmem, ⟨0, _⟩ => ⟨S1x1024x768, .f32⟩
  | .local _ .vmem, ⟨1, _⟩ => ⟨S1x1024x768, .f32⟩
  | .local _ .vmem, ⟨2, _⟩ => ⟨S768x768, .f32⟩
  | .local _ .vmem, ⟨3, _⟩ => ⟨S1x1024x64, .bf16⟩
  | .local _ .vmem, ⟨4, _⟩ => ⟨S1x1024x64, .bf16⟩
  | .local _ .vmem, ⟨5, _⟩ => ⟨S1x1024x768, .f32⟩
  | .local _ .vmem, ⟨6, _⟩ => ⟨S1x1024x768, .f32⟩
  | .local _ .vmem, ⟨7, _⟩ => ⟨S768x768, .f32⟩
  | .local _ .vmem, ⟨8, _⟩ => ⟨S1x1024x64, .bf16⟩
  | .local _ .vmem, ⟨9, _⟩ => ⟨S1x1024x64, .bf16⟩
  | .local _ .vmem, ⟨10, _⟩ => ⟨S1x1024x768, .f32⟩
  | .local _ .vmem, ⟨11, _⟩ => ⟨S1x1024x768, .f32⟩
  | .local _ .vmem, ⟨12, _⟩ => ⟨S768x768, .f32⟩
  | .local _ .vmem, ⟨13, _⟩ => ⟨S1x1024x64, .bf16⟩
  | .local _ .vmem, ⟨14, _⟩ => ⟨S1x1024x64, .bf16⟩
  | .local _ .vmem, ⟨15, _⟩ => ⟨S1x512x64, .bf16⟩
  | .local _ .vmem, ⟨16, _⟩ => ⟨S1x512x64, .bf16⟩
  | .local _ .vmem, ⟨17, _⟩ => ⟨S1x2048x64, .bf16⟩
  | .local _ .vmem, ⟨18, _⟩ => ⟨S1x2048x64, .bf16⟩
  | .local _ .vmem, ⟨19, _⟩ => ⟨S1x2048x64, .bf16⟩
  | .local _ .vmem, ⟨20, _⟩ => ⟨S1x2048x64, .bf16⟩
  | .local _ .vmem, ⟨21, _⟩ => ⟨S1x512x64, .bf16⟩
  | .local _ .vmem, ⟨22, _⟩ => ⟨S1x512x64, .bf16⟩
  | .local _ .vmem, ⟨23, _⟩ => ⟨S1x1024x64, .bf16⟩
  | .local _ .vmem, ⟨24, _⟩ => ⟨S1x1024x64, .bf16⟩
  | .local _ .vmem, ⟨25, _⟩ => ⟨S768x768, .f32⟩
  | .local _ .vmem, ⟨26, _⟩ => ⟨S1x1024x768, .f32⟩
  | .local _ .vmem, ⟨27, _⟩ => ⟨S1x1024x768, .f32⟩
  | .local _ .vmem, ⟨28, _⟩ => ⟨S1024x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc4_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨3, ![4, 2, 12], ![false, false, false]⟩

def k0_mult1 (i : grid0.Coords) : BitVec 32 :=
  let arg2 : BitVec 32 := BitVec.ofNat 32 (i 2).val
  let c64_i32 : BitVec 32 := 64#32
  let v0 : BitVec 32 := Scalar.muli arg2 c64_i32
  v0
def k0_off1 (i : grid0.Coords) : Fin 2 → Nat :=
  let arg2 : BitVec 32 := BitVec.ofNat 32 (i 2).val
  let c64_i32 : BitVec 32 := 64#32
  let v0 : BitVec 32 := Scalar.muli arg2 c64_i32
  let v1 : BitVec 32 := v0
  let v5 : Index := Scalar.indexCast v1
  let c0_2 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg2
  let c0_i32 : BitVec 32 := 0#32
  let c0_i32_0 : BitVec 32 := 0#32
  ![v1.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨3, ![4, 2, 12], ![false, false, false]⟩

def k1_mult1 (i : grid1.Coords) : BitVec 32 :=
  let arg2 : BitVec 32 := BitVec.ofNat 32 (i 2).val
  let c64_i32 : BitVec 32 := 64#32
  let v0 : BitVec 32 := Scalar.muli arg2 c64_i32
  v0
def k1_off1 (i : grid1.Coords) : Fin 2 → Nat :=
  let arg2 : BitVec 32 := BitVec.ofNat 32 (i 2).val
  let c64_i32 : BitVec 32 := 64#32
  let v0 : BitVec 32 := Scalar.muli arg2 c64_i32
  let v1 : BitVec 32 := v0
  let v5 : Index := Scalar.indexCast v1
  let c0_2 : Index := 0#32
  ![v5.toNat, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg2
  let c0_i32 : BitVec 32 := 0#32
  let c0_i32_0 : BitVec 32 := 0#32
  ![v1.toNat, arg1.toNat, c0_i32.toNat]

abbrev stage1_0 : Fin 2 → Memref sig .tc .vmem S1x1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S768x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev grid2 : Pipeline.Grid := ⟨3, ![4, 2, 12], ![false, false, false]⟩

def k2_mult1 (i : grid2.Coords) : BitVec 32 :=
  let arg2 : BitVec 32 := BitVec.ofNat 32 (i 2).val
  let c64_i32 : BitVec 32 := 64#32
  let v0 : BitVec 32 := Scalar.muli arg2 c64_i32
  v0
def k2_off1 (i : grid2.Coords) : Fin 2 → Nat :=
  let arg2 : BitVec 32 := BitVec.ofNat 32 (i 2).val
  let c64_i32 : BitVec 32 := 64#32
  let v0 : BitVec 32 := Scalar.muli arg2 c64_i32
  let v1 : BitVec 32 := v0
  let v5 : Index := Scalar.indexCast v1
  let c0_2 : Index := 0#32
  ![v5.toNat, 0]
def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg2
  let c0_i32 : BitVec 32 := 0#32
  let c0_i32_0 : BitVec 32 := 0#32
  ![v1.toNat, arg1.toNat, c0_i32.toNat]

abbrev stage2_0 : Fin 2 → Memref sig .tc .vmem S1x1024x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 1 → Memref sig .tc .vmem S768x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, false]

abbrev stage2_2 : Fin 2 → Memref sig .tc .vmem S1x1024x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev grid3 : Pipeline.Grid := ⟨2, ![48, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨3, ![4, 2, 12], ![false, false, false]⟩

def k4_mult1 (i : grid4.Coords) : BitVec 32 :=
  let arg2 : BitVec 32 := BitVec.ofNat 32 (i 2).val
  let c64_i32 : BitVec 32 := 64#32
  let v5 : BitVec 32 := Scalar.muli arg2 c64_i32
  v5
def k4_off1 (i : grid4.Coords) : Fin 2 → Nat :=
  let arg2 : BitVec 32 := BitVec.ofNat 32 (i 2).val
  let c64_i32 : BitVec 32 := 64#32
  let v5 : BitVec 32 := Scalar.muli arg2 c64_i32
  let v6 : BitVec 32 := v5
  let v7 : Index := Scalar.indexCast v6
  let c0_3 : Index := 0#32
  ![v7.toNat, 0]
def k4_cond2 (i : grid4.Coords) : BitVec 1 :=
  let arg2 : BitVec 32 := BitVec.ofNat 32 (i 2).val
  let c11_i32 : BitVec 32 := 11#32
  let v17 : BitVec 1 := Scalar.cmpi .eq arg2 c11_i32
  let v18 : BitVec 32 := Scalar.extui v17
  let c0_i32_8 : BitVec 32 := 0#32
  let v19 : BitVec 1 := Scalar.cmpi .ne v18 c0_i32_8
  v19

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg2
  let c0_i32 : BitVec 32 := 0#32
  let c0_i32_0 : BitVec 32 := 0#32
  ![v1.toNat, arg1.toNat, c0_i32.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage4_0 : Fin 2 → Memref sig .tc .vmem S1x1024x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, true]

abbrev stage4_1 : Fin 1 → Memref sig .tc .vmem S768x768 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false, false]

abbrev stage4_2 : Fin 2 → Memref sig .tc .vmem S1x1024x768 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  h_S64x768 : 0 < S64x768.numel
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S1x512x64 : S1x512x64.ShapeCasts S1x512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S1x2048x64 : S1x2048x64.ShapeCasts S1x2048x64
  reduces_S1x512x2048_S1x512 : S1x512x2048.Reduces [2] S1x512
  shapeCasts_S1x512_S1x512x1 : S1x512.ShapeCasts S1x512x1
  broadcasts_S1x512x1_S1x512x2048 : S1x512x1.Broadcasts S1x512x2048
  packedbf16_S1x512x64_S1x512x64_0_0_0 : (Rect.unit (s := S1x512x64) ![0, 0, 0] S1x512x64.size inb_S1x512x64_S1x512x64_0_0_0).PackedRows (EltTy.packing .bf16)
  transposes_S768x768_S768x768_1_0 : S768x768.Transposes [1, 0] S768x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  shapeCasts_S64x768_S64x768 : S64x768.ShapeCasts S64x768
  shapeCasts_S1024x768_S1x1024x768 : S1024x768.ShapeCasts S1x1024x768
  dot_S1024x768_S64x768_S1024x64_1_1_0_0_n_n_wf : DotDims.WF S1024x768 S64x768 S1024x64 [1] [1] [0] [0] [] []
  dot_S1x512x64_S1x2048x64_S1x512x2048_2_2_1_1_0_0_wf : DotDims.WF S1x512x64 S1x2048x64 S1x512x2048 [2] [2] [1] [1] [0] [0]
  dot_S1x512x2048_S1x2048x64_S1x512x64_2_1_1_2_0_0_wf : DotDims.WF S1x512x2048 S1x2048x64 S1x512x64 [2] [1] [1] [2] [0] [0]
  dot_S1024x64_S64x768_S1024x768_1_0_0_1_n_n_wf : DotDims.WF S1024x64 S64x768 S1024x768 [1] [0] [0] [1] [] []
  hrank0 : 0 < grid0.rank
  k0_mult1_dvd : ∀ i : grid0.Coords, 64 ∣ (k0_mult1 i).toNat
  k0_off1_inb : ∀ i : grid0.Coords, ∀ a, (k0_off1 i) a + S64x768.size a ≤ S768x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S4x2048x768.size a
  hwx0_0 : ∀ i : grid0.Coords, EltTy.bits .f32 = 32 ∨ (Rect.block (s := S4x2048x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S48x2048x64.size a
  hwx0_2 : ∀ i : grid0.Coords, EltTy.bits .bf16 = 32 ∨ (Rect.block (s := S48x2048x64) S1x1024x64.size (cc0_transform_2 i) (hinb0_2 i)).WholeWords (EltTy.packing .bf16)
  hrank1 : 0 < grid1.rank
  k1_mult1_dvd : ∀ i : grid1.Coords, 64 ∣ (k1_mult1 i).toNat
  k1_off1_inb : ∀ i : grid1.Coords, ∀ a, (k1_off1 i) a + S64x768.size a ≤ S768x768.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x768.size a ≤ S4x2048x768.size a
  hwx1_0 : ∀ i : grid1.Coords, EltTy.bits .f32 = 32 ∨ (Rect.block (s := S4x2048x768) S1x1024x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .f32 = 32 ∨ (Rect.block (s := S768x768) S768x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S48x2048x64.size a
  hwx1_2 : ∀ i : grid1.Coords, EltTy.bits .bf16 = 32 ∨ (Rect.block (s := S48x2048x64) S1x1024x64.size (cc1_transform_2 i) (hinb1_2 i)).WholeWords (EltTy.packing .bf16)
  hrank2 : 0 < grid2.rank
  k2_mult1_dvd : ∀ i : grid2.Coords, 64 ∣ (k2_mult1 i).toNat
  k2_off1_inb : ∀ i : grid2.Coords, ∀ a, (k2_off1 i) a + S64x768.size a ≤ S768x768.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x768.size a ≤ S4x2048x768.size a
  hwx2_0 : ∀ i : grid2.Coords, EltTy.bits .f32 = 32 ∨ (Rect.block (s := S4x2048x768) S1x1024x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .f32 = 32 ∨ (Rect.block (s := S768x768) S768x768.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x64.size a ≤ S48x2048x64.size a
  hwx2_2 : ∀ i : grid2.Coords, EltTy.bits .bf16 = 32 ∨ (Rect.block (s := S48x2048x64) S1x1024x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x64.size a ≤ S48x2048x64.size a
  hwx3_0 : ∀ i : grid3.Coords, EltTy.bits .bf16 = 32 ∨ (Rect.block (s := S48x2048x64) S1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S48x2048x64.size a
  hwx3_1 : ∀ i : grid3.Coords, EltTy.bits .bf16 = 32 ∨ (Rect.block (s := S48x2048x64) S1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S48x2048x64.size a
  hwx3_2 : ∀ i : grid3.Coords, EltTy.bits .bf16 = 32 ∨ (Rect.block (s := S48x2048x64) S1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x64.size a ≤ S48x2048x64.size a
  hwx3_3 : ∀ i : grid3.Coords, EltTy.bits .bf16 = 32 ∨ (Rect.block (s := S48x2048x64) S1x512x64.size (cc3_transform_3 i) (hinb3_3 i)).WholeWords (EltTy.packing .bf16)
  hrank4 : 0 < grid4.rank
  k4_mult1_dvd : ∀ i : grid4.Coords, 64 ∣ (k4_mult1 i).toNat
  k4_off1_inb : ∀ i : grid4.Coords, ∀ a, (k4_off1 i) a + S64x768.size a ≤ S768x768.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x1024x64.size a ≤ S48x2048x64.size a
  hwx4_0 : ∀ i : grid4.Coords, EltTy.bits .bf16 = 32 ∨ (Rect.block (s := S48x2048x64) S1x1024x64.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S768x768.size a ≤ S768x768.size a
  hwx4_1 : ∀ i : grid4.Coords, EltTy.bits .f32 = 32 ∨ (Rect.block (s := S768x768) S768x768.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1024x768.size a ≤ S4x2048x768.size a
  hwx4_2 : ∀ i : grid4.Coords, EltTy.bits .f32 = 32 ∨ (Rect.block (s := S4x2048x768) S1x1024x768.size (cc4_transform_2 i) (hinb4_2 i)).WholeWords (EltTy.packing .f32)

variable [Facts₀]

def dot_S1024x768_S64x768_S1024x64_1_1_0_0_n_n : DotDims S1024x768 S64x768 S1024x64 where
  lhsContracting := [1]
  rhsContracting := [1]
  lhsNonContracting := [0]
  rhsNonContracting := [0]
  lhsBatch := []
  rhsBatch := []
  wf := dot_S1024x768_S64x768_S1024x64_1_1_0_0_n_n_wf
def dot_S1x512x64_S1x2048x64_S1x512x2048_2_2_1_1_0_0 : DotDims S1x512x64 S1x2048x64 S1x512x2048 where
  lhsContracting := [2]
  rhsContracting := [2]
  lhsNonContracting := [1]
  rhsNonContracting := [1]
  lhsBatch := [0]
  rhsBatch := [0]
  wf := dot_S1x512x64_S1x2048x64_S1x512x2048_2_2_1_1_0_0_wf
def dot_S1x512x2048_S1x2048x64_S1x512x64_2_1_1_2_0_0 : DotDims S1x512x2048 S1x2048x64 S1x512x64 where
  lhsContracting := [2]
  rhsContracting := [1]
  lhsNonContracting := [1]
  rhsNonContracting := [2]
  lhsBatch := [0]
  rhsBatch := [0]
  wf := dot_S1x512x2048_S1x2048x64_S1x512x64_2_1_1_2_0_0_wf
def dot_S1024x64_S64x768_S1024x768_1_0_0_1_n_n : DotDims S1024x64 S64x768 S1024x768 where
  lhsContracting := [1]
  rhsContracting := [0]
  lhsNonContracting := [0]
  rhsNonContracting := [1]
  lhsBatch := []
  rhsBatch := []
  wf := dot_S1024x64_S64x768_S1024x768_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S1x1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1024x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1x512x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v3) S1x1024x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S768x768.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v5) S1x1024x768.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S4x2048x768 : Shape := ⟨3, ![4, 2048, 768]⟩
abbrev S768x768 : Shape := ⟨2, ![768, 768]⟩
abbrev S4x2048x12x64 : Shape := ⟨4, ![4, 2048, 12, 64]⟩
abbrev S4x12x2048x64 : Shape := ⟨4, ![4, 12, 2048, 64]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S4x2048x768, .f32⟩
  | .hbm, ⟨2, _⟩ => ⟨S4x2048x768, .f32⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S4x2048x768, .f32⟩
  | .hbm, ⟨8, _⟩ => ⟨S4x2048x12x64, .f32⟩
  | .hbm, ⟨9, _⟩ => ⟨S4x12x2048x64, .f32⟩
  | .hbm, ⟨10, _⟩ => ⟨S4x2048x768, .f32⟩
  | .hbm, ⟨11, _⟩ => ⟨S4x2048x12x64, .f32⟩
  | .hbm, ⟨12, _⟩ => ⟨S4x12x2048x64, .f32⟩
  | .hbm, ⟨13, _⟩ => ⟨S4x2048x768, .f32⟩
  | .hbm, ⟨14, _⟩ => ⟨S4x2048x12x64, .f32⟩
  | .hbm, ⟨15, _⟩ => ⟨S4x12x2048x64, .f32⟩
  | .hbm, ⟨16, _⟩ => ⟨S4x12x2048x2048, .f32⟩
  | .hbm, ⟨17, _⟩ => ⟨S_, .f32⟩
  | .hbm, ⟨18, _⟩ => ⟨S_, .f32⟩
  | .hbm, ⟨19, _⟩ => ⟨S4x12x2048x2048, .f32⟩
  | .hbm, ⟨20, _⟩ => ⟨S4x12x2048x2048, .f32⟩
  | .hbm, ⟨21, _⟩ => ⟨S_, .f32⟩
  | .hbm, ⟨22, _⟩ => ⟨S4x12x2048, .f32⟩
  | .hbm, ⟨23, _⟩ => ⟨S_, .f32⟩
  | .hbm, ⟨24, _⟩ => ⟨S4x12x2048, .f32⟩
  | .hbm, ⟨25, _⟩ => ⟨S4x12x2048, .f32⟩
  | .hbm, ⟨26, _⟩ => ⟨S4x12x2048x1, .f32⟩
  | .hbm, ⟨27, _⟩ => ⟨S4x12x2048x2048, .f32⟩
  | .hbm, ⟨28, _⟩ => ⟨S4x12x2048x2048, .f32⟩
  | .hbm, ⟨29, _⟩ => ⟨S4x12x2048x2048, .f32⟩
  | .hbm, ⟨30, _⟩ => ⟨S_, .f32⟩
  | .hbm, ⟨31, _⟩ => ⟨S4x12x2048, .f32⟩
  | .hbm, ⟨32, _⟩ => ⟨S4x12x2048x1, .f32⟩
  | .hbm, ⟨33, _⟩ => ⟨S4x12x2048x2048, .f32⟩
  | .hbm, ⟨34, _⟩ => ⟨S4x12x2048x2048, .f32⟩
  | .hbm, ⟨35, _⟩ => ⟨S4x12x2048x64, .f32⟩
  | .hbm, ⟨36, _⟩ => ⟨S4x2048x12x64, .f32⟩
  | .hbm, ⟨37, _⟩ => ⟨S4x2048x768, .f32⟩
  | .hbm, ⟨38, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  shapeCasts_S4x2048x768_S4x2048x12x64 : S4x2048x768.ShapeCasts S4x2048x12x64
  transposes_S4x2048x12x64_S4x12x2048x64_0_2_1_3 : S4x2048x12x64.Transposes [0, 2, 1, 3] S4x12x2048x64
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  dot_S4x2048x768_S768x768_S4x2048x768_2_1_01_0_n_n_wf : DotDims.WF S4x2048x768 S768x768 S4x2048x768 [2] [1] [0, 1] [0] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]

variable [Facts₀]

def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf

class Facts : Prop extends Facts₀ where

variable [Facts]
-- ==== Proof.KDat4.lean ====
/-
  The shape of the last region's proof data: its arrays read off the entry contents, full shares, nothing owed;
  what the body leaves in each staging buffer and the invariant it keeps between grid points are the parameters.
-/
import proofs.«165060_j71665824301623_2_alg».proof.Proof.Gen.Kernel.Launch
import Idealize.ShloMosaic.Lib.Pipeline.FrameBody

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

local notation "𝕄" => MT nD τ sig Unit (Elt F) ℕ (UR sig nD τ) ℕ

/-- The last region's proof data on core `c` from the entry contents `V`, what the body leaves in each staging
    buffer after each point (`aft`) and the invariant before each point (`Φ`). -/
def mkDat4 (V : (c : Dev nD) → (b : Ref sig .tc) → Buf (Elt F) ((c : Thread nD τ).loc b)) (c : Dev nD)
    (aft : (w : Fin cfg4.W) → Fin cfg4.N → (cfg4.win w).block.Idx → Elt F (cfg4.win w).elt)
    (Φ : Fin (cfg4.N + 1) → sProp 𝕄) : Dat τ (Elt F) Unit ℕ (UR sig nD τ) ℕ cfg4 c where
  A w := V c (Pipeline.arrRef spec4 w)
  after := aft
  Φ := Φ
  q _ := fullShare
  owed _ := 0

end Cert.Kernel.Fr

end
-- ==== Proof.KR4.lean ====
/-
  Region 4: the heads merged and projected. At grid point (b, i, h) the body reads the 1024 × 64 block of rows
  i·1024 … of head h of batch b of the attention output and the 64 rows h·64 … of the projection matrix, and adds
  their product to a 1024 × 768 accumulator it keeps between points: zeroed first when h = 0, copied to the output
  block (b, i) when h = 11. So along each run of twelve points the accumulator holds the partial sums over the heads
  so far, the output buffer is touched at the run's last point only, and what it then holds is the sum over all
  twelve heads.
-/
import proofs.«165060_j71665824301623_2_alg».proof.Proof.Gen.Kernel.Launch
import proofs.«165060_j71665824301623_2_alg».proof.Proof.Gen.Kernel.Skeleton
import proofs.«165060_j71665824301623_2_alg».proof.Proof.Gen.Kernel.Points
import proofs.«165060_j71665824301623_2_alg».proof.Proof.KDat4
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's accesses: the whole block of head outputs, the 64 rows of the projection matrix of the point's head,
    the whole accumulator, the whole output block. -/
abbrev r4_o : Rect S1x1024x64 := Rect.unit (s := S1x1024x64) ![0, 0, 0] S1x1024x64.size inb_S1x1024x64_S1x1024x64_0_0_0
abbrev r4_w (i : grid4.Coords) : Rect S768x768 := Rect.unit (s := S768x768) (k4_off1 i) S64x768.size (k4_off1_inb i)
abbrev r4_s : Rect S1024x768 := Rect.unit (s := S1024x768) ![0, 0] S1024x768.size inb_S1024x768_S1024x768_0_0
abbrev r4_y : Rect S1x1024x768 := Rect.unit (s := S1x1024x768) ![0, 0, 0] S1x1024x768.size inb_S1x1024x768_S1x1024x768_0_0_0

/-- The body's two conditions, from the grid coordinates: the point is the first of its run of twelve; it is the last. -/
abbrev cond4_0 (i : grid4.Coords) : Prop := (Scalar.cmpi .ne (Scalar.extui (Scalar.cmpi .eq (BitVec.ofNat 32 (i 2).val) 0#32)) 0#32) = 1#1
abbrev cond4_1 (i : grid4.Coords) : Prop := k4_cond2 i = 1#1

theorem zeros4_2 : (![0, 0] : Fin 2 → ℕ) = fun _ => 0 := by funext a; fin_cases a <;> rfl
theorem zeros4_3 : (![0, 0, 0] : Fin 3 → ℕ) = fun _ => 0 := by funext a; fin_cases a <;> rfl

/-- What one accumulation step leaves in the accumulator holding `s`, from the contents of the two input buffers. -/
def acc4 (i : grid4.Coords) (x0 : Vec F S1x1024x64 .bf16) (x1 : Vec F S768x768 .f32) (s : Vec F S1024x768 .f32) : Vec F S1024x768 .f32 :=
  k4_pay2 (View.ld x0 r4_o) (View.ld x1 (r4_w i)) s

/-- What the last point of a run leaves in the output buffer: its one store, over the whole buffer, of the accumulator. -/
def out4_2 (s : Vec F S1024x768 .f32) : Vec F S1x1024x768 .f32 :=
  View.canon [⟨r4_y, k4_pay3 s⟩]

theorem cover4_2 (p0 : Vec F S1x1024x768 .f32) (y : S1x1024x768.Idx) :
    ∃ pc ∈ ([⟨r4_y, p0⟩] : List (View.Piece (Elt F) S1x1024x768 .f32)), y ∈ pc.1.set :=
  View.cover_of_tiled [⟨r4_y, p0⟩] S1x1024x768.size (by rfl) y

/-- A store over the whole accumulator, last, leaves its payload. -/
theorem read_acc4 {sg : RefSig} (v : View sg .tc .vmem S1024x768 .f32) (f : v.ty.Contents (Elt F)) (w : Vec F S1024x768 .f32)
    (L : List (View.Piece (Elt F) S1024x768 .f32)) :
    v.read (Elt F) (v.writes (Elt F) f ((⟨r4_s, w⟩ : View.Piece (Elt F) S1024x768 .f32) :: L)) = w := by
  have hc : ∀ y : S1024x768.Idx, ∃ p ∈ ((⟨r4_s, w⟩ : View.Piece (Elt F) S1024x768 .f32) :: L), y ∈ p.1.set := by
    intro y
    refine ⟨(⟨r4_s, w⟩ : View.Piece (Elt F) S1024x768 .f32), List.mem_cons_self .., ?_⟩
    exact View.mem_set_unit_zero (S := S1024x768) zeros4_2 inb_S1024x768_S1024x768_0_0 y
  have h1 := View.read_writes_eq_canon v f _ hc
  have h2 := View.canon_cons_unit_zero (Val := Elt F) (S := S1024x768) (e := .f32) zeros4_2 inb_S1024x768_S1024x768_0_0 w L
  exact h1.trans h2

/-- Through the whole-buffer rectangles a load reads the contents and the one store leaves its payload: the step and
    the output without their rectangles. -/
theorem ld4_o (x : Vec F S1x1024x64 .bf16) : View.ld x r4_o = x :=
  View.ld_unit_zero (S := S1x1024x64) zeros4_3 inb_S1x1024x64_S1x1024x64_0_0_0 x

theorem acc4_eq (i : grid4.Coords) (x0 : Vec F S1x1024x64 .bf16) (x1 : Vec F S768x768 .f32) (s : Vec F S1024x768 .f32) :
    acc4 i x0 x1 s = k4_pay2 x0 (View.ld x1 (r4_w i)) s := by
  unfold acc4; rw [ld4_o]

theorem out4_2_eq (s : Vec F S1024x768 .f32) : out4_2 s = k4_pay3 s :=
  View.canon_unit_zero (Val := Elt F) (S := S1x1024x768) (e := .f32) zeros4_3 inb_S1x1024x768_S1x1024x768_0_0_0 (k4_pay3 s)

set_option maxHeartbeats 1000000 in
/-- The body at the first point of a run, on whole buffers — the inputs' holding `x0`, `x1`, the output's `xi`, the
    accumulator anything — runs to the end with the inputs' and the output's as they were and the accumulator at one
    step over zeros. -/
theorem sound_kernel4_first (c : Dev nD) (E : Set ℕ) (i : grid4.Coords) (hc0 : cond4_0 i) (hc1 : ¬cond4_1 i)
    (arg3 : Memref sig .tc .vmem S1x1024x64 .bf16) (harg3 : arg3.IsWhole)
    (arg4 : Memref sig .tc .vmem S768x768 .f32) (harg4 : arg4.IsWhole) (arg5 : Memref sig .tc .vmem S1x1024x768 .f32) (harg5 : arg5.IsWhole)
    (arg6 : Memref sig .tc .vmem S1024x768 .f32) (harg6 : arg6.IsWhole)
    (x0 : Vec F S1x1024x64 .bf16) (x1 : Vec F S768x768 .f32) (xi : Vec F S1x1024x768 .f32) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (acc4 i x0 x1 (k4_pay1 (F := F)))) -∗ K ⟨⟩))
      ⊢ wp frame (wpE (defs₀ (F := F)) Variants.none c none) E (cc4__merge_outproj_kernel i arg3 harg3 arg4 harg4 arg5 harg5 arg6 harg6) K := by
  simp only [cc4__merge_outproj_kernel_eq_skeleton]; unfold cc4__merge_outproj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_acc4 _ _ _ _).trans ?_
  unfold acc4
  refine congrArg (k4_pay2 _ _) ?_
  sl_unfold_run_names
  exact View.readCov_cons_toLoadRect _ _ _ _

set_option maxHeartbeats 1000000 in
/-- The body at a point neither first nor last of its run, the accumulator holding `xs`: one step over `xs`. -/
theorem sound_kernel4_mid (c : Dev nD) (E : Set ℕ) (i : grid4.Coords) (hc0 : ¬cond4_0 i) (hc1 : ¬cond4_1 i)
    (arg3 : Memref sig .tc .vmem S1x1024x64 .bf16) (harg3 : arg3.IsWhole)
    (arg4 : Memref sig .tc .vmem S768x768 .f32) (harg4 : arg4.IsWhole) (arg5 : Memref sig .tc .vmem S1x1024x768 .f32) (harg5 : arg5.IsWhole)
    (arg6 : Memref sig .tc .vmem S1024x768 .f32) (harg6 : arg6.IsWhole)
    (x0 : Vec F S1x1024x64 .bf16) (x1 : Vec F S768x768 .f32) (xi : Vec F S1x1024x768 .f32) (xs : Vec F S1024x768 .f32) (K : PUnit → sProp 𝕄) :
    iprop(owns (c : Thread nD τ) arg3 fullShare x0 ∗ owns (c : Thread nD τ) arg4 fullShare x1 ∗ owns (c : Thread nD τ) arg5 fullShare xi
        ∗ owns (c : Thread nD τ) arg6 fullShare xs
        ∗ (iprop(owns (c : Thread nD τ) arg3 fullShare x0 ∗ owns (c : Thread nD τ) arg4 fullShare x1 ∗ owns (c : Thread nD τ) arg5 fullShare xi
            ∗ owns (c : Thread nD τ) arg6 fullShare (acc4 i x0 x1 xs)) -∗ K ⟨⟩))
      ⊢ wp frame (wpE (defs₀ (F := F)) Variants.none c none) E (cc4__merge_outproj_kernel i arg3 harg3 arg4 harg4 arg5 harg5 arg6 harg6) K := by
  simp only [cc4__merge_outproj_kernel_eq_skeleton]; unfold cc4__merge_outproj_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_acc4 _ _ _ _).trans ?_
  unfold acc4
  refine congrArg (k4_pay2 _ _) ?_
  exact View.ld_unit_zero (S := S1024x768) zeros4_2 inb_S1024x768_S1024x768_0_0 _

set_option maxHeartbeats 1000000 in
/-- The body at the last point of a run, the accumulator holding `xs` and the output buffer anything: one step over
    `xs`, and the output buffer at the accumulator's new contents. -/
theorem sound_kernel4_last (c : Dev nD) (E : Set ℕ) (i : grid4.Coords) (hc0 : ¬cond4_0 i) (hc1 : cond4_1 i)
    (arg3 : Memref sig .tc .vmem S1x1024x64 .bf16) (harg3 : arg3.IsWhole)
    (arg4 : Memref sig .tc .vmem S768x768 .f32) (harg4 : arg4.IsWhole) (arg5 : Memref sig .tc .vmem S1x1024x768 .f32) (harg5 : arg5.IsWhole)
    (arg6 : Memref sig .tc .vmem S1024x768 .f32) (harg6 : arg6.IsWhole)
    (x0 : Vec F S1x1024x64 .bf16) (x1 : Vec F S768x768 .f32) (xs : Vec F S1024x768 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (out4_2 (acc4 i x0 x1 xs))
            ∗ owns (c : Thread nD τ) arg6 fullShare (acc4 i x0 x1 xs)) -∗ K ⟨⟩))
      ⊢ wp frame (wpE (defs₀ (F := F)) Variants.none c none) E (cc4__merge_outproj_kernel i arg3 harg3 arg4 harg4 arg5 harg5 arg6 harg6) K := by
  simp only [cc4__merge_outproj_kernel_eq_skeleton]; unfold cc4__merge_outproj_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover4_2 _)).trans ?_
    unfold out4_2
    sl_unfold_run_names
    refine congrArg (fun s => View.canon [(⟨r4_y, k4_pay3 s⟩ : View.Piece (Elt F) S1x1024x768 .f32)]) ?_
    refine (View.readCov_cons_toLoadRect _ _ _ _).trans ?_
    unfold acc4
    refine congrArg (k4_pay2 _ _) ?_
    exact View.ld_unit_zero (S := S1024x768) zeros4_2 inb_S1024x768_S1024x768_0_0 _
  iexists _; isplitr
  swap; · iexact H3
  ipureintro
  sl_unfold_run_names
  refine (read_acc4 _ _ _ _).trans ?_
  unfold acc4
  refine congrArg (k4_pay2 _ _) ?_
  exact View.ld_unit_zero (S := S1024x768) zeros4_2 inb_S1024x768_S1024x768_0_0 _

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The head outputs' staging buffer holds the point's block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the projection matrix, whose one block is the whole matrix at every point: fetched at the first
    point only, it has not moved since. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The accumulator point by point -/

/-- What the accumulator holds after the body at position `n`: at the first point of a run of twelve one step over
    zeros, at the others one step over what the point before left. -/
def sAt4 (c : Dev nD) : (n : ℕ) → n < cfg4.N → Vec F S1024x768 .f32
  | 0, hn => acc4 (grid4.coords ⟨0, hn⟩) (iblk4 V c 0 ⟨0, hn⟩) (iblk4 V c 1 ⟨0, hn⟩) (k4_pay1 (F := F))
  | n + 1, hn =>
    if (n + 1) % 12 = 0 then
      acc4 (grid4.coords ⟨n + 1, hn⟩) (iblk4 V c 0 ⟨n + 1, hn⟩) (iblk4 V c 1 ⟨n + 1, hn⟩) (k4_pay1 (F := F))
    else
      acc4 (grid4.coords ⟨n + 1, hn⟩) (iblk4 V c 0 ⟨n + 1, hn⟩) (iblk4 V c 1 ⟨n + 1, hn⟩) (sAt4 c n (Nat.lt_of_succ_lt hn))

/-- At the first point of a run: one step over zeros. -/
theorem sAt4_first' (c : Dev nD) (t : Fin cfg4.N) (h : t.val % 12 = 0) :
    sAt4 V c t.val t.isLt = acc4 (grid4.coords t) (iblk4 V c 0 t) (iblk4 V c 1 t) (k4_pay1 (F := F)) := by
  obtain ⟨n, hn⟩ := t
  cases n with
  | zero => rfl
  | succ n => exact if_pos h

/-- At any other point: one step over what the point before left. -/
theorem sAt4_next' (c : Dev nD) (t : Fin cfg4.N) (h : t.val % 12 ≠ 0) :
    sAt4 V c t.val t.isLt = acc4 (grid4.coords t) (iblk4 V c 0 t) (iblk4 V c 1 t)
      (sAt4 V c (t.val - 1) (Nat.lt_of_le_of_lt (Nat.sub_le _ _) t.isLt)) := by
  obtain ⟨n, hn⟩ := t
  cases n with
  | zero => exact absurd (Nat.zero_mod _) h
  | succ n => exact if_neg h

/-- The two, with the step written out over the payload of the body's accumulating store. -/
theorem sAt4_first (c : Dev nD) (n : ℕ) (hn : n < cfg4.N) (h : n % 12 = 0) :
    sAt4 V c n hn = k4_pay2 (View.ld (iblk4 V c 0 ⟨n, hn⟩) r4_o) (View.ld (iblk4 V c 1 ⟨n, hn⟩) (r4_w (grid4.coords ⟨n, hn⟩))) (k4_pay1 (F := F)) :=
  sAt4_first' V c ⟨n, hn⟩ h

theorem sAt4_next (c : Dev nD) (n : ℕ) (hn : n < cfg4.N) (h : n % 12 ≠ 0) :
    sAt4 V c n hn = k4_pay2 (View.ld (iblk4 V c 0 ⟨n, hn⟩) r4_o) (View.ld (iblk4 V c 1 ⟨n, hn⟩) (r4_w (grid4.coords ⟨n, hn⟩)))
      (sAt4 V c (n - 1) (Nat.lt_of_le_of_lt (Nat.sub_le _ _) hn)) :=
  sAt4_next' V c ⟨n, hn⟩ h

/-! ## The proof data -/

/-- What the body leaves in each staging buffer after point `t`: each input's at its block; the output's, at the last
    point of a run, at the accumulator's contents (elsewhere the window is idle, and this is not consulted). -/
def aft4 (c : Dev nD) (w : Fin cfg4.W) (t : Fin cfg4.N) : (cfg4.win w).block.Idx → Elt F (cfg4.win w).elt :=
  match w with
  | ⟨0, _⟩ => iblk4 V c 0 t
  | ⟨1, _⟩ => iblk4 V c 1 t
  | ⟨2, _⟩ => out4_2 (sAt4 V c t.val t.isLt)

/-- The accumulator: a whole scoped buffer of the kernel's own, passed beside the windows. -/
abbrev scM4 : Memref sig .tc .vmem S1024x768 .f32 := Memref.whole cc4_scratch0

/-- The core's scoped buffers other than this region's staging buffers and the accumulator, at some contents each. -/
abbrev rest4 (c : Dev nD) : sProp 𝕄 :=
  Pipeline.scopedRestBut (Ix := Unit) (Name := ℕ) (U := UR sig nD τ) (Lvl := ℕ) (Val := Elt F) spec4 c [cc4_scratch0]

/-- The region's invariant before position `n`: before the first point every scoped buffer at anything; afterwards
    the accumulator at what the point before left, the other scoped buffers at anything; the generator register at
    some state throughout. -/
def PhiS4 (c : Dev nD) : (n : ℕ) → n ≤ cfg4.N → sProp 𝕄
  | 0, _ => Pipeline.ΦA spec4 c
  | n + 1, hn => iprop((owns (c : Thread nD τ) scM4 fullShare (sAt4 V c n hn) ∗ rest4 c) ∗ (∃ r, prngReg c r))

def Phi4 (c : Dev nD) (t : Fin (cfg4.N + 1)) : sProp 𝕄 := PhiS4 V c t.val (Nat.le_of_lt_succ t.isLt)

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop((owns (c : Thread nD τ) scM4 fullShare (sAt4 V c n hn) ∗ rest4 c) ∗ (∃ r, prngReg c r)) := rfl

theorem PhiS4_pos (c : Dev nD) (n : ℕ) (h : n ≤ cfg4.N) (hz : n ≠ 0) :
    PhiS4 V c n h = iprop((owns (c : Thread nD τ) scM4 fullShare (sAt4 V c (n - 1) (by omega)) ∗ rest4 c) ∗ (∃ r, prngReg c r)) := by
  cases n with
  | zero => exact absurd rfl hz
  | succ n => rfl

/-- The invariant before the first point, with the accumulator split off the scoped buffers. -/
theorem PhiA4_eq (c : Dev nD) :
    (Pipeline.ΦA spec4 c : sProp 𝕄)
      = iprop(((∃ d, owns (c : Thread nD τ) scM4 fullShare d) ∗ rest4 c) ∗ (∃ r, prngReg c r)) := by
  unfold Pipeline.ΦA
  rw [Pipeline.scopedRest_split_of_list spec4 c [cc4_scratch0] (by decide) (by decide)]
  simp only [bigSepL_singleton, scM4, owns_whole]; try rfl

/-- The region's proof data on core `c`. -/
abbrev dat4 (c : Dev nD) : Dat τ (Elt F) Unit ℕ (UR sig nD τ) ℕ cfg4 c := mkDat4 V c (aft4 V c) (Phi4 V c)

theorem A_eq4 (c : Dev nD) (w : Fin cfg4.W) : (dat4 V c).A w = V c (Pipeline.arrRef spec4 w) := by
  dsimp only [dat4, mkDat4]

theorem after4_0 (c : Dev nD) (t : Fin cfg4.N) : (dat4 V c).after 0 t = iblk4 V c 0 t := by dsimp only [dat4, mkDat4, aft4]
theorem after4_1 (c : Dev nD) (t : Fin cfg4.N) : (dat4 V c).after 1 t = iblk4 V c 1 t := by dsimp only [dat4, mkDat4, aft4]
theorem after4_2 (c : Dev nD) (t : Fin cfg4.N) : (dat4 V c).after 2 t = out4_2 (sAt4 V c t.val t.isLt) := by dsimp only [dat4, mkDat4, aft4]

/-- What the output buffer holds after the last point of a run, over the payload of the body's copying store. -/
theorem aft4_2_last (c : Dev nD) (t : Fin cfg4.N) (h : t.val % 12 = 11) :
    aft4 V c 2 t = View.canon [⟨r4_y, k4_pay3 (sAt4 V c t.val t.isLt)⟩] := by dsimp only [aft4, out4_2]

theorem after4_2_last (c : Dev nD) (t : Fin cfg4.N) (h : t.val % 12 = 11) :
    (dat4 V c).after 2 t = View.canon [⟨r4_y, k4_pay3 (sAt4 V c t.val t.isLt)⟩] := by dsimp only [dat4, mkDat4, aft4, out4_2]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

theorem Phi4_castSucc (c : Dev nD) (t : Fin cfg4.N) :
    (dat4 V c).Φ t.castSucc = PhiS4 V c t.val (Nat.le_of_lt t.isLt) := rfl

/-! ## Where the body's conditions hold, and where the output window is idle -/

/-- The first condition holds at the first point of each run of twelve, -/
theorem hcond4_0 : ∀ t : Fin cfg4.N, cond4_0 (grid4.coords t) ↔ t.val % 12 = 0 :=
  (by decide +kernel : ∀ t : Fin grid4.N, cond4_0 (grid4.coords t) ↔ t.val % 12 = 0)
/-- the second at the last. -/
theorem hcond4_1 : ∀ t : Fin cfg4.N, cond4_1 (grid4.coords t) ↔ t.val % 12 = 11 :=
  (by decide +kernel : ∀ t : Fin grid4.N, cond4_1 (grid4.coords t) ↔ t.val % 12 = 11)

/-- The inputs are never idle; the output is idle, and not written back, exactly off the last point of a run. -/
theorem liveAt4_0 : ∀ t : Fin cfg4.N, cfg4.idle 0 (grid4.coords t) = false := fun _ => rfl
theorem liveAt4_1 : ∀ t : Fin cfg4.N, cfg4.idle 1 (grid4.coords t) = false := fun _ => rfl
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

theorem leaves4_0 (c : Dev nD) (t : Fin cfg4.N) :
    (dat4 V c).leavesExact 0 t = owns (c : Thread nD τ) (st4_0 t) fullShare (iblk4 V c 0 t) := by
  rw [← after4_0 V c t]
theorem leaves4_1 (c : Dev nD) (t : Fin cfg4.N) :
    (dat4 V c).leavesExact 1 t = owns (c : Thread nD τ) (st4_1 t) fullShare (iblk4 V c 1 t) := by
  rw [← after4_1 V c t]
theorem leaves4_2_last (c : Dev nD) (t : Fin cfg4.N) (h : cond4_1 (grid4.coords t)) :
    (dat4 V c).leavesExact 2 t = owns (c : Thread nD τ) (st4_2 t) fullShare (out4_2 (sAt4 V c t.val t.isLt)) := by
  rw [← after4_2 V c t]; unfold Dat.leavesExact; rw [liveAt4_2 t h]

set_option maxHeartbeats 4000000 in
/-- The body at any point. The input buffers hold their blocks. At the first point of a run the accumulator is
    handed over at anything (before the very first point with the rest of the scoped buffers, later at what the
    run before left) and comes back at one step over zeros; at the other points it is handed over at what the point
    before left and comes back one step on. Off the last point of a run the output buffer passes through unread;
    at the last it comes back at the accumulator's contents. What the core owes passes through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ, Phi4_castSucc]
  rw [leaves4_0, leaves4_1]
  by_cases h0 : t.val % 12 = 0
  · have hc0 : cond4_0 (grid4.coords t) := (hcond4_0 t).mpr h0
    have hc1 : ¬cond4_1 (grid4.coords t) := fun h => by have := (hcond4_1 t).mp h; omega
    rw [Dat.leavesExact_idle (dat4 V c) 2 t (idleAt4_2 t hc1) (noFlush4_2 t hc1), sAt4_first' V c t h0]
    by_cases hz : t.val = 0
    · rw [PhiS4_zero V c _ _ hz, PhiA4_eq]
      iintro ⟨⟨⟨HS, HR⟩, Hg⟩, Ho, ⟨%d0, H0⟩, ⟨%d1, H1⟩, ⟨%d2, H2⟩⟩
      iapply (sound_kernel4_first c Set.univ (grid4.coords t) hc0 hc1 _ _ _ _ _ _ _ _ (iblk4 V c 0 t) (iblk4 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [PhiS4_pos V c _ _ hz]
      iintro ⟨⟨⟨HS, HR⟩, Hg⟩, Ho, ⟨%d0, H0⟩, ⟨%d1, H1⟩, ⟨%d2, H2⟩⟩
      iapply (sound_kernel4_first c Set.univ (grid4.coords t) hc0 hc1 _ _ _ _ _ _ _ _ (iblk4 V c 0 t) (iblk4 V c 1 t) _ _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hc0 : ¬cond4_0 (grid4.coords t) := fun h => h0 ((hcond4_0 t).mp h)
    have hz : t.val ≠ 0 := fun h => h0 (by rw [h])
    rw [PhiS4_pos V c _ _ hz, sAt4_next' V c t h0]
    by_cases h1 : t.val % 12 = 11
    · have hc1 : cond4_1 (grid4.coords t) := (hcond4_1 t).mpr h1
      rw [leaves4_2_last V c t hc1, sAt4_next' V c t h0]
      iintro ⟨⟨⟨HS, HR⟩, Hg⟩, Ho, ⟨%d0, H0⟩, ⟨%d1, H1⟩, ⟨%d2, H2⟩⟩
      iapply (sound_kernel4_last c Set.univ (grid4.coords t) hc0 hc1 _ _ _ _ _ _ _ _ (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hc1 : ¬cond4_1 (grid4.coords t) := fun h => h1 ((hcond4_1 t).mp h)
      rw [Dat.leavesExact_idle (dat4 V c) 2 t (idleAt4_2 t hc1) (noFlush4_2 t hc1)]
      iintro ⟨⟨⟨HS, HR⟩, Hg⟩, Ho, ⟨%d0, H0⟩, ⟨%d1, H1⟩, ⟨%d2, H2⟩⟩
      iapply (sound_kernel4_mid c Set.univ (grid4.coords t) hc0 hc1 _ _ _ _ _ _ _ _ (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The body obligation of the pipeline, at every point. -/
theorem body_obligation4 (c : Dev nD) :
    BodyObligation (mkDat4 (F := F) V c (aft4 V c) (Phi4 V c)) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ Phi4 V c 0 :=
  Idealize.SL.BI.Entails.refl _

/-- After the last point the invariant gives it back: the accumulator's contents are forgotten. -/
theorem hout4 (c : Dev nD) : Phi4 V c (Fin.last cfg4.N) ⊢ (Pipeline.ΦA spec4 c : sProp 𝕄) := by
  rw [show Phi4 V c (Fin.last cfg4.N) = PhiS4 V c cfg4.N (Nat.le_refl _) from rfl,
    PhiS4_pos V c _ _ (by rw [show cfg4.N = 96 from N_4]; decide), PhiA4_eq]
  iintro ⟨⟨HS, HR⟩, Hg⟩
  isplitl [HS HR]
  · isplitl [HS]; · iexists _; iexact HS
    iexact HR
  iexact Hg

end Cert.Kernel.Fr

end
-- ==== Proof.KR0.lean ====
/-
  Region 0: one of the three linear projections, split by heads. At grid point (b, i, h) the body reads the
  1024 × 768 block of rows i·1024 … of batch b of the activations and the 64 rows h·64 … of the weight matrix,
  multiplies the first by the transpose of the second, and stores the 1024 × 64 product as block (b·12+h, i) of
  the result. The body keeps nothing between points and reads no output buffer it has not written, so what it
  leaves in the output buffer is a function of the two input blocks at the point.
-/
import proofs.«165060_j71665824301623_2_alg».proof.Proof.Gen.Kernel.Launch
import proofs.«165060_j71665824301623_2_alg».proof.Proof.Gen.Kernel.Skeleton
import proofs.«165060_j71665824301623_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block at every point, fetched there or not: where the
    pipeline does not fetch, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight matrix, whose one block is the whole matrix at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses: the whole activation block, the 64 weight rows of the point's head, the whole
    output block. -/
abbrev r0_x : Rect S1x1024x768 := Rect.unit (s := S1x1024x768) ![0, 0, 0] S1x1024x768.size inb_S1x1024x768_S1x1024x768_0_0_0
abbrev r0_w (i : grid0.Coords) : Rect S768x768 := Rect.unit (s := S768x768) (k0_off1 i) S64x768.size (k0_off1_inb i)
abbrev r0_o : Rect S1x1024x64 := Rect.unit (s := S1x1024x64) ![0, 0, 0] S1x1024x64.size inb_S1x1024x64_S1x1024x64_0_0_0

/-- What the body leaves in the output buffer at grid coordinates `i`, from the contents of the two input buffers:
    its one store, over the whole buffer, of the product of the loaded pieces. -/
def out0_2 (i : grid0.Coords) (x0 : Vec F S1x1024x768 .f32) (x1 : Vec F S768x768 .f32) : Vec F S1x1024x64 .bf16 :=
  View.canon [⟨r0_o, k0_pay1 (View.ld x0 r0_x) (View.ld x1 (r0_w i))⟩]

/-- The one store covers the output buffer. -/
theorem cover0_2 (p0 : Vec F S1x1024x64 .bf16) (y : S1x1024x64.Idx) :
    ∃ pc ∈ ([⟨r0_o, p0⟩] : List (View.Piece (Elt F) S1x1024x64 .bf16)), y ∈ pc.1.set :=
  View.cover_of_tiled [⟨r0_o, p0⟩] S1x1024x64.size (by rfl) y

set_option maxHeartbeats 1000000 in
/-- The body on whole staging buffers, the inputs' holding `x0`, `x1` and the output's anything, runs to the end
    with the inputs' as they were and the output's at `out0_2` of them. -/
theorem sound_kernel0 (c : Dev nD) (E : Set ℕ) (i : grid0.Coords) (arg3 : Memref sig .tc .vmem S1x1024x768 .f32) (harg3 : arg3.IsWhole)
    (arg4 : Memref sig .tc .vmem S768x768 .f32) (harg4 : arg4.IsWhole) (arg5 : Memref sig .tc .vmem S1x1024x64 .bf16) (harg5 : arg5.IsWhole)
    (x0 : Vec F S1x1024x768 .f32) (x1 : Vec F S768x768 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out0_2 i x0 x1)) -∗ K ⟨⟩))
      ⊢ wp frame (wpE (defs₀ (F := F)) Variants.none c none) E (cc0__proj_split_kernel i arg3 harg3 arg4 harg4 arg5 harg5) K := by
  simp only [cc0__proj_split_kernel_eq_skeleton]; unfold cc0__proj_split_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body at point `t` each input
    buffer at its block and the output buffer at `out0_2` of the input blocks; the invariant only carries the scoped
    rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (grid0.coords t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KR1.lean ====
/-
  Region 1: one of the three linear projections, split by heads. At grid point (b, i, h) the body reads the
  1024 × 768 block of rows i·1024 … of batch b of the activations and the 64 rows h·64 … of the weight matrix,
  multiplies the first by the transpose of the second, and stores the 1024 × 64 product as block (b·12+h, i) of
  the result. The body keeps nothing between points and reads no output buffer it has not written, so what it
  leaves in the output buffer is a function of the two input blocks at the point.
-/
import proofs.«165060_j71665824301623_2_alg».proof.Proof.Gen.Kernel.Launch
import proofs.«165060_j71665824301623_2_alg».proof.Proof.Gen.Kernel.Skeleton
import proofs.«165060_j71665824301623_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block at every point, fetched there or not: where the
    pipeline does not fetch, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the weight matrix, whose one block is the whole matrix at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's three accesses: the whole activation block, the 64 weight rows of the point's head, the whole
    output block. -/
abbrev r1_x : Rect S1x1024x768 := Rect.unit (s := S1x1024x768) ![0, 0, 0] S1x1024x768.size inb_S1x1024x768_S1x1024x768_0_0_0
abbrev r1_w (i : grid1.Coords) : Rect S768x768 := Rect.unit (s := S768x768) (k1_off1 i) S64x768.size (k1_off1_inb i)
abbrev r1_o : Rect S1x1024x64 := Rect.unit (s := S1x1024x64) ![0, 0, 0] S1x1024x64.size inb_S1x1024x64_S1x1024x64_0_0_0

/-- What the body leaves in the output buffer at grid coordinates `i`, from the contents of the two input buffers:
    its one store, over the whole buffer, of the product of the loaded pieces. -/
def out1_2 (i : grid1.Coords) (x0 : Vec F S1x1024x768 .f32) (x1 : Vec F S768x768 .f32) : Vec F S1x1024x64 .bf16 :=
  View.canon [⟨r1_o, k1_pay1 (View.ld x0 r1_x) (View.ld x1 (r1_w i))⟩]

/-- The one store covers the output buffer. -/
theorem cover1_2 (p0 : Vec F S1x1024x64 .bf16) (y : S1x1024x64.Idx) :
    ∃ pc ∈ ([⟨r1_o, p0⟩] : List (View.Piece (Elt F) S1x1024x64 .bf16)), y ∈ pc.1.set :=
  View.cover_of_tiled [⟨r1_o, p0⟩] S1x1024x64.size (by rfl) y

set_option maxHeartbeats 1000000 in
/-- The body on whole staging buffers, the inputs' holding `x0`, `x1` and the output's anything, runs to the end
    with the inputs' as they were and the output's at `out1_2` of them. -/
theorem sound_kernel1 (c : Dev nD) (E : Set ℕ) (i : grid1.Coords) (arg3 : Memref sig .tc .vmem S1x1024x768 .f32) (harg3 : arg3.IsWhole)
    (arg4 : Memref sig .tc .vmem S768x768 .f32) (harg4 : arg4.IsWhole) (arg5 : Memref sig .tc .vmem S1x1024x64 .bf16) (harg5 : arg5.IsWhole)
    (x0 : Vec F S1x1024x768 .f32) (x1 : Vec F S768x768 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out1_2 i x0 x1)) -∗ K ⟨⟩))
      ⊢ wp frame (wpE (defs₀ (F := F)) Variants.none c none) E (cc1__proj_split_kernel i arg3 harg3 arg4 harg4 arg5 harg5) K := by
  simp only [cc1__proj_split_kernel_eq_skeleton]; unfold cc1__proj_split_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core `c`: the arrays as the region finds them; after the body at point `t` each input
    buffer at its block and the output buffer at `out1_2` of the input blocks; the invariant only carries the scoped
    rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (grid1.coords t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KR2.lean ====
/-
  Region 2: one of the three linear projections, split by heads. At grid point (b, i, h) the body reads the
  1024 × 768 block of rows i·1024 … of batch b of the activations and the 64 rows h·64 … of the weight matrix,
  multiplies the first by the transpose of the second, and stores the 1024 × 64 product as block (b·12+h, i) of
  the result. The body keeps nothing between points and reads no output buffer it has not written, so what it
  leaves in the output buffer is a function of the two input blocks at the point.
-/
import proofs.«165060_j71665824301623_2_alg».proof.Proof.Gen.Kernel.Launch
import proofs.«165060_j71665824301623_2_alg».proof.Proof.Gen.Kernel.Skeleton
import proofs.«165060_j71665824301623_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's block at every point, fetched there or not: where the
    pipeline does not fetch, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the weight matrix, whose one block is the whole matrix at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's three accesses: the whole activation block, the 64 weight rows of the point's head, the whole
    output block. -/
abbrev r2_x : Rect S1x1024x768 := Rect.unit (s := S1x1024x768) ![0, 0, 0] S1x1024x768.size inb_S1x1024x768_S1x1024x768_0_0_0
abbrev r2_w (i : grid2.Coords) : Rect S768x768 := Rect.unit (s := S768x768) (k2_off1 i) S64x768.size (k2_off1_inb i)
abbrev r2_o : Rect S1x1024x64 := Rect.unit (s := S1x1024x64) ![0, 0, 0] S1x1024x64.size inb_S1x1024x64_S1x1024x64_0_0_0

/-- What the body leaves in the output buffer at grid coordinates `i`, from the contents of the two input buffers:
    its one store, over the whole buffer, of the product of the loaded pieces. -/
def out2_2 (i : grid2.Coords) (x0 : Vec F S1x1024x768 .f32) (x1 : Vec F S768x768 .f32) : Vec F S1x1024x64 .bf16 :=
  View.canon [⟨r2_o, k2_pay1 (View.ld x0 r2_x) (View.ld x1 (r2_w i))⟩]

/-- The one store covers the output buffer. -/
theorem cover2_2 (p0 : Vec F S1x1024x64 .bf16) (y : S1x1024x64.Idx) :
    ∃ pc ∈ ([⟨r2_o, p0⟩] : List (View.Piece (Elt F) S1x1024x64 .bf16)), y ∈ pc.1.set :=
  View.cover_of_tiled [⟨r2_o, p0⟩] S1x1024x64.size (by rfl) y

set_option maxHeartbeats 1000000 in
/-- The body on whole staging buffers, the inputs' holding `x0`, `x1` and the output's anything, runs to the end
    with the inputs' as they were and the output's at `out2_2` of them. -/
theorem sound_kernel2 (c : Dev nD) (E : Set ℕ) (i : grid2.Coords) (arg3 : Memref sig .tc .vmem S1x1024x768 .f32) (harg3 : arg3.IsWhole)
    (arg4 : Memref sig .tc .vmem S768x768 .f32) (harg4 : arg4.IsWhole) (arg5 : Memref sig .tc .vmem S1x1024x64 .bf16) (harg5 : arg5.IsWhole)
    (x0 : Vec F S1x1024x768 .f32) (x1 : Vec F S768x768 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out2_2 i x0 x1)) -∗ K ⟨⟩))
      ⊢ wp frame (wpE (defs₀ (F := F)) Variants.none c none) E (cc2__proj_split_kernel i arg3 harg3 arg4 harg4 arg5 harg5) K := by
  simp only [cc2__proj_split_kernel_eq_skeleton]; unfold cc2__proj_split_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core `c`: the arrays as the region finds them; after the body at point `t` each input
    buffer at its block and the output buffer at `out2_2` of the input blocks; the invariant only carries the scoped
    rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (grid2.coords t) (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (grid2.coords t) (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KR3.lean ====
/-
  Region 3: attention, one head and one block of 512 query rows per grid point (g, i). The body reads the query
  block (g, i) and the head's whole key and value arrays (2048 × 64 each), forms the scaled scores, their row
  softmax and its product with the values, and stores the 512 × 64 result as block (g, i) of the output. It keeps
  nothing between points, so what it leaves in the output buffer is a function of the three input blocks.
-/
import proofs.«165060_j71665824301623_2_alg».proof.Proof.Gen.Kernel.Launch
import proofs.«165060_j71665824301623_2_alg».proof.Proof.Gen.Kernel.Skeleton
import proofs.«165060_j71665824301623_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input's staging buffer holds the point's block at every point, fetched there or not: where the pipeline
    does not fetch (the keys and values within one head), the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The body's accesses: each buffer whole. -/
abbrev r3_q : Rect S1x512x64 := Rect.unit (s := S1x512x64) ![0, 0, 0] S1x512x64.size inb_S1x512x64_S1x512x64_0_0_0
abbrev r3_k : Rect S1x2048x64 := Rect.unit (s := S1x2048x64) ![0, 0, 0] S1x2048x64.size inb_S1x2048x64_S1x2048x64_0_0_0

/-- What the body leaves in the output buffer, from the contents of the three input buffers: its one store, over
    the whole buffer, of the attention of the loaded blocks. -/
def out3_3 (x0 : Vec F S1x512x64 .bf16) (x1 : Vec F S1x2048x64 .bf16) (x2 : Vec F S1x2048x64 .bf16) : Vec F S1x512x64 .bf16 :=
  View.canon [⟨r3_q, k3_pay1 (View.ld x0 r3_q) (View.ld x1 r3_k) (View.ld x2 r3_k)⟩]

/-- The one store covers the output buffer. -/
theorem cover3_3 (p0 : Vec F S1x512x64 .bf16) (y : S1x512x64.Idx) :
    ∃ pc ∈ ([⟨r3_q, p0⟩] : List (View.Piece (Elt F) S1x512x64 .bf16)), y ∈ pc.1.set :=
  View.cover_of_tiled [⟨r3_q, p0⟩] S1x512x64.size (by rfl) y

set_option maxHeartbeats 1000000 in
/-- The body on whole staging buffers, the inputs' holding `x0`, `x1`, `x2` and the output's anything, runs to the end
    with the inputs' as they were and the output's at `out3_3` of them. -/
theorem sound_kernel3 (c : Dev nD) (E : Set ℕ) (i : grid3.Coords) (arg2 : Memref sig .tc .vmem S1x512x64 .bf16) (harg2 : arg2.IsWhole)
    (arg3 : Memref sig .tc .vmem S1x2048x64 .bf16) (harg3 : arg3.IsWhole) (arg4 : Memref sig .tc .vmem S1x2048x64 .bf16) (harg4 : arg4.IsWhole)
    (arg5 : Memref sig .tc .vmem S1x512x64 .bf16) (harg5 : arg5.IsWhole)
    (x0 : Vec F S1x512x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3_3 x0 x1 x2)) -∗ K ⟨⟩))
      ⊢ wp frame (wpE (defs₀ (F := F)) Variants.none c none) E (cc3__attn_kernel i arg2 harg2 arg3 harg3 arg4 harg4 arg5 harg5) K := by
  simp only [cc3__attn_kernel_eq_skeleton]; unfold cc3__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The region's proof data on core `c`: the arrays as the region finds them; after the body at point `t` each input
    buffer at its block and the output buffer at `out3_3` of the input blocks; the invariant only carries the scoped
    rest and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KRun.lean ====
/-
  The whole run. Between two items of the program — the five kernel regions and the one transpose of the output
  weights — every unscoped buffer of a core holds known contents: the launch memory, then after each region its
  arrays at what the region's write-backs leave (the inputs as entered) and every other buffer as entered, after
  the transpose what it computes. From these the program's run is assembled: it terminates without a fault and
  ends with every unscoped buffer at the last of these contents; in particular the seven argument arrays end as
  launched, since no item writes one.
-/
import proofs.«165060_j71665824301623_2_alg».proof.Proof.Gen.Kernel.Launch
import proofs.«165060_j71665824301623_2_alg».proof.Proof.Gen.Kernel.Skeleton
import proofs.«165060_j71665824301623_2_alg».proof.Proof.Gen.Kernel.Points
import proofs.«165060_j71665824301623_2_alg».proof.Proof.KR0
import proofs.«165060_j71665824301623_2_alg».proof.Proof.KR1
import proofs.«165060_j71665824301623_2_alg».proof.Proof.KR2
import proofs.«165060_j71665824301623_2_alg».proof.Proof.KR3
import proofs.«165060_j71665824301623_2_alg».proof.Proof.KDat4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the last region — whose body carries an accumulator between grid points — supplies at entry contents `V`:
    what its body leaves in each staging buffer after each point, the invariant it keeps between points, its body
    obligation for the proof data made of these, and that the invariant starts from, and gives back, the scoped
    rest with the generator register. -/
structure Last (V : (c : Dev nD) → (b : Ref sig .tc) → Buf (Elt F) ((c : Thread nD τ).loc b)) where
  aft : (c : Dev nD) → (w : Fin cfg4.W) → Fin cfg4.N → (cfg4.win w).block.Idx → Elt F (cfg4.win w).elt
  Φ : (c : Dev nD) → Fin (cfg4.N + 1) → sProp 𝕄
  hbody : ∀ c, BodyObligation (mkDat4 (F := F) V c (aft c) (Φ c)) (defs₀ (F := F)) Variants.none () Set.univ
  hin : ∀ c, (Pipeline.ΦA spec4 c : sProp 𝕄) ⊢ Φ c 0
  hout : ∀ c, Φ c (Fin.last cfg4.N) ⊢ (Pipeline.ΦA spec4 c : sProp 𝕄)

/-- The last region's proof data at entry contents `V`. -/
abbrev Last.dat {V : (c : Dev nD) → (b : Ref sig .tc) → Buf (Elt F) ((c : Thread nD τ).loc b)} (P : Last (F := F) V) (c : Dev nD) :
    Dat τ (Elt F) Unit ℕ (UR sig nD τ) ℕ cfg4 c := mkDat4 V c (P.aft c) (P.Φ c)

variable (P4 : ∀ V : (c : Dev nD) → (b : Ref sig .tc) → Buf (Elt F) ((c : Thread nD τ).loc b), Last (F := F) V)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
/-- After region 1. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
/-- After region 2. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
/-- After region 3. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
abbrev V4 : (c : Dev nD) → (b : Ref sig .tc) → Buf (Elt F) ((c : Thread nD τ).loc b) := fun c b => W4 m ρ c b
/-- After the transpose of the output weights. -/
abbrev W5 : Dev nD → Valuation τ sig (Elt F) := fun c => StableHlo.after hostOps4 (W4 m ρ c)
abbrev V5 : (c : Dev nD) → (b : Ref sig .tc) → Buf (Elt F) ((c : Thread nD τ).loc b) := fun c b => W5 m ρ c b
/-- After the last region. -/
def W6 (c : Dev nD) : Valuation τ sig (Elt F) :=
  Pipeline.withArrays spec4 c (W5 m ρ c) fun w => ((P4 (V5 m ρ)).dat c).arrAt w cfg4.N
theorem W6_arr (c : Dev nD) (w : Fin cfg4.W) :
    W6 m ρ P4 c (Proc.devRef .tc (Pipeline.arrRef spec4 w)) = ((P4 (V5 m ρ)).dat c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ P4 c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ P4 c b

/-! ## Each region's arrays end at what its write-backs leave; every other buffer as entered -/

theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)
theorem hF4 (c : Dev nD) (w : Fin cfg4.W) : ((P4 (V5 m ρ)).dat c).arrAt w cfg4.N = V6 m ρ P4 c (Pipeline.arrRef spec4 w) :=
  (W6_arr m ρ P4 c w).symm
theorem hrest4 (c : Dev nD) : ∀ b, b ∉ Finset.univ.image (Pipeline.arrRef spec4) → V6 m ρ P4 c b = V5 m ρ c b :=
  fun b hb => W6_of_ne m ρ P4 c b fun w e => hb (Finset.mem_image.mpr ⟨w, Finset.mem_univ _, e⟩)

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => (P4 (V5 m ρ)).dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it
    owes, which is nothing. -/
abbrev R (c : Dev nD) : sProp 𝕄 := iprop((∃ r, prngReg c r) ∗ ∃ W, owes (c : Thread nD τ) (0 : CellTallies nD τ sig Unit) W)
/-- A line of host operations as an item, over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The transpose allocates no buffer. -/
theorem hostOps4_fresh' : (hostOps4 : List (HloOp τ sig (Elt F))).Forall fun op => op.fresh = ∅ := by
  simp only [List.Forall]; repeat' constructor
/-- An unscoped buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register
    at some state. -/
abbrev Tₙ (c : Dev nD) : sProp 𝕄 := iprop(StableHlo.held (c : Thread nD τ) (Pipeline.ucRefs τ sig) (W6 m ρ P4 c) ∗ ∃ r, prngReg c r)

/-! ## The regions as items -/

set_option backward.isDefEq.respectTransparency.types false in
/-- Region 0 over the thread state: entered with every unscoped buffer at `W0`, left with them at `W1`. Its
    arrays are split out of the unscoped buffers at entry and put back at their final contents at exit; the generator
    register goes into the region's invariant and comes out; nothing is owed; the kernel has no semaphore of its own. -/
def reg0 : Pipeline.RegionSeg (pcfgs (F := F)) adm (pdats m ρ P4) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ P4) launch0.win launch0.arr_whole c
      ((pdats m ρ P4 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ P4 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ P4 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ P4) ((pdats m ρ P4 0 c).share_full fun _ => rfl)
      (V0 m ρ c) (V1 m ρ c) ((pdats m ρ P4 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`. Its
    arrays are split out of the unscoped buffers at entry and put back at their final contents at exit; the generator
    register goes into the region's invariant and comes out; nothing is owed; the kernel has no semaphore of its own. -/
def reg1 : Pipeline.RegionSeg (pcfgs (F := F)) adm (pdats m ρ P4) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ P4) launch1.win launch1.arr_whole c
      ((pdats m ρ P4 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ P4 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ P4 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ P4) ((pdats m ρ P4 1 c).share_full fun _ => rfl)
      (V1 m ρ c) (V2 m ρ c) ((pdats m ρ P4 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W2`, left with them at `W3`. Its
    arrays are split out of the unscoped buffers at entry and put back at their final contents at exit; the generator
    register goes into the region's invariant and comes out; nothing is owed; the kernel has no semaphore of its own. -/
def reg2 : Pipeline.RegionSeg (pcfgs (F := F)) adm (pdats m ρ P4) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ P4) launch2.win launch2.arr_whole c
      ((pdats m ρ P4 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ P4 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ P4 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ P4) ((pdats m ρ P4 2 c).share_full fun _ => rfl)
      (V2 m ρ c) (V3 m ρ c) ((pdats m ρ P4 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W3`, left with them at `W4`. Its
    arrays are split out of the unscoped buffers at entry and put back at their final contents at exit; the generator
    register goes into the region's invariant and comes out; nothing is owed; the kernel has no semaphore of its own. -/
def reg3 : Pipeline.RegionSeg (pcfgs (F := F)) adm (pdats m ρ P4) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ P4) launch3.win launch3.arr_whole c
      ((pdats m ρ P4 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ P4 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ P4 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ P4) ((pdats m ρ P4 3 c).share_full fun _ => rfl)
      (V3 m ρ c) (V4 m ρ c) ((pdats m ρ P4 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The last region over the thread state: entered with every unscoped buffer at `W5`, left with them at `W6`. Its
    invariant starts from the scoped rest and the generator register and gives them back (the accumulator's
    contents forgotten). -/
def reg4 : Pipeline.RegionSeg (pcfgs (F := F)) adm (pdats m ρ P4) () defs₀ 𝒱₀ L lv 4 where
  win := launch4.win.to₀
  block_pos := launch4.block_pos
  stage_whole := launch4.stage_whole
  K := PEmpty
  osem k := k.elim
  ho := Pipeline.OwnSemFacts.none _
  hbody c := ((P4 (V5 m ρ)).hbody c).loose
  hwaits := Pipeline.hwaits_of_owed_zero _ _ _ _ L lv 4 fun _ _ => rfl
  pre c := iprop(StableHlo.held (c : Thread nD τ) (Pipeline.ucRefs τ sig) (W5 m ρ c) ∗ R c)
  post c := iprop(Tₙ m ρ P4 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ P4) launch4.win launch4.arr_whole c
      ((pdats m ρ P4 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ P4 4 c).Φ 0 = (P4 (V5 m ρ)).Φ c 0 from rfl]
    have h1 : (iprop((∃ r, prngReg c r) ∗ Pipeline.prefHeld (pcfgs (F := F) 4).pre c (fun _ => fullShare) (adm (F := F) 4).1 ∗ Pipeline.scopedRest spec4 c) : sProp 𝕄)
        ⊢ Pipeline.ΦA spec4 c := by
      unfold Pipeline.ΦA
      iintro ⟨Hp, -, Hr⟩
      isplitl [Hr]; · iexact Hr
      iexact Hp
    exact h1.trans ((P4 (V5 m ρ)).hin c)
  hout c := by
    rw [Pipeline.ownSems0_none, show (pdats m ρ P4 4 c).Φ (Fin.last _) = (P4 (V5 m ρ)).Φ c (Fin.last cfg4.N) from rfl]
    have h1 : (Pipeline.ΦA spec4 c : sProp 𝕄) ⊢ iprop((∃ r, prngReg c r) ∗ emp ∗ Pipeline.scopedRest spec4 c) := by
      unfold Pipeline.ΦA
      iintro ⟨Hr, Hp⟩
      isplitl [Hp]; · iexact Hp
      isplitr; · iempintro
      iexact Hr
    exact ((P4 (V5 m ρ)).hout c).trans h1
  hexit c := by
    have hjoin := Pipeline.unscopedBufs_of_arrays (p := 4) (pcfgs (F := F)) adm (Ix := Unit) (Name := ℕ) (U := UR sig nD τ) (Lvl := ℕ)
      launch4.win launch4.arr_whole c (pdats m ρ P4) ((pdats m ρ P4 4 c).share_full fun _ => rfl)
      (V5 m ρ c) (V6 m ρ P4 c) ((pdats m ρ P4 4 c).arrAt · cfg4.N) (hF4 m ρ P4 c) (hrest4 m ρ P4 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's six items in order. -/
abbrev segs : List (Pipeline.Seg (pcfgs (F := F)) adm (pdats m ρ P4) () defs₀ 𝒱₀ L lv) :=
  [ .region (reg0 m ρ P4), .region (reg1 m ρ P4), .region (reg2 m ρ P4), .region (reg3 m ρ P4),
    .host (hseg hostOps4 hostOps4_sub hostOps4_fresh' (W4 m ρ)),
    .region (reg4 m ρ P4) ]
/-- The program is the run of its items. -/
theorem main_run (c : Dev nD) : main (F := F) c = Pipeline.Seg.run (segs m ρ P4) := (main_chain c).trans (by chain_rfl)

set_option backward.isDefEq.respectTransparency.types false in
/-- From any memory with zero counters every weakly fair execution of the program terminates, nothing faulting, and
    every final state holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ P4 c b) :=
  Pipeline.θ_run_regions_kit (pcfgs (F := F)) adm (pdats m ρ P4) () cellOf_inj emb₁ defs₀ 𝒱₀ L lv m ρ main (segs m ρ P4)
    (fun c Q => by rw [main_run m ρ P4 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ P4)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ P4 c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ P4 c) s')
      isplitl [Hh] <;> iassumption)
    (hQ := fun s h c => h c)

/-! ## The arguments end as launched: no item writes one (a region reads it through an input window or passes it by) -/

theorem W6_main_arg0 (c : Dev nD) : W6 m ρ P4 c (Proc.devRef .tc main_arg0) = m ((c : Thread nD τ).loc main_arg0) :=
  calc W6 m ρ P4 c (Proc.devRef .tc main_arg0)
    _ = W5 m ρ c (Proc.devRef .tc main_arg0) := W6_of_ne m ρ P4 c main_arg0 (by decide)
    _ = W4 m ρ c (Proc.devRef .tc main_arg0) := StableHlo.after_of_forall_not_mem (b := Proc.devRef .tc main_arg0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W6_main_arg1 (c : Dev nD) : W6 m ρ P4 c (Proc.devRef .tc main_arg1) = m ((c : Thread nD τ).loc main_arg1) :=
  calc W6 m ρ P4 c (Proc.devRef .tc main_arg1)
    _ = W5 m ρ c (Proc.devRef .tc main_arg1) := W6_of_ne m ρ P4 c main_arg1 (by decide)
    _ = W4 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W6_main_arg2 (c : Dev nD) : W6 m ρ P4 c (Proc.devRef .tc main_arg2) = m ((c : Thread nD τ).loc main_arg2) :=
  calc W6 m ρ P4 c (Proc.devRef .tc main_arg2)
    _ = W5 m ρ c (Proc.devRef .tc main_arg2) := W6_of_ne m ρ P4 c main_arg2 (by decide)
    _ = W4 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg2) := W4_of_ne m ρ c main_arg2 (by decide)
    _ = W2 m ρ c (Proc.devRef .tc main_arg2) := (W3_arr m ρ c 0).trans (((dat2 (V2 m ρ) c).arrAt_in 0 rfl _).trans (A_eq2 (V2 m ρ) c 0))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem W6_main_arg3 (c : Dev nD) : W6 m ρ P4 c (Proc.devRef .tc main_arg3) = m ((c : Thread nD τ).loc main_arg3) :=
  calc W6 m ρ P4 c (Proc.devRef .tc main_arg3)
    _ = W5 m ρ c (Proc.devRef .tc main_arg3) := W6_of_ne m ρ P4 c main_arg3 (by decide)
    _ = W4 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl

theorem W6_main_arg4 (c : Dev nD) : W6 m ρ P4 c (Proc.devRef .tc main_arg4) = m ((c : Thread nD τ).loc main_arg4) :=
  calc W6 m ρ P4 c (Proc.devRef .tc main_arg4)
    _ = W5 m ρ c (Proc.devRef .tc main_arg4) := W6_of_ne m ρ P4 c main_arg4 (by decide)
    _ = W4 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := (W2_arr m ρ c 1).trans (((dat1 (V1 m ρ) c).arrAt_in 1 rfl _).trans (A_eq1 (V1 m ρ) c 1))
    _ = W0 m ρ c (Proc.devRef .tc main_arg4) := W1_of_ne m ρ c main_arg4 (by decide)
    _ = m ((c : Thread nD τ).loc main_arg4) := rfl

theorem W6_main_arg5 (c : Dev nD) : W6 m ρ P4 c (Proc.devRef .tc main_arg5) = m ((c : Thread nD τ).loc main_arg5) :=
  calc W6 m ρ P4 c (Proc.devRef .tc main_arg5)
    _ = W5 m ρ c (Proc.devRef .tc main_arg5) := W6_of_ne m ρ P4 c main_arg5 (by decide)
    _ = W4 m ρ c (Proc.devRef .tc main_arg5) := StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg5) := W4_of_ne m ρ c main_arg5 (by decide)
    _ = W2 m ρ c (Proc.devRef .tc main_arg5) := (W3_arr m ρ c 1).trans (((dat2 (V2 m ρ) c).arrAt_in 1 rfl _).trans (A_eq2 (V2 m ρ) c 1))
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

theorem W6_main_arg6 (c : Dev nD) : W6 m ρ P4 c (Proc.devRef .tc main_arg6) = m ((c : Thread nD τ).loc main_arg6) :=
  calc W6 m ρ P4 c (Proc.devRef .tc main_arg6)
    _ = W5 m ρ c (Proc.devRef .tc main_arg6) := W6_of_ne m ρ P4 c main_arg6 (by decide)
    _ = W4 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

include P4 in
/-- The frame: every weakly fair execution terminates, nothing faulting, with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W6_main_arg0 m ρ P4 c),
     (h c _ (mem_uc main_arg1 (by decide))).trans (W6_main_arg1 m ρ P4 c),
     (h c _ (mem_uc main_arg2 (by decide))).trans (W6_main_arg2 m ρ P4 c),
     (h c _ (mem_uc main_arg3 (by decide))).trans (W6_main_arg3 m ρ P4 c),
     (h c _ (mem_uc main_arg4 (by decide))).trans (W6_main_arg4 m ρ P4 c),
     (h c _ (mem_uc main_arg5 (by decide))).trans (W6_main_arg5 m ρ P4 c),
     (h c _ (mem_uc main_arg6 (by decide))).trans (W6_main_arg6 m ρ P4 c)⟩) (run_all m ρ P4)

end Cert.Kernel.Fr

end
-- ==== Proof.KLast.lean ====
/-
  The last region's data, handed to the run: what its body leaves, the invariant it keeps, its body obligation, and
  the invariant's two ends.
-/
import proofs.«165060_j71665824301623_2_alg».proof.Proof.KR4
import proofs.«165060_j71665824301623_2_alg».proof.Proof.KRun

noncomputable section

namespace Cert.Kernel.Fr

open Cert.Kernel Cert.Kernel.Gen
open Idealize.ShloMosaic Idealize.ShloMosaic.TcCoe
open Idealize.SL Idealize.SL.Sem

variable {F : FTy → Type} [FloatOps F]

/-- The last region at entry contents `V`. -/
def last4 (V : (c : Dev nD) → (b : Ref sig .tc) → Buf (Elt F) ((c : Thread nD τ).loc b)) : Last (F := F) V where
  aft := aft4 V
  Φ := Phi4 V
  hbody := body_obligation4 V
  hin := hin4 V
  hout := hout4 V

end Cert.Kernel.Fr

end
-- ==== Proof.KIDat4.lean ====
/-
  The shape of the last region's proof data: its arrays read off the entry contents, full shares, nothing owed;
  what the body leaves in each staging buffer and the invariant it keeps between grid points are the parameters.
-/
import proofs.«165060_j71665824301623_2_alg».proof.Proof.Gen.KernelIdeal.Launch
import Idealize.ShloMosaic.Lib.Pipeline.FrameBody

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

local notation "𝕄" => MT nD τ sig Unit (Elt F) ℕ (UR sig nD τ) ℕ

/-- The last region's proof data on core `c` from the entry contents `V`, what the body leaves in each staging
    buffer after each point (`aft`) and the invariant before each point (`Φ`). -/
def mkDat4 (V : (c : Dev nD) → (b : Ref sig .tc) → Buf (Elt F) ((c : Thread nD τ).loc b)) (c : Dev nD)
    (aft : (w : Fin cfg4.W) → Fin cfg4.N → (cfg4.win w).block.Idx → Elt F (cfg4.win w).elt)
    (Φ : Fin (cfg4.N + 1) → sProp 𝕄) : Dat τ (Elt F) Unit ℕ (UR sig nD τ) ℕ cfg4 c where
  A w := V c (Pipeline.arrRef spec4 w)
  after := aft
  Φ := Φ
  q _ := fullShare
  owed _ := 0

end Cert.KernelIdeal.Fr

end
-- ==== Proof.KIR4.lean ====
/-
  Region 4: the heads merged and projected. At grid point (b, i, h) the body reads the 1024 × 64 block of rows
  i·1024 … of head h of batch b of the attention output and the 64 rows h·64 … of the projection matrix, and adds
  their product to a 1024 × 768 accumulator it keeps between points: zeroed first when h = 0, copied to the output
  block (b, i) when h = 11. So along each run of twelve points the accumulator holds the partial sums over the heads
  so far, the output buffer is touched at the run's last point only, and what it then holds is the sum over all
  twelve heads.
-/
import proofs.«165060_j71665824301623_2_alg».proof.Proof.Gen.KernelIdeal.Launch
import proofs.«165060_j71665824301623_2_alg».proof.Proof.Gen.KernelIdeal.Skeleton
import proofs.«165060_j71665824301623_2_alg».proof.Proof.Gen.KernelIdeal.Points
import proofs.«165060_j71665824301623_2_alg».proof.Proof.KIDat4
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's accesses: the whole block of head outputs, the 64 rows of the projection matrix of the point's head,
    the whole accumulator, the whole output block. -/
abbrev r4_o : Rect S1x1024x64 := Rect.unit (s := S1x1024x64) ![0, 0, 0] S1x1024x64.size inb_S1x1024x64_S1x1024x64_0_0_0
abbrev r4_w (i : grid4.Coords) : Rect S768x768 := Rect.unit (s := S768x768) (k4_off1 i) S64x768.size (k4_off1_inb i)
abbrev r4_s : Rect S1024x768 := Rect.unit (s := S1024x768) ![0, 0] S1024x768.size inb_S1024x768_S1024x768_0_0
abbrev r4_y : Rect S1x1024x768 := Rect.unit (s := S1x1024x768) ![0, 0, 0] S1x1024x768.size inb_S1x1024x768_S1x1024x768_0_0_0

/-- The body's two conditions, from the grid coordinates: the point is the first of its run of twelve; it is the last. -/
abbrev cond4_0 (i : grid4.Coords) : Prop := (Scalar.cmpi .ne (Scalar.extui (Scalar.cmpi .eq (BitVec.ofNat 32 (i 2).val) 0#32)) 0#32) = 1#1
abbrev cond4_1 (i : grid4.Coords) : Prop := k4_cond2 i = 1#1

theorem zeros4_2 : (![0, 0] : Fin 2 → ℕ) = fun _ => 0 := by funext a; fin_cases a <;> rfl
theorem zeros4_3 : (![0, 0, 0] : Fin 3 → ℕ) = fun _ => 0 := by funext a; fin_cases a <;> rfl

/-- What one accumulation step leaves in the accumulator holding `s`, from the contents of the two input buffers. -/
def acc4 (i : grid4.Coords) (x0 : Vec F S1x1024x64 .bf16) (x1 : Vec F S768x768 .f32) (s : Vec F S1024x768 .f32) : Vec F S1024x768 .f32 :=
  k4_pay2 (View.ld x0 r4_o) (View.ld x1 (r4_w i)) s

/-- What the last point of a run leaves in the output buffer: its one store, over the whole buffer, of the accumulator. -/
def out4_2 (s : Vec F S1024x768 .f32) : Vec F S1x1024x768 .f32 :=
  View.canon [⟨r4_y, k4_pay3 s⟩]

theorem cover4_2 (p0 : Vec F S1x1024x768 .f32) (y : S1x1024x768.Idx) :
    ∃ pc ∈ ([⟨r4_y, p0⟩] : List (View.Piece (Elt F) S1x1024x768 .f32)), y ∈ pc.1.set :=
  View.cover_of_tiled [⟨r4_y, p0⟩] S1x1024x768.size (by rfl) y

/-- A store over the whole accumulator, last, leaves its payload. -/
theorem read_acc4 {sg : RefSig} (v : View sg .tc .vmem S1024x768 .f32) (f : v.ty.Contents (Elt F)) (w : Vec F S1024x768 .f32)
    (L : List (View.Piece (Elt F) S1024x768 .f32)) :
    v.read (Elt F) (v.writes (Elt F) f ((⟨r4_s, w⟩ : View.Piece (Elt F) S1024x768 .f32) :: L)) = w := by
  have hc : ∀ y : S1024x768.Idx, ∃ p ∈ ((⟨r4_s, w⟩ : View.Piece (Elt F) S1024x768 .f32) :: L), y ∈ p.1.set := by
    intro y
    refine ⟨(⟨r4_s, w⟩ : View.Piece (Elt F) S1024x768 .f32), List.mem_cons_self .., ?_⟩
    exact View.mem_set_unit_zero (S := S1024x768) zeros4_2 inb_S1024x768_S1024x768_0_0 y
  have h1 := View.read_writes_eq_canon v f _ hc
  have h2 := View.canon_cons_unit_zero (Val := Elt F) (S := S1024x768) (e := .f32) zeros4_2 inb_S1024x768_S1024x768_0_0 w L
  exact h1.trans h2

/-- Through the whole-buffer rectangles a load reads the contents and the one store leaves its payload: the step and
    the output without their rectangles. -/
theorem ld4_o (x : Vec F S1x1024x64 .bf16) : View.ld x r4_o = x :=
  View.ld_unit_zero (S := S1x1024x64) zeros4_3 inb_S1x1024x64_S1x1024x64_0_0_0 x

theorem acc4_eq (i : grid4.Coords) (x0 : Vec F S1x1024x64 .bf16) (x1 : Vec F S768x768 .f32) (s : Vec F S1024x768 .f32) :
    acc4 i x0 x1 s = k4_pay2 x0 (View.ld x1 (r4_w i)) s := by
  unfold acc4; rw [ld4_o]

theorem out4_2_eq (s : Vec F S1024x768 .f32) : out4_2 s = k4_pay3 s :=
  View.canon_unit_zero (Val := Elt F) (S := S1x1024x768) (e := .f32) zeros4_3 inb_S1x1024x768_S1x1024x768_0_0_0 (k4_pay3 s)

set_option maxHeartbeats 1000000 in
/-- The body at the first point of a run, on whole buffers — the inputs' holding `x0`, `x1`, the output's `xi`, the
    accumulator anything — runs to the end with the inputs' and the output's as they were and the accumulator at one
    step over zeros. -/
theorem sound_kernel4_first (c : Dev nD) (E : Set ℕ) (i : grid4.Coords) (hc0 : cond4_0 i) (hc1 : ¬cond4_1 i)
    (arg3 : Memref sig .tc .vmem S1x1024x64 .bf16) (harg3 : arg3.IsWhole)
    (arg4 : Memref sig .tc .vmem S768x768 .f32) (harg4 : arg4.IsWhole) (arg5 : Memref sig .tc .vmem S1x1024x768 .f32) (harg5 : arg5.IsWhole)
    (arg6 : Memref sig .tc .vmem S1024x768 .f32) (harg6 : arg6.IsWhole)
    (x0 : Vec F S1x1024x64 .bf16) (x1 : Vec F S768x768 .f32) (xi : Vec F S1x1024x768 .f32) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (acc4 i x0 x1 (k4_pay1 (F := F)))) -∗ K ⟨⟩))
      ⊢ wp frame (wpE (defs₀ (F := F)) Variants.none c none) E (cc4__merge_outproj_kernel i arg3 harg3 arg4 harg4 arg5 harg5 arg6 harg6) K := by
  simp only [cc4__merge_outproj_kernel_eq_skeleton]; unfold cc4__merge_outproj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_acc4 _ _ _ _).trans ?_
  unfold acc4
  refine congrArg (k4_pay2 _ _) ?_
  sl_unfold_run_names
  exact View.readCov_cons_toLoadRect _ _ _ _

set_option maxHeartbeats 1000000 in
/-- The body at a point neither first nor last of its run, the accumulator holding `xs`: one step over `xs`. -/
theorem sound_kernel4_mid (c : Dev nD) (E : Set ℕ) (i : grid4.Coords) (hc0 : ¬cond4_0 i) (hc1 : ¬cond4_1 i)
    (arg3 : Memref sig .tc .vmem S1x1024x64 .bf16) (harg3 : arg3.IsWhole)
    (arg4 : Memref sig .tc .vmem S768x768 .f32) (harg4 : arg4.IsWhole) (arg5 : Memref sig .tc .vmem S1x1024x768 .f32) (harg5 : arg5.IsWhole)
    (arg6 : Memref sig .tc .vmem S1024x768 .f32) (harg6 : arg6.IsWhole)
    (x0 : Vec F S1x1024x64 .bf16) (x1 : Vec F S768x768 .f32) (xi : Vec F S1x1024x768 .f32) (xs : Vec F S1024x768 .f32) (K : PUnit → sProp 𝕄) :
    iprop(owns (c : Thread nD τ) arg3 fullShare x0 ∗ owns (c : Thread nD τ) arg4 fullShare x1 ∗ owns (c : Thread nD τ) arg5 fullShare xi
        ∗ owns (c : Thread nD τ) arg6 fullShare xs
        ∗ (iprop(owns (c : Thread nD τ) arg3 fullShare x0 ∗ owns (c : Thread nD τ) arg4 fullShare x1 ∗ owns (c : Thread nD τ) arg5 fullShare xi
            ∗ owns (c : Thread nD τ) arg6 fullShare (acc4 i x0 x1 xs)) -∗ K ⟨⟩))
      ⊢ wp frame (wpE (defs₀ (F := F)) Variants.none c none) E (cc4__merge_outproj_kernel i arg3 harg3 arg4 harg4 arg5 harg5 arg6 harg6) K := by
  simp only [cc4__merge_outproj_kernel_eq_skeleton]; unfold cc4__merge_outproj_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_acc4 _ _ _ _).trans ?_
  unfold acc4
  refine congrArg (k4_pay2 _ _) ?_
  exact View.ld_unit_zero (S := S1024x768) zeros4_2 inb_S1024x768_S1024x768_0_0 _

set_option maxHeartbeats 1000000 in
/-- The body at the last point of a run, the accumulator holding `xs` and the output buffer anything: one step over
    `xs`, and the output buffer at the accumulator's new contents. -/
theorem sound_kernel4_last (c : Dev nD) (E : Set ℕ) (i : grid4.Coords) (hc0 : ¬cond4_0 i) (hc1 : cond4_1 i)
    (arg3 : Memref sig .tc .vmem S1x1024x64 .bf16) (harg3 : arg3.IsWhole)
    (arg4 : Memref sig .tc .vmem S768x768 .f32) (harg4 : arg4.IsWhole) (arg5 : Memref sig .tc .vmem S1x1024x768 .f32) (harg5 : arg5.IsWhole)
    (arg6 : Memref sig .tc .vmem S1024x768 .f32) (harg6 : arg6.IsWhole)
    (x0 : Vec F S1x1024x64 .bf16) (x1 : Vec F S768x768 .f32) (xs : Vec F S1024x768 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (out4_2 (acc4 i x0 x1 xs))
            ∗ owns (c : Thread nD τ) arg6 fullShare (acc4 i x0 x1 xs)) -∗ K ⟨⟩))
      ⊢ wp frame (wpE (defs₀ (F := F)) Variants.none c none) E (cc4__merge_outproj_kernel i arg3 harg3 arg4 harg4 arg5 harg5 arg6 harg6) K := by
  simp only [cc4__merge_outproj_kernel_eq_skeleton]; unfold cc4__merge_outproj_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover4_2 _)).trans ?_
    unfold out4_2
    sl_unfold_run_names
    refine congrArg (fun s => View.canon [(⟨r4_y, k4_pay3 s⟩ : View.Piece (Elt F) S1x1024x768 .f32)]) ?_
    refine (View.readCov_cons_toLoadRect _ _ _ _).trans ?_
    unfold acc4
    refine congrArg (k4_pay2 _ _) ?_
    exact View.ld_unit_zero (S := S1024x768) zeros4_2 inb_S1024x768_S1024x768_0_0 _
  iexists _; isplitr
  swap; · iexact H3
  ipureintro
  sl_unfold_run_names
  refine (read_acc4 _ _ _ _).trans ?_
  unfold acc4
  refine congrArg (k4_pay2 _ _) ?_
  exact View.ld_unit_zero (S := S1024x768) zeros4_2 inb_S1024x768_S1024x768_0_0 _

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The head outputs' staging buffer holds the point's block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the projection matrix, whose one block is the whole matrix at every point: fetched at the first
    point only, it has not moved since. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The accumulator point by point -/

/-- What the accumulator holds after the body at position `n`: at the first point of a run of twelve one step over
    zeros, at the others one step over what the point before left. -/
def sAt4 (c : Dev nD) : (n : ℕ) → n < cfg4.N → Vec F S1024x768 .f32
  | 0, hn => acc4 (grid4.coords ⟨0, hn⟩) (iblk4 V c 0 ⟨0, hn⟩) (iblk4 V c 1 ⟨0, hn⟩) (k4_pay1 (F := F))
  | n + 1, hn =>
    if (n + 1) % 12 = 0 then
      acc4 (grid4.coords ⟨n + 1, hn⟩) (iblk4 V c 0 ⟨n + 1, hn⟩) (iblk4 V c 1 ⟨n + 1, hn⟩) (k4_pay1 (F := F))
    else
      acc4 (grid4.coords ⟨n + 1, hn⟩) (iblk4 V c 0 ⟨n + 1, hn⟩) (iblk4 V c 1 ⟨n + 1, hn⟩) (sAt4 c n (Nat.lt_of_succ_lt hn))

/-- At the first point of a run: one step over zeros. -/
theorem sAt4_first' (c : Dev nD) (t : Fin cfg4.N) (h : t.val % 12 = 0) :
    sAt4 V c t.val t.isLt = acc4 (grid4.coords t) (iblk4 V c 0 t) (iblk4 V c 1 t) (k4_pay1 (F := F)) := by
  obtain ⟨n, hn⟩ := t
  cases n with
  | zero => rfl
  | succ n => exact if_pos h

/-- At any other point: one step over what the point before left. -/
theorem sAt4_next' (c : Dev nD) (t : Fin cfg4.N) (h : t.val % 12 ≠ 0) :
    sAt4 V c t.val t.isLt = acc4 (grid4.coords t) (iblk4 V c 0 t) (iblk4 V c 1 t)
      (sAt4 V c (t.val - 1) (Nat.lt_of_le_of_lt (Nat.sub_le _ _) t.isLt)) := by
  obtain ⟨n, hn⟩ := t
  cases n with
  | zero => exact absurd (Nat.zero_mod _) h
  | succ n => exact if_neg h

/-- The two, with the step written out over the payload of the body's accumulating store. -/
theorem sAt4_first (c : Dev nD) (n : ℕ) (hn : n < cfg4.N) (h : n % 12 = 0) :
    sAt4 V c n hn = k4_pay2 (View.ld (iblk4 V c 0 ⟨n, hn⟩) r4_o) (View.ld (iblk4 V c 1 ⟨n, hn⟩) (r4_w (grid4.coords ⟨n, hn⟩))) (k4_pay1 (F := F)) :=
  sAt4_first' V c ⟨n, hn⟩ h

theorem sAt4_next (c : Dev nD) (n : ℕ) (hn : n < cfg4.N) (h : n % 12 ≠ 0) :
    sAt4 V c n hn = k4_pay2 (View.ld (iblk4 V c 0 ⟨n, hn⟩) r4_o) (View.ld (iblk4 V c 1 ⟨n, hn⟩) (r4_w (grid4.coords ⟨n, hn⟩)))
      (sAt4 V c (n - 1) (Nat.lt_of_le_of_lt (Nat.sub_le _ _) hn)) :=
  sAt4_next' V c ⟨n, hn⟩ h

/-! ## The proof data -/

/-- What the body leaves in each staging buffer after point `t`: each input's at its block; the output's, at the last
    point of a run, at the accumulator's contents (elsewhere the window is idle, and this is not consulted). -/
def aft4 (c : Dev nD) (w : Fin cfg4.W) (t : Fin cfg4.N) : (cfg4.win w).block.Idx → Elt F (cfg4.win w).elt :=
  match w with
  | ⟨0, _⟩ => iblk4 V c 0 t
  | ⟨1, _⟩ => iblk4 V c 1 t
  | ⟨2, _⟩ => out4_2 (sAt4 V c t.val t.isLt)

/-- The accumulator: a whole scoped buffer of the kernel's own, passed beside the windows. -/
abbrev scM4 : Memref sig .tc .vmem S1024x768 .f32 := Memref.whole cc4_scratch0

/-- The core's scoped buffers other than this region's staging buffers and the accumulator, at some contents each. -/
abbrev rest4 (c : Dev nD) : sProp 𝕄 :=
  Pipeline.scopedRestBut (Ix := Unit) (Name := ℕ) (U := UR sig nD τ) (Lvl := ℕ) (Val := Elt F) spec4 c [cc4_scratch0]

/-- The region's invariant before position `n`: before the first point every scoped buffer at anything; afterwards
    the accumulator at what the point before left, the other scoped buffers at anything; the generator register at
    some state throughout. -/
def PhiS4 (c : Dev nD) : (n : ℕ) → n ≤ cfg4.N → sProp 𝕄
  | 0, _ => Pipeline.ΦA spec4 c
  | n + 1, hn => iprop((owns (c : Thread nD τ) scM4 fullShare (sAt4 V c n hn) ∗ rest4 c) ∗ (∃ r, prngReg c r))

def Phi4 (c : Dev nD) (t : Fin (cfg4.N + 1)) : sProp 𝕄 := PhiS4 V c t.val (Nat.le_of_lt_succ t.isLt)

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop((owns (c : Thread nD τ) scM4 fullShare (sAt4 V c n hn) ∗ rest4 c) ∗ (∃ r, prngReg c r)) := rfl

theorem PhiS4_pos (c : Dev nD) (n : ℕ) (h : n ≤ cfg4.N) (hz : n ≠ 0) :
    PhiS4 V c n h = iprop((owns (c : Thread nD τ) scM4 fullShare (sAt4 V c (n - 1) (by omega)) ∗ rest4 c) ∗ (∃ r, prngReg c r)) := by
  cases n with
  | zero => exact absurd rfl hz
  | succ n => rfl

/-- The invariant before the first point, with the accumulator split off the scoped buffers. -/
theorem PhiA4_eq (c : Dev nD) :
    (Pipeline.ΦA spec4 c : sProp 𝕄)
      = iprop(((∃ d, owns (c : Thread nD τ) scM4 fullShare d) ∗ rest4 c) ∗ (∃ r, prngReg c r)) := by
  unfold Pipeline.ΦA
  rw [Pipeline.scopedRest_split_of_list spec4 c [cc4_scratch0] (by decide) (by decide)]
  simp only [bigSepL_singleton, scM4, owns_whole]; try rfl

/-- The region's proof data on core `c`. -/
abbrev dat4 (c : Dev nD) : Dat τ (Elt F) Unit ℕ (UR sig nD τ) ℕ cfg4 c := mkDat4 V c (aft4 V c) (Phi4 V c)

theorem A_eq4 (c : Dev nD) (w : Fin cfg4.W) : (dat4 V c).A w = V c (Pipeline.arrRef spec4 w) := by
  dsimp only [dat4, mkDat4]

theorem after4_0 (c : Dev nD) (t : Fin cfg4.N) : (dat4 V c).after 0 t = iblk4 V c 0 t := by dsimp only [dat4, mkDat4, aft4]
theorem after4_1 (c : Dev nD) (t : Fin cfg4.N) : (dat4 V c).after 1 t = iblk4 V c 1 t := by dsimp only [dat4, mkDat4, aft4]
theorem after4_2 (c : Dev nD) (t : Fin cfg4.N) : (dat4 V c).after 2 t = out4_2 (sAt4 V c t.val t.isLt) := by dsimp only [dat4, mkDat4, aft4]

/-- What the output buffer holds after the last point of a run, over the payload of the body's copying store. -/
theorem aft4_2_last (c : Dev nD) (t : Fin cfg4.N) (h : t.val % 12 = 11) :
    aft4 V c 2 t = View.canon [⟨r4_y, k4_pay3 (sAt4 V c t.val t.isLt)⟩] := by dsimp only [aft4, out4_2]

theorem after4_2_last (c : Dev nD) (t : Fin cfg4.N) (h : t.val % 12 = 11) :
    (dat4 V c).after 2 t = View.canon [⟨r4_y, k4_pay3 (sAt4 V c t.val t.isLt)⟩] := by dsimp only [dat4, mkDat4, aft4, out4_2]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

theorem Phi4_castSucc (c : Dev nD) (t : Fin cfg4.N) :
    (dat4 V c).Φ t.castSucc = PhiS4 V c t.val (Nat.le_of_lt t.isLt) := rfl

/-! ## Where the body's conditions hold, and where the output window is idle -/

/-- The first condition holds at the first point of each run of twelve, -/
theorem hcond4_0 : ∀ t : Fin cfg4.N, cond4_0 (grid4.coords t) ↔ t.val % 12 = 0 :=
  (by decide +kernel : ∀ t : Fin grid4.N, cond4_0 (grid4.coords t) ↔ t.val % 12 = 0)
/-- the second at the last. -/
theorem hcond4_1 : ∀ t : Fin cfg4.N, cond4_1 (grid4.coords t) ↔ t.val % 12 = 11 :=
  (by decide +kernel : ∀ t : Fin grid4.N, cond4_1 (grid4.coords t) ↔ t.val % 12 = 11)

/-- The inputs are never idle; the output is idle, and not written back, exactly off the last point of a run. -/
theorem liveAt4_0 : ∀ t : Fin cfg4.N, cfg4.idle 0 (grid4.coords t) = false := fun _ => rfl
theorem liveAt4_1 : ∀ t : Fin cfg4.N, cfg4.idle 1 (grid4.coords t) = false := fun _ => rfl
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

theorem leaves4_0 (c : Dev nD) (t : Fin cfg4.N) :
    (dat4 V c).leavesExact 0 t = owns (c : Thread nD τ) (st4_0 t) fullShare (iblk4 V c 0 t) := by
  rw [← after4_0 V c t]
theorem leaves4_1 (c : Dev nD) (t : Fin cfg4.N) :
    (dat4 V c).leavesExact 1 t = owns (c : Thread nD τ) (st4_1 t) fullShare (iblk4 V c 1 t) := by
  rw [← after4_1 V c t]
theorem leaves4_2_last (c : Dev nD) (t : Fin cfg4.N) (h : cond4_1 (grid4.coords t)) :
    (dat4 V c).leavesExact 2 t = owns (c : Thread nD τ) (st4_2 t) fullShare (out4_2 (sAt4 V c t.val t.isLt)) := by
  rw [← after4_2 V c t]; unfold Dat.leavesExact; rw [liveAt4_2 t h]

set_option maxHeartbeats 4000000 in
/-- The body at any point. The input buffers hold their blocks. At the first point of a run the accumulator is
    handed over at anything (before the very first point with the rest of the scoped buffers, later at what the
    run before left) and comes back at one step over zeros; at the other points it is handed over at what the point
    before left and comes back one step on. Off the last point of a run the output buffer passes through unread;
    at the last it comes back at the accumulator's contents. What the core owes passes through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ, Phi4_castSucc]
  rw [leaves4_0, leaves4_1]
  by_cases h0 : t.val % 12 = 0
  · have hc0 : cond4_0 (grid4.coords t) := (hcond4_0 t).mpr h0
    have hc1 : ¬cond4_1 (grid4.coords t) := fun h => by have := (hcond4_1 t).mp h; omega
    rw [Dat.leavesExact_idle (dat4 V c) 2 t (idleAt4_2 t hc1) (noFlush4_2 t hc1), sAt4_first' V c t h0]
    by_cases hz : t.val = 0
    · rw [PhiS4_zero V c _ _ hz, PhiA4_eq]
      iintro ⟨⟨⟨HS, HR⟩, Hg⟩, Ho, ⟨%d0, H0⟩, ⟨%d1, H1⟩, ⟨%d2, H2⟩⟩
      iapply (sound_kernel4_first c Set.univ (grid4.coords t) hc0 hc1 _ _ _ _ _ _ _ _ (iblk4 V c 0 t) (iblk4 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [PhiS4_pos V c _ _ hz]
      iintro ⟨⟨⟨HS, HR⟩, Hg⟩, Ho, ⟨%d0, H0⟩, ⟨%d1, H1⟩, ⟨%d2, H2⟩⟩
      iapply (sound_kernel4_first c Set.univ (grid4.coords t) hc0 hc1 _ _ _ _ _ _ _ _ (iblk4 V c 0 t) (iblk4 V c 1 t) _ _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hc0 : ¬cond4_0 (grid4.coords t) := fun h => h0 ((hcond4_0 t).mp h)
    have hz : t.val ≠ 0 := fun h => h0 (by rw [h])
    rw [PhiS4_pos V c _ _ hz, sAt4_next' V c t h0]
    by_cases h1 : t.val % 12 = 11
    · have hc1 : cond4_1 (grid4.coords t) := (hcond4_1 t).mpr h1
      rw [leaves4_2_last V c t hc1, sAt4_next' V c t h0]
      iintro ⟨⟨⟨HS, HR⟩, Hg⟩, Ho, ⟨%d0, H0⟩, ⟨%d1, H1⟩, ⟨%d2, H2⟩⟩
      iapply (sound_kernel4_last c Set.univ (grid4.coords t) hc0 hc1 _ _ _ _ _ _ _ _ (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hc1 : ¬cond4_1 (grid4.coords t) := fun h => h1 ((hcond4_1 t).mp h)
      rw [Dat.leavesExact_idle (dat4 V c) 2 t (idleAt4_2 t hc1) (noFlush4_2 t hc1)]
      iintro ⟨⟨⟨HS, HR⟩, Hg⟩, Ho, ⟨%d0, H0⟩, ⟨%d1, H1⟩, ⟨%d2, H2⟩⟩
      iapply (sound_kernel4_mid c Set.univ (grid4.coords t) hc0 hc1 _ _ _ _ _ _ _ _ (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The body obligation of the pipeline, at every point. -/
theorem body_obligation4 (c : Dev nD) :
    BodyObligation (mkDat4 (F := F) V c (aft4 V c) (Phi4 V c)) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ Phi4 V c 0 :=
  Idealize.SL.BI.Entails.refl _

/-- After the last point the invariant gives it back: the accumulator's contents are forgotten. -/
theorem hout4 (c : Dev nD) : Phi4 V c (Fin.last cfg4.N) ⊢ (Pipeline.ΦA spec4 c : sProp 𝕄) := by
  rw [show Phi4 V c (Fin.last cfg4.N) = PhiS4 V c cfg4.N (Nat.le_refl _) from rfl,
    PhiS4_pos V c _ _ (by rw [show cfg4.N = 96 from N_4]; decide), PhiA4_eq]
  iintro ⟨⟨HS, HR⟩, Hg⟩
  isplitl [HS HR]
  · isplitl [HS]; · iexists _; iexact HS
    iexact HR
  iexact Hg

end Cert.KernelIdeal.Fr

end
-- ==== Proof.KIR0.lean ====
/-
  Region 0: one of the three linear projections, split by heads. At grid point (b, i, h) the body reads the
  1024 × 768 block of rows i·1024 … of batch b of the activations and the 64 rows h·64 … of the weight matrix,
  multiplies the first by the transpose of the second, and stores the 1024 × 64 product as block (b·12+h, i) of
  the result. The body keeps nothing between points and reads no output buffer it has not written, so what it
  leaves in the output buffer is a function of the two input blocks at the point.
-/
import proofs.«165060_j71665824301623_2_alg».proof.Proof.Gen.KernelIdeal.Launch
import proofs.«165060_j71665824301623_2_alg».proof.Proof.Gen.KernelIdeal.Skeleton
import proofs.«165060_j71665824301623_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block at every point, fetched there or not: where the
    pipeline does not fetch, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight matrix, whose one block is the whole matrix at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses: the whole activation block, the 64 weight rows of the point's head, the whole
    output block. -/
abbrev r0_x : Rect S1x1024x768 := Rect.unit (s := S1x1024x768) ![0, 0, 0] S1x1024x768.size inb_S1x1024x768_S1x1024x768_0_0_0
abbrev r0_w (i : grid0.Coords) : Rect S768x768 := Rect.unit (s := S768x768) (k0_off1 i) S64x768.size (k0_off1_inb i)
abbrev r0_o : Rect S1x1024x64 := Rect.unit (s := S1x1024x64) ![0, 0, 0] S1x1024x64.size inb_S1x1024x64_S1x1024x64_0_0_0

/-- What the body leaves in the output buffer at grid coordinates `i`, from the contents of the two input buffers:
    its one store, over the whole buffer, of the product of the loaded pieces. -/
def out0_2 (i : grid0.Coords) (x0 : Vec F S1x1024x768 .f32) (x1 : Vec F S768x768 .f32) : Vec F S1x1024x64 .bf16 :=
  View.canon [⟨r0_o, k0_pay1 (View.ld x0 r0_x) (View.ld x1 (r0_w i))⟩]

/-- The one store covers the output buffer. -/
theorem cover0_2 (p0 : Vec F S1x1024x64 .bf16) (y : S1x1024x64.Idx) :
    ∃ pc ∈ ([⟨r0_o, p0⟩] : List (View.Piece (Elt F) S1x1024x64 .bf16)), y ∈ pc.1.set :=
  View.cover_of_tiled [⟨r0_o, p0⟩] S1x1024x64.size (by rfl) y

set_option maxHeartbeats 1000000 in
/-- The body on whole staging buffers, the inputs' holding `x0`, `x1` and the output's anything, runs to the end
    with the inputs' as they were and the output's at `out0_2` of them. -/
theorem sound_kernel0 (c : Dev nD) (E : Set ℕ) (i : grid0.Coords) (arg3 : Memref sig .tc .vmem S1x1024x768 .f32) (harg3 : arg3.IsWhole)
    (arg4 : Memref sig .tc .vmem S768x768 .f32) (harg4 : arg4.IsWhole) (arg5 : Memref sig .tc .vmem S1x1024x64 .bf16) (harg5 : arg5.IsWhole)
    (x0 : Vec F S1x1024x768 .f32) (x1 : Vec F S768x768 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out0_2 i x0 x1)) -∗ K ⟨⟩))
      ⊢ wp frame (wpE (defs₀ (F := F)) Variants.none c none) E (cc0__proj_split_kernel i arg3 harg3 arg4 harg4 arg5 harg5) K := by
  simp only [cc0__proj_split_kernel_eq_skeleton]; unfold cc0__proj_split_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body at point `t` each input
    buffer at its block and the output buffer at `out0_2` of the input blocks; the invariant only carries the scoped
    rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (grid0.coords t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIR1.lean ====
/-
  Region 1: one of the three linear projections, split by heads. At grid point (b, i, h) the body reads the
  1024 × 768 block of rows i·1024 … of batch b of the activations and the 64 rows h·64 … of the weight matrix,
  multiplies the first by the transpose of the second, and stores the 1024 × 64 product as block (b·12+h, i) of
  the result. The body keeps nothing between points and reads no output buffer it has not written, so what it
  leaves in the output buffer is a function of the two input blocks at the point.
-/
import proofs.«165060_j71665824301623_2_alg».proof.Proof.Gen.KernelIdeal.Launch
import proofs.«165060_j71665824301623_2_alg».proof.Proof.Gen.KernelIdeal.Skeleton
import proofs.«165060_j71665824301623_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block at every point, fetched there or not: where the
    pipeline does not fetch, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the weight matrix, whose one block is the whole matrix at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's three accesses: the whole activation block, the 64 weight rows of the point's head, the whole
    output block. -/
abbrev r1_x : Rect S1x1024x768 := Rect.unit (s := S1x1024x768) ![0, 0, 0] S1x1024x768.size inb_S1x1024x768_S1x1024x768_0_0_0
abbrev r1_w (i : grid1.Coords) : Rect S768x768 := Rect.unit (s := S768x768) (k1_off1 i) S64x768.size (k1_off1_inb i)
abbrev r1_o : Rect S1x1024x64 := Rect.unit (s := S1x1024x64) ![0, 0, 0] S1x1024x64.size inb_S1x1024x64_S1x1024x64_0_0_0

/-- What the body leaves in the output buffer at grid coordinates `i`, from the contents of the two input buffers:
    its one store, over the whole buffer, of the product of the loaded pieces. -/
def out1_2 (i : grid1.Coords) (x0 : Vec F S1x1024x768 .f32) (x1 : Vec F S768x768 .f32) : Vec F S1x1024x64 .bf16 :=
  View.canon [⟨r1_o, k1_pay1 (View.ld x0 r1_x) (View.ld x1 (r1_w i))⟩]

/-- The one store covers the output buffer. -/
theorem cover1_2 (p0 : Vec F S1x1024x64 .bf16) (y : S1x1024x64.Idx) :
    ∃ pc ∈ ([⟨r1_o, p0⟩] : List (View.Piece (Elt F) S1x1024x64 .bf16)), y ∈ pc.1.set :=
  View.cover_of_tiled [⟨r1_o, p0⟩] S1x1024x64.size (by rfl) y

set_option maxHeartbeats 1000000 in
/-- The body on whole staging buffers, the inputs' holding `x0`, `x1` and the output's anything, runs to the end
    with the inputs' as they were and the output's at `out1_2` of them. -/
theorem sound_kernel1 (c : Dev nD) (E : Set ℕ) (i : grid1.Coords) (arg3 : Memref sig .tc .vmem S1x1024x768 .f32) (harg3 : arg3.IsWhole)
    (arg4 : Memref sig .tc .vmem S768x768 .f32) (harg4 : arg4.IsWhole) (arg5 : Memref sig .tc .vmem S1x1024x64 .bf16) (harg5 : arg5.IsWhole)
    (x0 : Vec F S1x1024x768 .f32) (x1 : Vec F S768x768 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out1_2 i x0 x1)) -∗ K ⟨⟩))
      ⊢ wp frame (wpE (defs₀ (F := F)) Variants.none c none) E (cc1__proj_split_kernel i arg3 harg3 arg4 harg4 arg5 harg5) K := by
  simp only [cc1__proj_split_kernel_eq_skeleton]; unfold cc1__proj_split_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core `c`: the arrays as the region finds them; after the body at point `t` each input
    buffer at its block and the output buffer at `out1_2` of the input blocks; the invariant only carries the scoped
    rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (grid1.coords t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIR2.lean ====
/-
  Region 2: one of the three linear projections, split by heads. At grid point (b, i, h) the body reads the
  1024 × 768 block of rows i·1024 … of batch b of the activations and the 64 rows h·64 … of the weight matrix,
  multiplies the first by the transpose of the second, and stores the 1024 × 64 product as block (b·12+h, i) of
  the result. The body keeps nothing between points and reads no output buffer it has not written, so what it
  leaves in the output buffer is a function of the two input blocks at the point.
-/
import proofs.«165060_j71665824301623_2_alg».proof.Proof.Gen.KernelIdeal.Launch
import proofs.«165060_j71665824301623_2_alg».proof.Proof.Gen.KernelIdeal.Skeleton
import proofs.«165060_j71665824301623_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's block at every point, fetched there or not: where the
    pipeline does not fetch, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the weight matrix, whose one block is the whole matrix at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's three accesses: the whole activation block, the 64 weight rows of the point's head, the whole
    output block. -/
abbrev r2_x : Rect S1x1024x768 := Rect.unit (s := S1x1024x768) ![0, 0, 0] S1x1024x768.size inb_S1x1024x768_S1x1024x768_0_0_0
abbrev r2_w (i : grid2.Coords) : Rect S768x768 := Rect.unit (s := S768x768) (k2_off1 i) S64x768.size (k2_off1_inb i)
abbrev r2_o : Rect S1x1024x64 := Rect.unit (s := S1x1024x64) ![0, 0, 0] S1x1024x64.size inb_S1x1024x64_S1x1024x64_0_0_0

/-- What the body leaves in the output buffer at grid coordinates `i`, from the contents of the two input buffers:
    its one store, over the whole buffer, of the product of the loaded pieces. -/
def out2_2 (i : grid2.Coords) (x0 : Vec F S1x1024x768 .f32) (x1 : Vec F S768x768 .f32) : Vec F S1x1024x64 .bf16 :=
  View.canon [⟨r2_o, k2_pay1 (View.ld x0 r2_x) (View.ld x1 (r2_w i))⟩]

/-- The one store covers the output buffer. -/
theorem cover2_2 (p0 : Vec F S1x1024x64 .bf16) (y : S1x1024x64.Idx) :
    ∃ pc ∈ ([⟨r2_o, p0⟩] : List (View.Piece (Elt F) S1x1024x64 .bf16)), y ∈ pc.1.set :=
  View.cover_of_tiled [⟨r2_o, p0⟩] S1x1024x64.size (by rfl) y

set_option maxHeartbeats 1000000 in
/-- The body on whole staging buffers, the inputs' holding `x0`, `x1` and the output's anything, runs to the end
    with the inputs' as they were and the output's at `out2_2` of them. -/
theorem sound_kernel2 (c : Dev nD) (E : Set ℕ) (i : grid2.Coords) (arg3 : Memref sig .tc .vmem S1x1024x768 .f32) (harg3 : arg3.IsWhole)
    (arg4 : Memref sig .tc .vmem S768x768 .f32) (harg4 : arg4.IsWhole) (arg5 : Memref sig .tc .vmem S1x1024x64 .bf16) (harg5 : arg5.IsWhole)
    (x0 : Vec F S1x1024x768 .f32) (x1 : Vec F S768x768 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out2_2 i x0 x1)) -∗ K ⟨⟩))
      ⊢ wp frame (wpE (defs₀ (F := F)) Variants.none c none) E (cc2__proj_split_kernel i arg3 harg3 arg4 harg4 arg5 harg5) K := by
  simp only [cc2__proj_split_kernel_eq_skeleton]; unfold cc2__proj_split_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core `c`: the arrays as the region finds them; after the body at point `t` each input
    buffer at its block and the output buffer at `out2_2` of the input blocks; the invariant only carries the scoped
    rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (grid2.coords t) (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (grid2.coords t) (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KIR3.lean ====
/-
  Region 3: attention, one head and one block of 512 query rows per grid point (g, i). The body reads the query
  block (g, i) and the head's whole key and value arrays (2048 × 64 each), forms the scaled scores, their row
  softmax and its product with the values, and stores the 512 × 64 result as block (g, i) of the output. It keeps
  nothing between points, so what it leaves in the output buffer is a function of the three input blocks.
-/
import proofs.«165060_j71665824301623_2_alg».proof.Proof.Gen.KernelIdeal.Launch
import proofs.«165060_j71665824301623_2_alg».proof.Proof.Gen.KernelIdeal.Skeleton
import proofs.«165060_j71665824301623_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input's staging buffer holds the point's block at every point, fetched there or not: where the pipeline
    does not fetch (the keys and values within one head), the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The body's accesses: each buffer whole. -/
abbrev r3_q : Rect S1x512x64 := Rect.unit (s := S1x512x64) ![0, 0, 0] S1x512x64.size inb_S1x512x64_S1x512x64_0_0_0
abbrev r3_k : Rect S1x2048x64 := Rect.unit (s := S1x2048x64) ![0, 0, 0] S1x2048x64.size inb_S1x2048x64_S1x2048x64_0_0_0

/-- What the body leaves in the output buffer, from the contents of the three input buffers: its one store, over
    the whole buffer, of the attention of the loaded blocks. -/
def out3_3 (x0 : Vec F S1x512x64 .bf16) (x1 : Vec F S1x2048x64 .bf16) (x2 : Vec F S1x2048x64 .bf16) : Vec F S1x512x64 .bf16 :=
  View.canon [⟨r3_q, k3_pay1 (View.ld x0 r3_q) (View.ld x1 r3_k) (View.ld x2 r3_k)⟩]

/-- The one store covers the output buffer. -/
theorem cover3_3 (p0 : Vec F S1x512x64 .bf16) (y : S1x512x64.Idx) :
    ∃ pc ∈ ([⟨r3_q, p0⟩] : List (View.Piece (Elt F) S1x512x64 .bf16)), y ∈ pc.1.set :=
  View.cover_of_tiled [⟨r3_q, p0⟩] S1x512x64.size (by rfl) y

set_option maxHeartbeats 1000000 in
/-- The body on whole staging buffers, the inputs' holding `x0`, `x1`, `x2` and the output's anything, runs to the end
    with the inputs' as they were and the output's at `out3_3` of them. -/
theorem sound_kernel3 (c : Dev nD) (E : Set ℕ) (i : grid3.Coords) (arg2 : Memref sig .tc .vmem S1x512x64 .bf16) (harg2 : arg2.IsWhole)
    (arg3 : Memref sig .tc .vmem S1x2048x64 .bf16) (harg3 : arg3.IsWhole) (arg4 : Memref sig .tc .vmem S1x2048x64 .bf16) (harg4 : arg4.IsWhole)
    (arg5 : Memref sig .tc .vmem S1x512x64 .bf16) (harg5 : arg5.IsWhole)
    (x0 : Vec F S1x512x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3_3 x0 x1 x2)) -∗ K ⟨⟩))
      ⊢ wp frame (wpE (defs₀ (F := F)) Variants.none c none) E (cc3__attn_kernel i arg2 harg2 arg3 harg3 arg4 harg4 arg5 harg5) K := by
  simp only [cc3__attn_kernel_eq_skeleton]; unfold cc3__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The region's proof data on core `c`: the arrays as the region finds them; after the body at point `t` each input
    buffer at its block and the output buffer at `out3_3` of the input blocks; the invariant only carries the scoped
    rest and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KIRun.lean ====
/-
  The whole run. Between two items of the program — the five kernel regions and the one transpose of the output
  weights — every unscoped buffer of a core holds known contents: the launch memory, then after each region its
  arrays at what the region's write-backs leave (the inputs as entered) and every other buffer as entered, after
  the transpose what it computes. From these the program's run is assembled: it terminates without a fault and
  ends with every unscoped buffer at the last of these contents; in particular the seven argument arrays end as
  launched, since no item writes one.
-/
import proofs.«165060_j71665824301623_2_alg».proof.Proof.Gen.KernelIdeal.Launch
import proofs.«165060_j71665824301623_2_alg».proof.Proof.Gen.KernelIdeal.Skeleton
import proofs.«165060_j71665824301623_2_alg».proof.Proof.Gen.KernelIdeal.Points
import proofs.«165060_j71665824301623_2_alg».proof.Proof.KIR0
import proofs.«165060_j71665824301623_2_alg».proof.Proof.KIR1
import proofs.«165060_j71665824301623_2_alg».proof.Proof.KIR2
import proofs.«165060_j71665824301623_2_alg».proof.Proof.KIR3
import proofs.«165060_j71665824301623_2_alg».proof.Proof.KIDat4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the last region — whose body carries an accumulator between grid points — supplies at entry contents `V`:
    what its body leaves in each staging buffer after each point, the invariant it keeps between points, its body
    obligation for the proof data made of these, and that the invariant starts from, and gives back, the scoped
    rest with the generator register. -/
structure Last (V : (c : Dev nD) → (b : Ref sig .tc) → Buf (Elt F) ((c : Thread nD τ).loc b)) where
  aft : (c : Dev nD) → (w : Fin cfg4.W) → Fin cfg4.N → (cfg4.win w).block.Idx → Elt F (cfg4.win w).elt
  Φ : (c : Dev nD) → Fin (cfg4.N + 1) → sProp 𝕄
  hbody : ∀ c, BodyObligation (mkDat4 (F := F) V c (aft c) (Φ c)) (defs₀ (F := F)) Variants.none () Set.univ
  hin : ∀ c, (Pipeline.ΦA spec4 c : sProp 𝕄) ⊢ Φ c 0
  hout : ∀ c, Φ c (Fin.last cfg4.N) ⊢ (Pipeline.ΦA spec4 c : sProp 𝕄)

/-- The last region's proof data at entry contents `V`. -/
abbrev Last.dat {V : (c : Dev nD) → (b : Ref sig .tc) → Buf (Elt F) ((c : Thread nD τ).loc b)} (P : Last (F := F) V) (c : Dev nD) :
    Dat τ (Elt F) Unit ℕ (UR sig nD τ) ℕ cfg4 c := mkDat4 V c (P.aft c) (P.Φ c)

variable (P4 : ∀ V : (c : Dev nD) → (b : Ref sig .tc) → Buf (Elt F) ((c : Thread nD τ).loc b), Last (F := F) V)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
/-- After region 1. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
/-- After region 2. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
/-- After region 3. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
abbrev V4 : (c : Dev nD) → (b : Ref sig .tc) → Buf (Elt F) ((c : Thread nD τ).loc b) := fun c b => W4 m ρ c b
/-- After the transpose of the output weights. -/
abbrev W5 : Dev nD → Valuation τ sig (Elt F) := fun c => StableHlo.after hostOps4 (W4 m ρ c)
abbrev V5 : (c : Dev nD) → (b : Ref sig .tc) → Buf (Elt F) ((c : Thread nD τ).loc b) := fun c b => W5 m ρ c b
/-- After the last region. -/
def W6 (c : Dev nD) : Valuation τ sig (Elt F) :=
  Pipeline.withArrays spec4 c (W5 m ρ c) fun w => ((P4 (V5 m ρ)).dat c).arrAt w cfg4.N
theorem W6_arr (c : Dev nD) (w : Fin cfg4.W) :
    W6 m ρ P4 c (Proc.devRef .tc (Pipeline.arrRef spec4 w)) = ((P4 (V5 m ρ)).dat c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ P4 c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ P4 c b

/-! ## Each region's arrays end at what its write-backs leave; every other buffer as entered -/

theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)
theorem hF4 (c : Dev nD) (w : Fin cfg4.W) : ((P4 (V5 m ρ)).dat c).arrAt w cfg4.N = V6 m ρ P4 c (Pipeline.arrRef spec4 w) :=
  (W6_arr m ρ P4 c w).symm
theorem hrest4 (c : Dev nD) : ∀ b, b ∉ Finset.univ.image (Pipeline.arrRef spec4) → V6 m ρ P4 c b = V5 m ρ c b :=
  fun b hb => W6_of_ne m ρ P4 c b fun w e => hb (Finset.mem_image.mpr ⟨w, Finset.mem_univ _, e⟩)

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => (P4 (V5 m ρ)).dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it
    owes, which is nothing. -/
abbrev R (c : Dev nD) : sProp 𝕄 := iprop((∃ r, prngReg c r) ∗ ∃ W, owes (c : Thread nD τ) (0 : CellTallies nD τ sig Unit) W)
/-- A line of host operations as an item, over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The transpose allocates no buffer. -/
theorem hostOps4_fresh' : (hostOps4 : List (HloOp τ sig (Elt F))).Forall fun op => op.fresh = ∅ := by
  simp only [List.Forall]; repeat' constructor
/-- An unscoped buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register
    at some state. -/
abbrev Tₙ (c : Dev nD) : sProp 𝕄 := iprop(StableHlo.held (c : Thread nD τ) (Pipeline.ucRefs τ sig) (W6 m ρ P4 c) ∗ ∃ r, prngReg c r)

/-! ## The regions as items -/

set_option backward.isDefEq.respectTransparency.types false in
/-- Region 0 over the thread state: entered with every unscoped buffer at `W0`, left with them at `W1`. Its
    arrays are split out of the unscoped buffers at entry and put back at their final contents at exit; the generator
    register goes into the region's invariant and comes out; nothing is owed; the kernel has no semaphore of its own. -/
def reg0 : Pipeline.RegionSeg (pcfgs (F := F)) adm (pdats m ρ P4) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ P4) launch0.win launch0.arr_whole c
      ((pdats m ρ P4 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ P4 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ P4 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ P4) ((pdats m ρ P4 0 c).share_full fun _ => rfl)
      (V0 m ρ c) (V1 m ρ c) ((pdats m ρ P4 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`. Its
    arrays are split out of the unscoped buffers at entry and put back at their final contents at exit; the generator
    register goes into the region's invariant and comes out; nothing is owed; the kernel has no semaphore of its own. -/
def reg1 : Pipeline.RegionSeg (pcfgs (F := F)) adm (pdats m ρ P4) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ P4) launch1.win launch1.arr_whole c
      ((pdats m ρ P4 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ P4 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ P4 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ P4) ((pdats m ρ P4 1 c).share_full fun _ => rfl)
      (V1 m ρ c) (V2 m ρ c) ((pdats m ρ P4 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W2`, left with them at `W3`. Its
    arrays are split out of the unscoped buffers at entry and put back at their final contents at exit; the generator
    register goes into the region's invariant and comes out; nothing is owed; the kernel has no semaphore of its own. -/
def reg2 : Pipeline.RegionSeg (pcfgs (F := F)) adm (pdats m ρ P4) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ P4) launch2.win launch2.arr_whole c
      ((pdats m ρ P4 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ P4 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ P4 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ P4) ((pdats m ρ P4 2 c).share_full fun _ => rfl)
      (V2 m ρ c) (V3 m ρ c) ((pdats m ρ P4 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W3`, left with them at `W4`. Its
    arrays are split out of the unscoped buffers at entry and put back at their final contents at exit; the generator
    register goes into the region's invariant and comes out; nothing is owed; the kernel has no semaphore of its own. -/
def reg3 : Pipeline.RegionSeg (pcfgs (F := F)) adm (pdats m ρ P4) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ P4) launch3.win launch3.arr_whole c
      ((pdats m ρ P4 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ P4 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ P4 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ P4) ((pdats m ρ P4 3 c).share_full fun _ => rfl)
      (V3 m ρ c) (V4 m ρ c) ((pdats m ρ P4 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The last region over the thread state: entered with every unscoped buffer at `W5`, left with them at `W6`. Its
    invariant starts from the scoped rest and the generator register and gives them back (the accumulator's
    contents forgotten). -/
def reg4 : Pipeline.RegionSeg (pcfgs (F := F)) adm (pdats m ρ P4) () defs₀ 𝒱₀ L lv 4 where
  win := launch4.win.to₀
  block_pos := launch4.block_pos
  stage_whole := launch4.stage_whole
  K := PEmpty
  osem k := k.elim
  ho := Pipeline.OwnSemFacts.none _
  hbody c := ((P4 (V5 m ρ)).hbody c).loose
  hwaits := Pipeline.hwaits_of_owed_zero _ _ _ _ L lv 4 fun _ _ => rfl
  pre c := iprop(StableHlo.held (c : Thread nD τ) (Pipeline.ucRefs τ sig) (W5 m ρ c) ∗ R c)
  post c := iprop(Tₙ m ρ P4 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ P4) launch4.win launch4.arr_whole c
      ((pdats m ρ P4 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ P4 4 c).Φ 0 = (P4 (V5 m ρ)).Φ c 0 from rfl]
    have h1 : (iprop((∃ r, prngReg c r) ∗ Pipeline.prefHeld (pcfgs (F := F) 4).pre c (fun _ => fullShare) (adm (F := F) 4).1 ∗ Pipeline.scopedRest spec4 c) : sProp 𝕄)
        ⊢ Pipeline.ΦA spec4 c := by
      unfold Pipeline.ΦA
      iintro ⟨Hp, -, Hr⟩
      isplitl [Hr]; · iexact Hr
      iexact Hp
    exact h1.trans ((P4 (V5 m ρ)).hin c)
  hout c := by
    rw [Pipeline.ownSems0_none, show (pdats m ρ P4 4 c).Φ (Fin.last _) = (P4 (V5 m ρ)).Φ c (Fin.last cfg4.N) from rfl]
    have h1 : (Pipeline.ΦA spec4 c : sProp 𝕄) ⊢ iprop((∃ r, prngReg c r) ∗ emp ∗ Pipeline.scopedRest spec4 c) := by
      unfold Pipeline.ΦA
      iintro ⟨Hr, Hp⟩
      isplitl [Hp]; · iexact Hp
      isplitr; · iempintro
      iexact Hr
    exact ((P4 (V5 m ρ)).hout c).trans h1
  hexit c := by
    have hjoin := Pipeline.unscopedBufs_of_arrays (p := 4) (pcfgs (F := F)) adm (Ix := Unit) (Name := ℕ) (U := UR sig nD τ) (Lvl := ℕ)
      launch4.win launch4.arr_whole c (pdats m ρ P4) ((pdats m ρ P4 4 c).share_full fun _ => rfl)
      (V5 m ρ c) (V6 m ρ P4 c) ((pdats m ρ P4 4 c).arrAt · cfg4.N) (hF4 m ρ P4 c) (hrest4 m ρ P4 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's six items in order. -/
abbrev segs : List (Pipeline.Seg (pcfgs (F := F)) adm (pdats m ρ P4) () defs₀ 𝒱₀ L lv) :=
  [ .region (reg0 m ρ P4), .region (reg1 m ρ P4), .region (reg2 m ρ P4), .region (reg3 m ρ P4),
    .host (hseg hostOps4 hostOps4_sub hostOps4_fresh' (W4 m ρ)),
    .region (reg4 m ρ P4) ]
/-- The program is the run of its items. -/
theorem main_run (c : Dev nD) : main (F := F) c = Pipeline.Seg.run (segs m ρ P4) := (main_chain c).trans (by chain_rfl)

set_option backward.isDefEq.respectTransparency.types false in
/-- From any memory with zero counters every weakly fair execution of the program terminates, nothing faulting, and
    every final state holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ P4 c b) :=
  Pipeline.θ_run_regions_kit (pcfgs (F := F)) adm (pdats m ρ P4) () cellOf_inj emb₁ defs₀ 𝒱₀ L lv m ρ main (segs m ρ P4)
    (fun c Q => by rw [main_run m ρ P4 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ P4)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ P4 c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ P4 c) s')
      isplitl [Hh] <;> iassumption)
    (hQ := fun s h c => h c)

/-! ## The arguments end as launched: no item writes one (a region reads it through an input window or passes it by) -/

theorem W6_main_arg0 (c : Dev nD) : W6 m ρ P4 c (Proc.devRef .tc main_arg0) = m ((c : Thread nD τ).loc main_arg0) :=
  calc W6 m ρ P4 c (Proc.devRef .tc main_arg0)
    _ = W5 m ρ c (Proc.devRef .tc main_arg0) := W6_of_ne m ρ P4 c main_arg0 (by decide)
    _ = W4 m ρ c (Proc.devRef .tc main_arg0) := StableHlo.after_of_forall_not_mem (b := Proc.devRef .tc main_arg0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W6_main_arg1 (c : Dev nD) : W6 m ρ P4 c (Proc.devRef .tc main_arg1) = m ((c : Thread nD τ).loc main_arg1) :=
  calc W6 m ρ P4 c (Proc.devRef .tc main_arg1)
    _ = W5 m ρ c (Proc.devRef .tc main_arg1) := W6_of_ne m ρ P4 c main_arg1 (by decide)
    _ = W4 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W6_main_arg2 (c : Dev nD) : W6 m ρ P4 c (Proc.devRef .tc main_arg2) = m ((c : Thread nD τ).loc main_arg2) :=
  calc W6 m ρ P4 c (Proc.devRef .tc main_arg2)
    _ = W5 m ρ c (Proc.devRef .tc main_arg2) := W6_of_ne m ρ P4 c main_arg2 (by decide)
    _ = W4 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg2) := W4_of_ne m ρ c main_arg2 (by decide)
    _ = W2 m ρ c (Proc.devRef .tc main_arg2) := (W3_arr m ρ c 0).trans (((dat2 (V2 m ρ) c).arrAt_in 0 rfl _).trans (A_eq2 (V2 m ρ) c 0))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem W6_main_arg3 (c : Dev nD) : W6 m ρ P4 c (Proc.devRef .tc main_arg3) = m ((c : Thread nD τ).loc main_arg3) :=
  calc W6 m ρ P4 c (Proc.devRef .tc main_arg3)
    _ = W5 m ρ c (Proc.devRef .tc main_arg3) := W6_of_ne m ρ P4 c main_arg3 (by decide)
    _ = W4 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl

theorem W6_main_arg4 (c : Dev nD) : W6 m ρ P4 c (Proc.devRef .tc main_arg4) = m ((c : Thread nD τ).loc main_arg4) :=
  calc W6 m ρ P4 c (Proc.devRef .tc main_arg4)
    _ = W5 m ρ c (Proc.devRef .tc main_arg4) := W6_of_ne m ρ P4 c main_arg4 (by decide)
    _ = W4 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := (W2_arr m ρ c 1).trans (((dat1 (V1 m ρ) c).arrAt_in 1 rfl _).trans (A_eq1 (V1 m ρ) c 1))
    _ = W0 m ρ c (Proc.devRef .tc main_arg4) := W1_of_ne m ρ c main_arg4 (by decide)
    _ = m ((c : Thread nD τ).loc main_arg4) := rfl

theorem W6_main_arg5 (c : Dev nD) : W6 m ρ P4 c (Proc.devRef .tc main_arg5) = m ((c : Thread nD τ).loc main_arg5) :=
  calc W6 m ρ P4 c (Proc.devRef .tc main_arg5)
    _ = W5 m ρ c (Proc.devRef .tc main_arg5) := W6_of_ne m ρ P4 c main_arg5 (by decide)
    _ = W4 m ρ c (Proc.devRef .tc main_arg5) := StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg5) := W4_of_ne m ρ c main_arg5 (by decide)
    _ = W2 m ρ c (Proc.devRef .tc main_arg5) := (W3_arr m ρ c 1).trans (((dat2 (V2 m ρ) c).arrAt_in 1 rfl _).trans (A_eq2 (V2 m ρ) c 1))
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

theorem W6_main_arg6 (c : Dev nD) : W6 m ρ P4 c (Proc.devRef .tc main_arg6) = m ((c : Thread nD τ).loc main_arg6) :=
  calc W6 m ρ P4 c (Proc.devRef .tc main_arg6)
    _ = W5 m ρ c (Proc.devRef .tc main_arg6) := W6_of_ne m ρ P4 c main_arg6 (by decide)
    _ = W4 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

include P4 in
/-- The frame: every weakly fair execution terminates, nothing faulting, with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W6_main_arg0 m ρ P4 c),
     (h c _ (mem_uc main_arg1 (by decide))).trans (W6_main_arg1 m ρ P4 c),
     (h c _ (mem_uc main_arg2 (by decide))).trans (W6_main_arg2 m ρ P4 c),
     (h c _ (mem_uc main_arg3 (by decide))).trans (W6_main_arg3 m ρ P4 c),
     (h c _ (mem_uc main_arg4 (by decide))).trans (W6_main_arg4 m ρ P4 c),
     (h c _ (mem_uc main_arg5 (by decide))).trans (W6_main_arg5 m ρ P4 c),
     (h c _ (mem_uc main_arg6 (by decide))).trans (W6_main_arg6 m ρ P4 c)⟩) (run_all m ρ P4)

end Cert.KernelIdeal.Fr

end
-- ==== Proof.KILast.lean ====
/-
  The last region's data, handed to the run: what its body leaves, the invariant it keeps, its body obligation, and
  the invariant's two ends.
-/
import proofs.«165060_j71665824301623_2_alg».proof.Proof.KIR4
import proofs.«165060_j71665824301623_2_alg».proof.Proof.KIRun

noncomputable section

namespace Cert.KernelIdeal.Fr

open Cert.KernelIdeal Cert.KernelIdeal.Gen
open Idealize.ShloMosaic Idealize.ShloMosaic.TcCoe
open Idealize.SL Idealize.SL.Sem

variable {F : FTy → Type} [FloatOps F]

/-- The last region at entry contents `V`. -/
def last4 (V : (c : Dev nD) → (b : Ref sig .tc) → Buf (Elt F) ((c : Thread nD τ).loc b)) : Last (F := F) V where
  aft := aft4 V
  Φ := Phi4 V
  hbody := body_obligation4 V
  hin := hin4 V
  hout := hout4 V

end Cert.KernelIdeal.Fr

end
-- ==== Proof.Spec.lean ====
/-
  Multi-head attention over the extended reals, entry by entry.

  The input activations are three arrays of shape [4, 2048, 768] (batch, position, model coordinate) and the four
  weights are 768 × 768 matrices stored [out, in]. A model coordinate is a pair (head h, offset d) with
  coordinate h · 64 + d; a batch-head pair (b, h) is laid out at row b · 12 + h of a [48, 2048, 64] array.

    projection   P(x, w)[b·12+h, s, d]   = Σ_e x[b, s, e] · w[h·64+d, e]
    scores       S[g, s, i]              = (Σ_d Q[g, s, d] · K[g, i, d]) · (1/8)
    weights      A[g, s, i]              = exp(S[g,s,i] − max_i' S[g,s,i']) / Σ_i' exp(S[g,s,i'] − max_i'' S[g,s,i''])
    heads        O[g, s, d]              = Σ_i A[g, s, i] · V[g, i, d]
    output       Y[b, s, e]              = Σ_h Σ_d O[b·12+h, s, d] · wo[e, h·64+d]

  The maximum of a row starts from minus infinity, as both programs start it. Nothing here needs the entries to
  be finite: every definition is a term of the extended reals.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Minus infinity, as the word both programs start a maximum from. -/
abbrev negInf : EReal := Ideal.ofBits .f32 0xFF800000#32
/-- The score scale 1/8 = 1/sqrt 64, as the exact binary word the kernel multiplies by. -/
abbrev eighth : EReal := Ideal.ofBits .f32 0x3E000000#32

/-- The maximum of a finite family, started at minus infinity. -/
def rowMax {b : ℕ} (L : Fin b → EReal) : EReal :=
  (Finset.univ : Finset (Fin b)).fold max negInf L

/-- The scaled scores of one query row `q` against the key rows `k i`. -/
def scoreRow {D K : ℕ} (q : Fin D → EReal) (k : Fin K → Fin D → EReal) : Fin K → EReal :=
  fun i => (∑ d, q d * k i d) * eighth

/-- The softmax of one row of scores: exponentials of the scores less their maximum, over their sum. -/
def softRow {K : ℕ} (s : Fin K → EReal) : Fin K → EReal :=
  fun i => Ideal.div (Ideal.exp (s i - rowMax s)) (∑ i', Ideal.exp (s i' - rowMax s))

/-- One entry of an attention head: the softmax weights of the query row against the keys, applied to one
    column `v` of the values. -/
def attnEntry {D K : ℕ} (q : Fin D → EReal) (k : Fin K → Fin D → EReal) (v : Fin K → EReal) : EReal :=
  ∑ i, softRow (scoreRow q k) i * v i

/-- The three array shapes of the computation, as functions of an index. -/
abbrev Act : Type := (⟨3, ![4, 2048, 768]⟩ : Shape).Idx → EReal
abbrev Mat : Type := (⟨2, ![768, 768]⟩ : Shape).Idx → EReal
abbrev Heads : Type := (⟨3, ![48, 2048, 64]⟩ : Shape).Idx → EReal

/-- Row of the per-head arrays that holds batch `b`, head `h`. -/
def bh (b : Fin 4) (h : Fin 12) : Fin 48 := ⟨b.val * 12 + h.val, by omega⟩
/-- Model coordinate of head `h`, offset `d`. -/
def hd (h : Fin 12) (d : Fin 64) : Fin 768 := ⟨h.val * 64 + d.val, by omega⟩

/-- The linear projection split by heads, at batch `b`, head `h`, position `s`, offset `d`. -/
def projE (x : Act) (w : Mat) (b : Fin 4) (h : Fin 12) (s : Fin 2048) (d : Fin 64) : EReal :=
  ∑ e : Fin 768, x (ix3 b s e) * w (ix2 (hd h d) e)

/-- The projection as a [48, 2048, 64] array: row `g` is batch `g / 12`, head `g % 12`. -/
def proj (x : Act) (w : Mat) : Heads := fun j =>
  projE x w ⟨(j 0).val / 12, by have := (j 0).isLt; change (j 0).val < 48 at this; omega⟩
    ⟨(j 0).val % 12, Nat.mod_lt _ (by norm_num)⟩ (j 1) (j 2)

/-- One head's attention output at row `g`, position `s`, offset `d`. -/
def attnE (qh kh vh : Heads) (g : Fin 48) (s : Fin 2048) (d : Fin 64) : EReal :=
  attnEntry (fun d' => qh (ix3 g s d')) (fun i d' => kh (ix3 g i d')) (fun i => vh (ix3 g i d))

/-- The attention heads as a [48, 2048, 64] array. -/
def attn (qh kh vh : Heads) : Heads := fun j => attnE qh kh vh (j 0) (j 1) (j 2)

/-- The heads merged and projected by `wo` (stored [out, in]) at batch `b`, position `s`, output coordinate `e`:
    the sum over heads of each head's product with its 64 columns of `wo`. -/
def mergeE (oh : Heads) (wo : Mat) (b : Fin 4) (s : Fin 2048) (e : Fin 768) : EReal :=
  ∑ h : Fin 12, ∑ d : Fin 64, oh (ix3 (bh b h) s d) * wo (ix2 e (hd h d))

/-- The whole computation: the output array as one function of the seven argument arrays. -/
def mha (q k v : Act) (wq wk wv wo : Mat) : Act := fun j =>
  mergeE (attn (proj q wq) (proj k wk) (proj v wv)) wo (j 0) (j 1) (j 2)

theorem proj_apply (x : Act) (w : Mat) (b : Fin 4) (h : Fin 12) (s : Fin 2048) (d : Fin 64) :
    proj x w (ix3 (bh b h) s d) = projE x w b h s d := by
  unfold proj
  have h1 : (⟨((ix3 (bh b h) s d : (⟨3, ![48, 2048, 64]⟩ : Shape).Idx) 0).val / 12, by
      have := ((ix3 (bh b h) s d : (⟨3, ![48, 2048, 64]⟩ : Shape).Idx) 0).isLt
      change ((ix3 (bh b h) s d : (⟨3, ![48, 2048, 64]⟩ : Shape).Idx) 0).val < 48 at this; omega⟩ : Fin 4) = b := by
    apply Fin.ext; show (b.val * 12 + h.val) / 12 = b.val; have := h.isLt; omega
  have h2 : (⟨((ix3 (bh b h) s d : (⟨3, ![48, 2048, 64]⟩ : Shape).Idx) 0).val % 12, Nat.mod_lt _ (by norm_num)⟩ : Fin 12) = h := by
    apply Fin.ext; show (b.val * 12 + h.val) % 12 = h.val; have := h.isLt; omega
  rw [h1, h2]

end Cert.Spec

end
-- ==== Proof.PayProj.lean ====
/-
  The three projection kernels' stored value, read at one entry.

  Each projection kernel multiplies a [1024, 768] block of activations by the 64 rows of the weight that belong to one
  head, contracting the model coordinate: at (0, r, d) the stored value is the sum over e of x (0, r, e) * w (d, e).
  Over the extended reals a change of float format is the identity and the product into the zero block is the plain
  sum over the contracted axis.
-/
import proofs.«165060_j71665824301623_2_alg».proof.Proof.Gen.KernelIdeal.Skeleton
import proofs.«165060_j71665824301623_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option synthInstance.maxSize 4096

noncomputable section

namespace Cert.KernelIdeal.PayVal

open Idealize.ShloMosaic Idealize.ShloMosaic.ValueIdx Cert.KernelIdeal Cert.KernelIdeal.Gen

/-- Entry (p, q) of the product of an A by K matrix with the transpose of a B by K matrix, into the zero accumulator,
    is the sum over the contracted axis of l (p, k) * r (q, k). The four hypotheses say that the operand indices of
    the dimension record are (row, contraction) on the left and (column, contraction) on the right. -/
theorem matmul_zero_ix2_nt {A K B : ℕ} {φ₁ φ₂ : FTy}
    (D : DotDims (⟨2, ![A, K]⟩ : Shape) (⟨2, ![B, K]⟩ : Shape) (⟨2, ![A, B]⟩ : Shape))
    (hr : D.contr.rank = 1) (hs : D.contr.size ⟨0, by omega⟩ = K)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (i (1 : Fin 2)).val)
    (hr1 : ∀ i q, (D.rhsIdx i q (1 : Fin 2)).val = (q ⟨0, by omega⟩).val)
    (prec : Option ContractPrecision)
    (l : FVec Ideal (⟨2, ![A, K]⟩ : Shape) φ₁) (r : FVec Ideal (⟨2, ![B, K]⟩ : Shape) φ₂) (p : Fin A) (q : Fin B) :
    FloatOps.matmul D prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

/-- A [1, 1024, 768] block viewed [1024, 768] reads (0, r, e) at (r, e). -/
theorem cast_S1x1024x768_S1024x768_apply (x : Vec Ideal S1x1024x768 .f32) (r : Fin 1024) (e : Fin 768) :
    shapeCast S1024x768 x shapeCasts_S1x1024x768_S1024x768 (ix2 r e) = x (ix3 (0 : Fin 1) r e) := by
  refine shapeCast_apply x shapeCasts_S1x1024x768_S1024x768 (ix2 r e) (ix3 (0 : Fin 1) r e) ?_
  rw [Shape.rowMajor_val_three, Shape.rowMajor_val_two]
  show ((0 : ℕ) * 1024 + r.val) * 768 + e.val = r.val * 768 + e.val
  omega

/-- The projection's product of the block with the head's weight rows, at (r, d). -/
theorem proj_matmul_apply (l : FVec Ideal S1024x768 .bf16) (w : FVec Ideal S64x768 .bf16) (r : Fin 1024) (d : Fin 64) :
    FloatOps.matmul dot_S1024x768_S64x768_S1024x64_1_1_0_0_n_n none l w (constant (F := Ideal) S1024x64 .f32 0x00000000#32) (ix2 r d)
      = ∑ e : Fin 768, l (ix2 r e) * w (ix2 d e) := by
  refine matmul_zero_ix2_nt dot_S1024x768_S64x768_S1024x64_1_1_0_0_n_n rfl rfl
    (fun i q => ?_) (fun i q => ?_) (fun i q => ?_) (fun i q => ?_) none l w r d
  · unfold DotDims.lhsIdx
    rw [dif_neg (show ¬(0 : Fin S1024x768.rank) ∈ dot_S1024x768_S64x768_S1024x64_1_1_0_0_n_n.lhsBatch by decide),
      dif_pos (show (0 : Fin S1024x768.rank) ∈ dot_S1024x768_S64x768_S1024x64_1_1_0_0_n_n.lhsNonContracting by decide)]
    rfl
  · exact dot_S1024x768_S64x768_S1024x64_1_1_0_0_n_n.lhsIdx_val_of_single rfl i q
  · unfold DotDims.rhsIdx
    rw [dif_neg (show ¬(0 : Fin S64x768.rank) ∈ dot_S1024x768_S64x768_S1024x64_1_1_0_0_n_n.rhsBatch by decide),
      dif_pos (show (0 : Fin S64x768.rank) ∈ dot_S1024x768_S64x768_S1024x64_1_1_0_0_n_n.rhsNonContracting by decide)]
    rfl
  · exact dot_S1024x768_S64x768_S1024x64_1_1_0_0_n_n.rhsIdx_val_of_single rfl i q

/-- A [1024, 64] block viewed [1, 1024, 64] reads (r, d) at (0, r, d). -/
theorem cast_S1024x64_S1x1024x64_apply (y : FVec Ideal S1024x64 .bf16) (r : Fin 1024) (d : Fin 64) :
    shapeCast S1x1024x64 y shapeCasts_S1024x64_S1x1024x64 (ix3 (0 : Fin 1) r d) = y (ix2 r d) := by
  refine shapeCast_apply y shapeCasts_S1024x64_S1x1024x64 (ix3 (0 : Fin 1) r d) (ix2 r d) ?_
  rw [Shape.rowMajor_val_three, Shape.rowMajor_val_two]
  show r.val * 64 + d.val = ((0 : ℕ) * 1024 + r.val) * 64 + d.val
  omega

/-- The first projection kernel's stored value at (0, r, d). -/
theorem k0_pay1_apply (x : Vec Ideal S1x1024x768 .f32) (w : Vec Ideal S64x768 .f32) (r : Fin 1024) (d : Fin 64) :
    k0_pay1 (F := Ideal) x w (ix3 (0 : Fin 1) r d) = ∑ e : Fin 768, x (ix3 (0 : Fin 1) r e) * w (ix2 d e) := by
  unfold k0_pay1
  rw [cast_S1024x64_S1x1024x64_apply, truncf_apply]
  refine (proj_matmul_apply _ _ r d).trans ?_
  refine Finset.sum_congr rfl fun e _ => ?_
  rw [truncf_apply, truncf_apply, cast_S1x1024x768_S1024x768_apply]

/-- The second projection kernel's stored value at (0, r, d). -/
theorem k1_pay1_apply (x : Vec Ideal S1x1024x768 .f32) (w : Vec Ideal S64x768 .f32) (r : Fin 1024) (d : Fin 64) :
    k1_pay1 (F := Ideal) x w (ix3 (0 : Fin 1) r d) = ∑ e : Fin 768, x (ix3 (0 : Fin 1) r e) * w (ix2 d e) := by
  unfold k1_pay1
  rw [cast_S1024x64_S1x1024x64_apply, truncf_apply]
  refine (proj_matmul_apply _ _ r d).trans ?_
  refine Finset.sum_congr rfl fun e _ => ?_
  rw [truncf_apply, truncf_apply, cast_S1x1024x768_S1024x768_apply]

/-- The third projection kernel's stored value at (0, r, d). -/
theorem k2_pay1_apply (x : Vec Ideal S1x1024x768 .f32) (w : Vec Ideal S64x768 .f32) (r : Fin 1024) (d : Fin 64) :
    k2_pay1 (F := Ideal) x w (ix3 (0 : Fin 1) r d) = ∑ e : Fin 768, x (ix3 (0 : Fin 1) r e) * w (ix2 d e) := by
  unfold k2_pay1
  rw [cast_S1024x64_S1x1024x64_apply, truncf_apply]
  refine (proj_matmul_apply _ _ r d).trans ?_
  refine Finset.sum_congr rfl fun e _ => ?_
  rw [truncf_apply, truncf_apply, cast_S1x1024x768_S1024x768_apply]

end Cert.KernelIdeal.PayVal

end
-- ==== Proof.KIVal0.lean ====
/-
  Region 0 from blocks to the array: after all 96 grid points the result array [48, 2048, 64] holds the
  projection split by heads. Grid point t = (b · 2 + i) · 12 + h stores, as block (b · 12 + h, i) of the
  result, the product of rows i · 1024 … of batch b of the activations with the 64 weight rows of head h; entry
  (g, s, d) of the result lies in the block of the point with b = g / 12, i = s / 1024, h = g % 12, and
  every point writes its block back.
-/
import proofs.«165060_j71665824301623_2_alg».proof.Proof.KIR0
import proofs.«165060_j71665824301623_2_alg».proof.Proof.PayProj
import proofs.«165060_j71665824301623_2_alg».proof.Proof.Spec
import Idealize.ShloMosaic.Lib.Pipeline.Value

noncomputable section

namespace Cert.KernelIdeal.Val

open Cert.KernelIdeal Cert.KernelIdeal.Gen Cert.KernelIdeal.Fr Cert.KernelIdeal.PayVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz_r0 : (![0, 0, 0] : Fin 3 → Nat) = fun _ => 0 := funext fun a => by fin_cases a <;> rfl

/-- The block indices of the three windows and the weight rows' offset at grid point t, as arithmetic in t. -/
theorem idx_facts_r0 : ∀ t : Fin cfg0.N,
    win0_0.index t (0 : Fin 3) = t.val / 24 ∧ win0_0.index t (1 : Fin 3) = t.val / 12 % 2 ∧ win0_0.index t (2 : Fin 3) = 0
    ∧ win0_1.index t (0 : Fin 2) = 0 ∧ win0_1.index t (1 : Fin 2) = 0
    ∧ win0_2.index t (0 : Fin 3) = t.val / 24 * 12 + t.val % 12 ∧ win0_2.index t (1 : Fin 3) = t.val / 12 % 2
    ∧ win0_2.index t (2 : Fin 3) = 0
    ∧ k0_off1 (grid0.coords t) = ![64 * (t.val % 12), 0] :=
  (by decide +kernel : ∀ t : Fin grid0.N, _)

/-- The stored value at one entry of the output block, from the activation block and the whole weight matrix: the
    sum over the model coordinate against weight row h · 64 + d, where the point's 64 weight rows start at 64 · h. -/
theorem pay_r0 (x : Vec Ideal S1x1024x768 .f32) (wm : Vec Ideal S768x768 .f32) (i : grid0.Coords) (h : Fin 12)
    (hi : k0_off1 i = ![64 * h.val, 0]) (j : S1x1024x64.Idx) :
    k0_pay1 (F := Ideal) x (View.ld wm (r0_w i)) j
      = ∑ e : Fin 768, x (ix3 (0 : Fin 1) (j 1) e) * wm (ix2 (Cert.Spec.hd h (j 2)) e) := by
  obtain ⟨a, r, d, rfl⟩ : ∃ (a : Fin 1) (r : Fin 1024) (d : Fin 64), j = ix3 a r d := ⟨_, _, _, eq_ix3 j⟩
  obtain rfl : a = 0 := Subsingleton.elim _ _
  show k0_pay1 (F := Ideal) x (View.ld wm (r0_w i)) (ix3 (0 : Fin 1) r d)
    = ∑ e : Fin 768, x (ix3 (0 : Fin 1) r e) * wm (ix2 (Cert.Spec.hd h d) e)
  rw [k0_pay1_apply]
  refine Finset.sum_congr rfl fun e _ => ?_
  refine congrArg (x (ix3 (0 : Fin 1) r e) * ·) ?_
  show wm ((r0_w i).emb (ix2 d e)) = wm (ix2 (Cert.Spec.hd h d) e)
  refine congrArg wm (funext fun a => Fin.ext ?_)
  match a with
  | ⟨0, _⟩ =>
    show k0_off1 i (0 : Fin 2) + 1 * d.val = h.val * 64 + d.val
    rw [hi]; show 64 * h.val + 1 * d.val = h.val * 64 + d.val; omega
  | ⟨1, _⟩ =>
    show k0_off1 i (1 : Fin 2) + 1 * e.val = e.val
    rw [hi]; show 0 + 1 * e.val = e.val; omega

/-- The activations' block at point t, read at (0, r, e), is the array at (t / 24, (t / 12 % 2) · 1024 + r, e). -/
theorem blk_x_r0 (c : Dev nD) (t : Fin cfg0.N) (y : S1x1024x768.Idx) (k : S4x2048x768.Idx)
    (h0 : (k 0).val = t.val / 24) (h1 : (k 1).val = t.val / 12 % 2 * 1024 + (y 1).val) (h2 : (k 2).val = (y 2).val) :
    iblk0 V c 0 t y = V c main_arg0 k := by
  obtain ⟨f00, f01, f02, -, -, -, -, -, -⟩ := idx_facts_r0 t
  have hy0 : (y 0).val < 1 := (y 0).isLt
  unfold iblk0
  rw [View.read_apply]
  show V c main_arg0 _ = V c main_arg0 _
  refine congrArg (V c main_arg0) (funext fun a => Fin.ext ?_)
  match a with
  | ⟨0, _⟩ => show win0_0.index t (0 : Fin 3) * 1 + 1 * (y 0).val = (k 0).val; omega
  | ⟨1, _⟩ => show win0_0.index t (1 : Fin 3) * 1024 + 1 * (y 1).val = (k 1).val; omega
  | ⟨2, _⟩ => show win0_0.index t (2 : Fin 3) * 768 + 1 * (y 2).val = (k 2).val; omega

/-- The weight window's one block is the whole matrix at every point. -/
theorem blk_w_r0 (c : Dev nD) (t : Fin cfg0.N) (y : S768x768.Idx) : iblk0 V c 1 t y = V c main_arg3 y := by
  obtain ⟨-, -, -, f10, f11, -, -, -, -⟩ := idx_facts_r0 t
  unfold iblk0
  rw [View.read_apply]
  show V c main_arg3 _ = V c main_arg3 _
  refine congrArg (V c main_arg3) (funext fun a => Fin.ext ?_)
  match a with
  | ⟨0, _⟩ => show win0_1.index t (0 : Fin 2) * 768 + 1 * (y 0).val = (y 0).val; omega
  | ⟨1, _⟩ => show win0_1.index t (1 : Fin 2) * 768 + 1 * (y 1).val = (y 1).val; omega

/-- What point t writes back is block t of the projection split by heads. -/
theorem flushed_r0 (c : Dev nD) (t : Fin cfg0.N) :
    (dat0 (F := Ideal) V c).flushed 2 t
      = ((cfg0.win 2).blk t).view.read (Elt Ideal) (Cert.Spec.proj (V c main_arg0) (V c main_arg3)) := by
  show (cfg0.win 2).cut (grid0.coords t) ((dat0 (F := Ideal) V c).after 2 t) = _
  rw [after0_2]
  unfold out0_2
  rw [View.canon_unit_zero hz_r0]
  simp only [View.ld_unit_zero (S := S1x1024x768) hz_r0]
  obtain ⟨-, -, -, -, -, f20, f21, f22, foff⟩ := idx_facts_r0 t
  have ht : t.val < 96 := t.isLt.trans_eq N_0
  funext j
  have hj0 : (j 0).val < 1 := (j 0).isLt
  have hj1 : (j 1).val < 1024 := (j 1).isLt
  have hj2 : (j 2).val < 64 := (j 2).isLt
  rw [View.read_apply]
  show k0_pay1 (F := Ideal) (iblk0 V c 0 t) (View.ld (iblk0 V c 1 t) (r0_w (grid0.coords t)))
      ((cfg0.win 2).xinj (grid0.coords t) j)
    = Cert.Spec.proj (V c main_arg0) (V c main_arg3) (((cfg0.win 2).blk t).view.emb j)
  refine (pay_r0 (iblk0 V c 0 t) (iblk0 V c 1 t) (grid0.coords t) ⟨t.val % 12, Nat.mod_lt _ (by norm_num)⟩ foff
    ((cfg0.win 2).xinj (grid0.coords t) j)).trans ?_
  unfold Cert.Spec.proj Cert.Spec.projE
  refine Finset.sum_congr rfl fun e _ => ?_
  refine congrArg₂ (· * ·) ?_ ?_
  · refine blk_x_r0 V c t _ _ ?_ ?_ rfl
    · show (win0_2.index t (0 : Fin 3) * 1 + 1 * (j 0).val) / 12 = t.val / 24; omega
    · show win0_2.index t (1 : Fin 3) * 1024 + 1 * (j 1).val = t.val / 12 % 2 * 1024 + (j 1).val; omega
  · refine (blk_w_r0 V c t _).trans (congrArg (V c main_arg3) (funext fun a => Fin.ext ?_))
    match a with
    | ⟨0, _⟩ =>
      show t.val % 12 * 64 + (j 2).val
        = (win0_2.index t (0 : Fin 3) * 1 + 1 * (j 0).val) % 12 * 64 + (win0_2.index t (2 : Fin 3) * 64 + 1 * (j 2).val)
      omega
    | ⟨1, _⟩ => rfl

/-- An index of the result array is in point t's block iff each coordinate is in the block's range on its axis. -/
theorem mem_blk_r0 (t : Fin cfg0.N) (i : S48x2048x64.Idx) :
    i ∈ ((cfg0.win 2).blk t).view.set
      ↔ ∀ a : Fin 3, win0_2.index t a * S1x1024x64.size a ≤ (i a).val
          ∧ (i a).val < win0_2.index t a * S1x1024x64.size a + S1x1024x64.size a := by
  show i ∈ ((View.whole main_v0).slice (win0_2.rect t)).set ↔ _
  rw [View.set_slice_whole, Rect.mem_set_unit]
  exact Iff.rfl

/-- Entry (g, s, d) lies in the block of the point with batch g / 12, row block s / 1024 and head g % 12. -/
theorem cover_r0 (i : S48x2048x64.Idx) :
    ∃ t : Fin cfg0.N, (cfg0.win 2).flush t = true ∧ i ∈ ((cfg0.win 2).blk t).view.set := by
  have h0 : (i 0).val < 48 := (i 0).isLt
  have h1 : (i 1).val < 2048 := (i 1).isLt
  have h2 : (i 2).val < 64 := (i 2).isLt
  obtain ⟨t, ht⟩ : ∃ t : Fin cfg0.N, t.val = ((i 0).val / 12 * 2 + (i 1).val / 1024) * 12 + (i 0).val % 12 :=
    ⟨⟨_, by rw [show cfg0.N = 96 from N_0]; omega⟩, rfl⟩
  obtain ⟨-, -, -, -, -, f20, f21, f22, -⟩ := idx_facts_r0 t
  refine ⟨t, flush0_2 t, ?_⟩
  rw [mem_blk_r0]
  intro a
  match a with
  | ⟨0, _⟩ =>
    show win0_2.index t (0 : Fin 3) * 1 ≤ (i 0).val ∧ (i 0).val < win0_2.index t (0 : Fin 3) * 1 + 1; omega
  | ⟨1, _⟩ =>
    show win0_2.index t (1 : Fin 3) * 1024 ≤ (i 1).val ∧ (i 1).val < win0_2.index t (1 : Fin 3) * 1024 + 1024; omega
  | ⟨2, _⟩ =>
    show win0_2.index t (2 : Fin 3) * 64 ≤ (i 2).val ∧ (i 2).val < win0_2.index t (2 : Fin 3) * 64 + 64; omega

/-- The result array of region 0 after its last grid point is the projection split by heads. -/
theorem arr0 (c : Dev nD) :
    (dat0 (F := Ideal) V c).arrAt 2 cfg0.N = Cert.Spec.proj (V c main_arg0) (V c main_arg3) :=
  (dat0 (F := Ideal) V c).arrAt_eq_of_cover 2 (Cert.Spec.proj (V c main_arg0) (V c main_arg3))
    (fun t _ => flushed_r0 V c t) cover_r0

end Cert.KernelIdeal.Val

end
-- ==== Proof.KIVal1.lean ====
/-
  Region 1 from blocks to the array: after all 96 grid points the result array [48, 2048, 64] holds the
  projection split by heads. Grid point t = (b · 2 + i) · 12 + h stores, as block (b · 12 + h, i) of the
  result, the product of rows i · 1024 … of batch b of the activations with the 64 weight rows of head h; entry
  (g, s, d) of the result lies in the block of the point with b = g / 12, i = s / 1024, h = g % 12, and
  every point writes its block back.
-/
import proofs.«165060_j71665824301623_2_alg».proof.Proof.KIR1
import proofs.«165060_j71665824301623_2_alg».proof.Proof.PayProj
import proofs.«165060_j71665824301623_2_alg».proof.Proof.Spec
import Idealize.ShloMosaic.Lib.Pipeline.Value

noncomputable section

namespace Cert.KernelIdeal.Val

open Cert.KernelIdeal Cert.KernelIdeal.Gen Cert.KernelIdeal.Fr Cert.KernelIdeal.PayVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz_r1 : (![0, 0, 0] : Fin 3 → Nat) = fun _ => 0 := funext fun a => by fin_cases a <;> rfl

/-- The block indices of the three windows and the weight rows' offset at grid point t, as arithmetic in t. -/
theorem idx_facts_r1 : ∀ t : Fin cfg1.N,
    win1_0.index t (0 : Fin 3) = t.val / 24 ∧ win1_0.index t (1 : Fin 3) = t.val / 12 % 2 ∧ win1_0.index t (2 : Fin 3) = 0
    ∧ win1_1.index t (0 : Fin 2) = 0 ∧ win1_1.index t (1 : Fin 2) = 0
    ∧ win1_2.index t (0 : Fin 3) = t.val / 24 * 12 + t.val % 12 ∧ win1_2.index t (1 : Fin 3) = t.val / 12 % 2
    ∧ win1_2.index t (2 : Fin 3) = 0
    ∧ k1_off1 (grid1.coords t) = ![64 * (t.val % 12), 0] :=
  (by decide +kernel : ∀ t : Fin grid1.N, _)

/-- The stored value at one entry of the output block, from the activation block and the whole weight matrix: the
    sum over the model coordinate against weight row h · 64 + d, where the point's 64 weight rows start at 64 · h. -/
theorem pay_r1 (x : Vec Ideal S1x1024x768 .f32) (wm : Vec Ideal S768x768 .f32) (i : grid1.Coords) (h : Fin 12)
    (hi : k1_off1 i = ![64 * h.val, 0]) (j : S1x1024x64.Idx) :
    k1_pay1 (F := Ideal) x (View.ld wm (r1_w i)) j
      = ∑ e : Fin 768, x (ix3 (0 : Fin 1) (j 1) e) * wm (ix2 (Cert.Spec.hd h (j 2)) e) := by
  obtain ⟨a, r, d, rfl⟩ : ∃ (a : Fin 1) (r : Fin 1024) (d : Fin 64), j = ix3 a r d := ⟨_, _, _, eq_ix3 j⟩
  obtain rfl : a = 0 := Subsingleton.elim _ _
  show k1_pay1 (F := Ideal) x (View.ld wm (r1_w i)) (ix3 (0 : Fin 1) r d)
    = ∑ e : Fin 768, x (ix3 (0 : Fin 1) r e) * wm (ix2 (Cert.Spec.hd h d) e)
  rw [k1_pay1_apply]
  refine Finset.sum_congr rfl fun e _ => ?_
  refine congrArg (x (ix3 (0 : Fin 1) r e) * ·) ?_
  show wm ((r1_w i).emb (ix2 d e)) = wm (ix2 (Cert.Spec.hd h d) e)
  refine congrArg wm (funext fun a => Fin.ext ?_)
  match a with
  | ⟨0, _⟩ =>
    show k1_off1 i (0 : Fin 2) + 1 * d.val = h.val * 64 + d.val
    rw [hi]; show 64 * h.val + 1 * d.val = h.val * 64 + d.val; omega
  | ⟨1, _⟩ =>
    show k1_off1 i (1 : Fin 2) + 1 * e.val = e.val
    rw [hi]; show 0 + 1 * e.val = e.val; omega

/-- The activations' block at point t, read at (0, r, e), is the array at (t / 24, (t / 12 % 2) · 1024 + r, e). -/
theorem blk_x_r1 (c : Dev nD) (t : Fin cfg1.N) (y : S1x1024x768.Idx) (k : S4x2048x768.Idx)
    (h0 : (k 0).val = t.val / 24) (h1 : (k 1).val = t.val / 12 % 2 * 1024 + (y 1).val) (h2 : (k 2).val = (y 2).val) :
    iblk1 V c 0 t y = V c main_arg1 k := by
  obtain ⟨f00, f01, f02, -, -, -, -, -, -⟩ := idx_facts_r1 t
  have hy0 : (y 0).val < 1 := (y 0).isLt
  unfold iblk1
  rw [View.read_apply]
  show V c main_arg1 _ = V c main_arg1 _
  refine congrArg (V c main_arg1) (funext fun a => Fin.ext ?_)
  match a with
  | ⟨0, _⟩ => show win1_0.index t (0 : Fin 3) * 1 + 1 * (y 0).val = (k 0).val; omega
  | ⟨1, _⟩ => show win1_0.index t (1 : Fin 3) * 1024 + 1 * (y 1).val = (k 1).val; omega
  | ⟨2, _⟩ => show win1_0.index t (2 : Fin 3) * 768 + 1 * (y 2).val = (k 2).val; omega

/-- The weight window's one block is the whole matrix at every point. -/
theorem blk_w_r1 (c : Dev nD) (t : Fin cfg1.N) (y : S768x768.Idx) : iblk1 V c 1 t y = V c main_arg4 y := by
  obtain ⟨-, -, -, f10, f11, -, -, -, -⟩ := idx_facts_r1 t
  unfold iblk1
  rw [View.read_apply]
  show V c main_arg4 _ = V c main_arg4 _
  refine congrArg (V c main_arg4) (funext fun a => Fin.ext ?_)
  match a with
  | ⟨0, _⟩ => show win1_1.index t (0 : Fin 2) * 768 + 1 * (y 0).val = (y 0).val; omega
  | ⟨1, _⟩ => show win1_1.index t (1 : Fin 2) * 768 + 1 * (y 1).val = (y 1).val; omega

/-- What point t writes back is block t of the projection split by heads. -/
theorem flushed_r1 (c : Dev nD) (t : Fin cfg1.N) :
    (dat1 (F := Ideal) V c).flushed 2 t
      = ((cfg1.win 2).blk t).view.read (Elt Ideal) (Cert.Spec.proj (V c main_arg1) (V c main_arg4)) := by
  show (cfg1.win 2).cut (grid1.coords t) ((dat1 (F := Ideal) V c).after 2 t) = _
  rw [after1_2]
  unfold out1_2
  rw [View.canon_unit_zero hz_r1]
  simp only [View.ld_unit_zero (S := S1x1024x768) hz_r1]
  obtain ⟨-, -, -, -, -, f20, f21, f22, foff⟩ := idx_facts_r1 t
  have ht : t.val < 96 := t.isLt.trans_eq N_1
  funext j
  have hj0 : (j 0).val < 1 := (j 0).isLt
  have hj1 : (j 1).val < 1024 := (j 1).isLt
  have hj2 : (j 2).val < 64 := (j 2).isLt
  rw [View.read_apply]
  show k1_pay1 (F := Ideal) (iblk1 V c 0 t) (View.ld (iblk1 V c 1 t) (r1_w (grid1.coords t)))
      ((cfg1.win 2).xinj (grid1.coords t) j)
    = Cert.Spec.proj (V c main_arg1) (V c main_arg4) (((cfg1.win 2).blk t).view.emb j)
  refine (pay_r1 (iblk1 V c 0 t) (iblk1 V c 1 t) (grid1.coords t) ⟨t.val % 12, Nat.mod_lt _ (by norm_num)⟩ foff
    ((cfg1.win 2).xinj (grid1.coords t) j)).trans ?_
  unfold Cert.Spec.proj Cert.Spec.projE
  refine Finset.sum_congr rfl fun e _ => ?_
  refine congrArg₂ (· * ·) ?_ ?_
  · refine blk_x_r1 V c t _ _ ?_ ?_ rfl
    · show (win1_2.index t (0 : Fin 3) * 1 + 1 * (j 0).val) / 12 = t.val / 24; omega
    · show win1_2.index t (1 : Fin 3) * 1024 + 1 * (j 1).val = t.val / 12 % 2 * 1024 + (j 1).val; omega
  · refine (blk_w_r1 V c t _).trans (congrArg (V c main_arg4) (funext fun a => Fin.ext ?_))
    match a with
    | ⟨0, _⟩ =>
      show t.val % 12 * 64 + (j 2).val
        = (win1_2.index t (0 : Fin 3) * 1 + 1 * (j 0).val) % 12 * 64 + (win1_2.index t (2 : Fin 3) * 64 + 1 * (j 2).val)
      omega
    | ⟨1, _⟩ => rfl

/-- An index of the result array is in point t's block iff each coordinate is in the block's range on its axis. -/
theorem mem_blk_r1 (t : Fin cfg1.N) (i : S48x2048x64.Idx) :
    i ∈ ((cfg1.win 2).blk t).view.set
      ↔ ∀ a : Fin 3, win1_2.index t a * S1x1024x64.size a ≤ (i a).val
          ∧ (i a).val < win1_2.index t a * S1x1024x64.size a + S1x1024x64.size a := by
  show i ∈ ((View.whole main_v1).slice (win1_2.rect t)).set ↔ _
  rw [View.set_slice_whole, Rect.mem_set_unit]
  exact Iff.rfl

/-- Entry (g, s, d) lies in the block of the point with batch g / 12, row block s / 1024 and head g % 12. -/
theorem cover_r1 (i : S48x2048x64.Idx) :
    ∃ t : Fin cfg1.N, (cfg1.win 2).flush t = true ∧ i ∈ ((cfg1.win 2).blk t).view.set := by
  have h0 : (i 0).val < 48 := (i 0).isLt
  have h1 : (i 1).val < 2048 := (i 1).isLt
  have h2 : (i 2).val < 64 := (i 2).isLt
  obtain ⟨t, ht⟩ : ∃ t : Fin cfg1.N, t.val = ((i 0).val / 12 * 2 + (i 1).val / 1024) * 12 + (i 0).val % 12 :=
    ⟨⟨_, by rw [show cfg1.N = 96 from N_1]; omega⟩, rfl⟩
  obtain ⟨-, -, -, -, -, f20, f21, f22, -⟩ := idx_facts_r1 t
  refine ⟨t, flush1_2 t, ?_⟩
  rw [mem_blk_r1]
  intro a
  match a with
  | ⟨0, _⟩ =>
    show win1_2.index t (0 : Fin 3) * 1 ≤ (i 0).val ∧ (i 0).val < win1_2.index t (0 : Fin 3) * 1 + 1; omega
  | ⟨1, _⟩ =>
    show win1_2.index t (1 : Fin 3) * 1024 ≤ (i 1).val ∧ (i 1).val < win1_2.index t (1 : Fin 3) * 1024 + 1024; omega
  | ⟨2, _⟩ =>
    show win1_2.index t (2 : Fin 3) * 64 ≤ (i 2).val ∧ (i 2).val < win1_2.index t (2 : Fin 3) * 64 + 64; omega

/-- The result array of region 1 after its last grid point is the projection split by heads. -/
theorem arr1 (c : Dev nD) :
    (dat1 (F := Ideal) V c).arrAt 2 cfg1.N = Cert.Spec.proj (V c main_arg1) (V c main_arg4) :=
  (dat1 (F := Ideal) V c).arrAt_eq_of_cover 2 (Cert.Spec.proj (V c main_arg1) (V c main_arg4))
    (fun t _ => flushed_r1 V c t) cover_r1

end Cert.KernelIdeal.Val

end
-- ==== Proof.KIVal2.lean ====
/-
  Region 2 from blocks to the array: after all 96 grid points the result array [48, 2048, 64] holds the
  projection split by heads. Grid point t = (b · 2 + i) · 12 + h stores, as block (b · 12 + h, i) of the
  result, the product of rows i · 1024 … of batch b of the activations with the 64 weight rows of head h; entry
  (g, s, d) of the result lies in the block of the point with b = g / 12, i = s / 1024, h = g % 12, and
  every point writes its block back.
-/
import proofs.«165060_j71665824301623_2_alg».proof.Proof.KIR2
import proofs.«165060_j71665824301623_2_alg».proof.Proof.PayProj
import proofs.«165060_j71665824301623_2_alg».proof.Proof.Spec
import Idealize.ShloMosaic.Lib.Pipeline.Value

noncomputable section

namespace Cert.KernelIdeal.Val

open Cert.KernelIdeal Cert.KernelIdeal.Gen Cert.KernelIdeal.Fr Cert.KernelIdeal.PayVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz_r2 : (![0, 0, 0] : Fin 3 → Nat) = fun _ => 0 := funext fun a => by fin_cases a <;> rfl

/-- The block indices of the three windows and the weight rows' offset at grid point t, as arithmetic in t. -/
theorem idx_facts_r2 : ∀ t : Fin cfg2.N,
    win2_0.index t (0 : Fin 3) = t.val / 24 ∧ win2_0.index t (1 : Fin 3) = t.val / 12 % 2 ∧ win2_0.index t (2 : Fin 3) = 0
    ∧ win2_1.index t (0 : Fin 2) = 0 ∧ win2_1.index t (1 : Fin 2) = 0
    ∧ win2_2.index t (0 : Fin 3) = t.val / 24 * 12 + t.val % 12 ∧ win2_2.index t (1 : Fin 3) = t.val / 12 % 2
    ∧ win2_2.index t (2 : Fin 3) = 0
    ∧ k2_off1 (grid2.coords t) = ![64 * (t.val % 12), 0] :=
  (by decide +kernel : ∀ t : Fin grid2.N, _)

/-- The stored value at one entry of the output block, from the activation block and the whole weight matrix: the
    sum over the model coordinate against weight row h · 64 + d, where the point's 64 weight rows start at 64 · h. -/
theorem pay_r2 (x : Vec Ideal S1x1024x768 .f32) (wm : Vec Ideal S768x768 .f32) (i : grid2.Coords) (h : Fin 12)
    (hi : k2_off1 i = ![64 * h.val, 0]) (j : S1x1024x64.Idx) :
    k2_pay1 (F := Ideal) x (View.ld wm (r2_w i)) j
      = ∑ e : Fin 768, x (ix3 (0 : Fin 1) (j 1) e) * wm (ix2 (Cert.Spec.hd h (j 2)) e) := by
  obtain ⟨a, r, d, rfl⟩ : ∃ (a : Fin 1) (r : Fin 1024) (d : Fin 64), j = ix3 a r d := ⟨_, _, _, eq_ix3 j⟩
  obtain rfl : a = 0 := Subsingleton.elim _ _
  show k2_pay1 (F := Ideal) x (View.ld wm (r2_w i)) (ix3 (0 : Fin 1) r d)
    = ∑ e : Fin 768, x (ix3 (0 : Fin 1) r e) * wm (ix2 (Cert.Spec.hd h d) e)
  rw [k2_pay1_apply]
  refine Finset.sum_congr rfl fun e _ => ?_
  refine congrArg (x (ix3 (0 : Fin 1) r e) * ·) ?_
  show wm ((r2_w i).emb (ix2 d e)) = wm (ix2 (Cert.Spec.hd h d) e)
  refine congrArg wm (funext fun a => Fin.ext ?_)
  match a with
  | ⟨0, _⟩ =>
    show k2_off1 i (0 : Fin 2) + 1 * d.val = h.val * 64 + d.val
    rw [hi]; show 64 * h.val + 1 * d.val = h.val * 64 + d.val; omega
  | ⟨1, _⟩ =>
    show k2_off1 i (1 : Fin 2) + 1 * e.val = e.val
    rw [hi]; show 0 + 1 * e.val = e.val; omega

/-- The activations' block at point t, read at (0, r, e), is the array at (t / 24, (t / 12 % 2) · 1024 + r, e). -/
theorem blk_x_r2 (c : Dev nD) (t : Fin cfg2.N) (y : S1x1024x768.Idx) (k : S4x2048x768.Idx)
    (h0 : (k 0).val = t.val / 24) (h1 : (k 1).val = t.val / 12 % 2 * 1024 + (y 1).val) (h2 : (k 2).val = (y 2).val) :
    iblk2 V c 0 t y = V c main_arg2 k := by
  obtain ⟨f00, f01, f02, -, -, -, -, -, -⟩ := idx_facts_r2 t
  have hy0 : (y 0).val < 1 := (y 0).isLt
  unfold iblk2
  rw [View.read_apply]
  show V c main_arg2 _ = V c main_arg2 _
  refine congrArg (V c main_arg2) (funext fun a => Fin.ext ?_)
  match a with
  | ⟨0, _⟩ => show win2_0.index t (0 : Fin 3) * 1 + 1 * (y 0).val = (k 0).val; omega
  | ⟨1, _⟩ => show win2_0.index t (1 : Fin 3) * 1024 + 1 * (y 1).val = (k 1).val; omega
  | ⟨2, _⟩ => show win2_0.index t (2 : Fin 3) * 768 + 1 * (y 2).val = (k 2).val; omega

/-- The weight window's one block is the whole matrix at every point. -/
theorem blk_w_r2 (c : Dev nD) (t : Fin cfg2.N) (y : S768x768.Idx) : iblk2 V c 1 t y = V c main_arg5 y := by
  obtain ⟨-, -, -, f10, f11, -, -, -, -⟩ := idx_facts_r2 t
  unfold iblk2
  rw [View.read_apply]
  show V c main_arg5 _ = V c main_arg5 _
  refine congrArg (V c main_arg5) (funext fun a => Fin.ext ?_)
  match a with
  | ⟨0, _⟩ => show win2_1.index t (0 : Fin 2) * 768 + 1 * (y 0).val = (y 0).val; omega
  | ⟨1, _⟩ => show win2_1.index t (1 : Fin 2) * 768 + 1 * (y 1).val = (y 1).val; omega

/-- What point t writes back is block t of the projection split by heads. -/
theorem flushed_r2 (c : Dev nD) (t : Fin cfg2.N) :
    (dat2 (F := Ideal) V c).flushed 2 t
      = ((cfg2.win 2).blk t).view.read (Elt Ideal) (Cert.Spec.proj (V c main_arg2) (V c main_arg5)) := by
  show (cfg2.win 2).cut (grid2.coords t) ((dat2 (F := Ideal) V c).after 2 t) = _
  rw [after2_2]
  unfold out2_2
  rw [View.canon_unit_zero hz_r2]
  simp only [View.ld_unit_zero (S := S1x1024x768) hz_r2]
  obtain ⟨-, -, -, -, -, f20, f21, f22, foff⟩ := idx_facts_r2 t
  have ht : t.val < 96 := t.isLt.trans_eq N_2
  funext j
  have hj0 : (j 0).val < 1 := (j 0).isLt
  have hj1 : (j 1).val < 1024 := (j 1).isLt
  have hj2 : (j 2).val < 64 := (j 2).isLt
  rw [View.read_apply]
  show k2_pay1 (F := Ideal) (iblk2 V c 0 t) (View.ld (iblk2 V c 1 t) (r2_w (grid2.coords t)))
      ((cfg2.win 2).xinj (grid2.coords t) j)
    = Cert.Spec.proj (V c main_arg2) (V c main_arg5) (((cfg2.win 2).blk t).view.emb j)
  refine (pay_r2 (iblk2 V c 0 t) (iblk2 V c 1 t) (grid2.coords t) ⟨t.val % 12, Nat.mod_lt _ (by norm_num)⟩ foff
    ((cfg2.win 2).xinj (grid2.coords t) j)).trans ?_
  unfold Cert.Spec.proj Cert.Spec.projE
  refine Finset.sum_congr rfl fun e _ => ?_
  refine congrArg₂ (· * ·) ?_ ?_
  · refine blk_x_r2 V c t _ _ ?_ ?_ rfl
    · show (win2_2.index t (0 : Fin 3) * 1 + 1 * (j 0).val) / 12 = t.val / 24; omega
    · show win2_2.index t (1 : Fin 3) * 1024 + 1 * (j 1).val = t.val / 12 % 2 * 1024 + (j 1).val; omega
  · refine (blk_w_r2 V c t _).trans (congrArg (V c main_arg5) (funext fun a => Fin.ext ?_))
    match a with
    | ⟨0, _⟩ =>
      show t.val % 12 * 64 + (j 2).val
        = (win2_2.index t (0 : Fin 3) * 1 + 1 * (j 0).val) % 12 * 64 + (win2_2.index t (2 : Fin 3) * 64 + 1 * (j 2).val)
      omega
    | ⟨1, _⟩ => rfl

/-- An index of the result array is in point t's block iff each coordinate is in the block's range on its axis. -/
theorem mem_blk_r2 (t : Fin cfg2.N) (i : S48x2048x64.Idx) :
    i ∈ ((cfg2.win 2).blk t).view.set
      ↔ ∀ a : Fin 3, win2_2.index t a * S1x1024x64.size a ≤ (i a).val
          ∧ (i a).val < win2_2.index t a * S1x1024x64.size a + S1x1024x64.size a := by
  show i ∈ ((View.whole main_v2).slice (win2_2.rect t)).set ↔ _
  rw [View.set_slice_whole, Rect.mem_set_unit]
  exact Iff.rfl

/-- Entry (g, s, d) lies in the block of the point with batch g / 12, row block s / 1024 and head g % 12. -/
theorem cover_r2 (i : S48x2048x64.Idx) :
    ∃ t : Fin cfg2.N, (cfg2.win 2).flush t = true ∧ i ∈ ((cfg2.win 2).blk t).view.set := by
  have h0 : (i 0).val < 48 := (i 0).isLt
  have h1 : (i 1).val < 2048 := (i 1).isLt
  have h2 : (i 2).val < 64 := (i 2).isLt
  obtain ⟨t, ht⟩ : ∃ t : Fin cfg2.N, t.val = ((i 0).val / 12 * 2 + (i 1).val / 1024) * 12 + (i 0).val % 12 :=
    ⟨⟨_, by rw [show cfg2.N = 96 from N_2]; omega⟩, rfl⟩
  obtain ⟨-, -, -, -, -, f20, f21, f22, -⟩ := idx_facts_r2 t
  refine ⟨t, flush2_2 t, ?_⟩
  rw [mem_blk_r2]
  intro a
  match a with
  | ⟨0, _⟩ =>
    show win2_2.index t (0 : Fin 3) * 1 ≤ (i 0).val ∧ (i 0).val < win2_2.index t (0 : Fin 3) * 1 + 1; omega
  | ⟨1, _⟩ =>
    show win2_2.index t (1 : Fin 3) * 1024 ≤ (i 1).val ∧ (i 1).val < win2_2.index t (1 : Fin 3) * 1024 + 1024; omega
  | ⟨2, _⟩ =>
    show win2_2.index t (2 : Fin 3) * 64 ≤ (i 2).val ∧ (i 2).val < win2_2.index t (2 : Fin 3) * 64 + 64; omega

/-- The result array of region 2 after its last grid point is the projection split by heads. -/
theorem arr2 (c : Dev nD) :
    (dat2 (F := Ideal) V c).arrAt 2 cfg2.N = Cert.Spec.proj (V c main_arg2) (V c main_arg5) :=
  (dat2 (F := Ideal) V c).arrAt_eq_of_cover 2 (Cert.Spec.proj (V c main_arg2) (V c main_arg5))
    (fun t _ => flushed_r2 V c t) cover_r2

end Cert.KernelIdeal.Val

end
-- ==== Proof.LibLayout3.lean ====
/-
  Three layout operations on arrays of rank 2 and 3, read at an index given by its coordinates.

  A cast that appends or inserts a unit axis does not move an entry: the row-major position of (i, j) in [a, b] is
  that of (i, j, 0) in [a, b, 1] and of (i, 0, j) in [a, 1, b]. A broadcast of [a, b, 1] along its unit last axis to
  [a, b, c] repeats the one entry of row (i, j) at every k. Stated for any extents and any entry type.
-/
import Idealize.ShloMosaic.Lib.Pipeline.Value
import Idealize.ShloMosaic.Lib.ValueLayout
import Idealize.ShloMosaic.Lib.ValueIdx

namespace Cert.LibLayout3

open Idealize.ShloMosaic Idealize.ShloMosaic.ValueIdx

variable {α : Type}

/-- An `[a, b]` array cast to `[a, b, 1]` reads, at `(i, j, u)`, the operand at `(i, j)`: the two row-major
    positions agree because the unit coordinate is 0. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand's one entry of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

end Cert.LibLayout3
-- ==== Proof.PayAttn.lean ====
/-
  The attention kernel's stored value, read at one entry.

  For one batch-head row the kernel forms the scores S (r, i) = (sum over d' of q (0, r, d') * k (0, i, d')) * (1/8),
  takes each row's maximum (started at minus infinity), the exponentials of the scores less that maximum, their row sum,
  the quotients, and multiplies the [512, 2048] weights by the [2048, 64] values. At (0, r, d) the stored value is
  therefore the softmax of score row r applied to column d of the values: the specification's attention entry.
  Over the extended reals a change of float format is the identity and a product into the zero block is the plain
  sum over the contracted axis.
-/
import proofs.«165060_j71665824301623_2_alg».proof.Proof.Gen.KernelIdeal.Skeleton
import proofs.«165060_j71665824301623_2_alg».proof.Proof.Spec
import proofs.«165060_j71665824301623_2_alg».proof.Proof.LibLayout3
import Idealize.ShloMosaic.PureOps.Ideal.Laws
import Idealize.ShloMosaic.Lib.ValueIdx
import Idealize.ShloMosaic.Lib.Pipeline.Value
import Idealize.ShloMosaic.Lib.ValueLayout

set_option synthInstance.maxSize 4096

noncomputable section

namespace Cert.KernelIdeal.PayVal

open Idealize.ShloMosaic Idealize.ShloMosaic.ValueIdx Cert.KernelIdeal Cert.KernelIdeal.Gen

/-! ## Batched products with one contracted axis, into the zero block -/

/-- Entry (g, p, q) of the batched product of [G, A, K] with [G, B, K], both contracted on the last axis, into the
    zero accumulator: the sum over k of l (g, p, k) * r (g, q, k). The six hypotheses give the record's operand
    indices coordinate by coordinate. -/
theorem bmm_zero_ix3_nt {G A K B : ℕ} {φ₁ φ₂ : FTy}
    (D : DotDims (⟨3, ![G, A, K]⟩ : Shape) (⟨3, ![G, B, K]⟩ : Shape) (⟨3, ![G, A, B]⟩ : Shape))
    (hr : D.contr.rank = 1) (hs : D.contr.size ⟨0, by omega⟩ = K)
    (hl0 : ∀ i q, (D.lhsIdx i q (0 : Fin 3)).val = (i (0 : Fin 3)).val)
    (hl1 : ∀ i q, (D.lhsIdx i q (1 : Fin 3)).val = (i (1 : Fin 3)).val)
    (hl2 : ∀ i q, (D.lhsIdx i q (2 : Fin 3)).val = (q ⟨0, by omega⟩).val)
    (hr0 : ∀ i q, (D.rhsIdx i q (0 : Fin 3)).val = (i (0 : Fin 3)).val)
    (hr1 : ∀ i q, (D.rhsIdx i q (1 : Fin 3)).val = (i (2 : Fin 3)).val)
    (hr2 : ∀ i q, (D.rhsIdx i q (2 : Fin 3)).val = (q ⟨0, by omega⟩).val)
    (prec : Option ContractPrecision)
    (l : FVec Ideal (⟨3, ![G, A, K]⟩ : Shape) φ₁) (r : FVec Ideal (⟨3, ![G, B, K]⟩ : Shape) φ₂)
    (g : Fin G) (p : Fin A) (q : Fin B) :
    FloatOps.matmul D prec l r (constant (F := Ideal) (⟨3, ![G, A, B]⟩ : Shape) .f32 0x00000000#32) (ix3 g p q)
      = ∑ k : Fin K, l (ix3 g p k) * r (ix3 g q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix3 g p q) ((contrEquiv1 D K hr hs).symm k) = ix3 g p k := funext fun a => Fin.ext (by
    match a with
    | ⟨0, _⟩ => exact hl0 _ _
    | ⟨1, _⟩ => exact hl1 _ _
    | ⟨2, _⟩ => exact (hl2 _ _).trans hk)
  have er : D.rhsIdx (ix3 g p q) ((contrEquiv1 D K hr hs).symm k) = ix3 g q k := funext fun a => Fin.ext (by
    match a with
    | ⟨0, _⟩ => exact hr0 _ _
    | ⟨1, _⟩ => exact hr1 _ _
    | ⟨2, _⟩ => exact (hr2 _ _).trans hk)
  rw [el, er]

/-- Entry (g, p, q) of the batched product of [G, A, K] with [G, K, B] into the zero accumulator: the sum over k of
    l (g, p, k) * r (g, k, q). -/
theorem bmm_zero_ix3_nn {G A K B : ℕ} {φ₁ φ₂ : FTy}
    (D : DotDims (⟨3, ![G, A, K]⟩ : Shape) (⟨3, ![G, K, B]⟩ : Shape) (⟨3, ![G, A, B]⟩ : Shape))
    (hr : D.contr.rank = 1) (hs : D.contr.size ⟨0, by omega⟩ = K)
    (hl0 : ∀ i q, (D.lhsIdx i q (0 : Fin 3)).val = (i (0 : Fin 3)).val)
    (hl1 : ∀ i q, (D.lhsIdx i q (1 : Fin 3)).val = (i (1 : Fin 3)).val)
    (hl2 : ∀ i q, (D.lhsIdx i q (2 : Fin 3)).val = (q ⟨0, by omega⟩).val)
    (hr0 : ∀ i q, (D.rhsIdx i q (0 : Fin 3)).val = (i (0 : Fin 3)).val)
    (hr1 : ∀ i q, (D.rhsIdx i q (1 : Fin 3)).val = (q ⟨0, by omega⟩).val)
    (hr2 : ∀ i q, (D.rhsIdx i q (2 : Fin 3)).val = (i (2 : Fin 3)).val)
    (prec : Option ContractPrecision)
    (l : FVec Ideal (⟨3, ![G, A, K]⟩ : Shape) φ₁) (r : FVec Ideal (⟨3, ![G, K, B]⟩ : Shape) φ₂)
    (g : Fin G) (p : Fin A) (q : Fin B) :
    FloatOps.matmul D prec l r (constant (F := Ideal) (⟨3, ![G, A, B]⟩ : Shape) .f32 0x00000000#32) (ix3 g p q)
      = ∑ k : Fin K, l (ix3 g p k) * r (ix3 g k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix3 g p q) ((contrEquiv1 D K hr hs).symm k) = ix3 g p k := funext fun a => Fin.ext (by
    match a with
    | ⟨0, _⟩ => exact hl0 _ _
    | ⟨1, _⟩ => exact hl1 _ _
    | ⟨2, _⟩ => exact (hl2 _ _).trans hk)
  have er : D.rhsIdx (ix3 g p q) ((contrEquiv1 D K hr hs).symm k) = ix3 g k q := funext fun a => Fin.ext (by
    match a with
    | ⟨0, _⟩ => exact hr0 _ _
    | ⟨1, _⟩ => exact (hr1 _ _).trans hk
    | ⟨2, _⟩ => exact hr2 _ _)
  rw [el, er]

/-! ## Reductions of a rank-3 array along its last axis, read at a row -/

/-- For a rank-3 array reduced along its last axis, the reduced index (g, p) with the coordinate k put back is (g, p, k). -/
theorem lift_axis2_ix3 {a b c : ℕ} (h : (⟨3, ![a, b, c]⟩ : Shape).Reduces [2] (⟨2, ![a, b]⟩ : Shape)) (g : Fin a) (p : Fin b)
    (k : Fin ((⟨3, ![a, b, c]⟩ : Shape).size 2)) : h.lift (ix2 g p) k = ix3 g p (⟨k.val, k.isLt⟩ : Fin c) := by
  funext x; apply Fin.ext
  fin_cases x <;> rfl

/-- The maximum along the last axis, started at minus infinity, read at row (g, p): the maximum of that row. -/
theorem multiReduction_max_axis2 {a b c : ℕ} (src : FVec Ideal ⟨3, ![a, b, c]⟩ .f32)
    (h : (⟨3, ![a, b, c]⟩ : Shape).Reduces [2] (⟨2, ![a, b]⟩ : Shape)) (hφ : FKind.Formats .f32)
    (hacc : (0xFF800000#32 : BitVec 32) = FKind.maximumf.neutral .f32 hφ) (g : Fin a) (p : Fin b) :
    multiReduction .maximumf [2] ⟨2, ![a, b]⟩ src 0xFF800000#32 h hφ hacc (ix2 g p)
      = Cert.Spec.rowMax fun k : Fin c => src (ix3 g p k) := by
  rw [Ideal.multiReduction_maximumf_single]
  have hf : (src ∘ h.lift (ix2 g p)) = fun k : Fin c => src (ix3 g p k) :=
    funext fun k => congrArg src (lift_axis2_ix3 h g p k)
  exact congrArg (fun f => Finset.fold max (Ideal.ofBits .f32 0xFF800000#32) f (Finset.univ : Finset (Fin c))) hf

/-- The sum along the last axis read at row (g, p): the sum of that row. -/
theorem multiReduction_add_axis2 {a b c : ℕ} (src : FVec Ideal ⟨3, ![a, b, c]⟩ .f32)
    (h : (⟨3, ![a, b, c]⟩ : Shape).Reduces [2] (⟨2, ![a, b]⟩ : Shape)) (hφ : FKind.Formats .f32)
    (hacc : (0x00000000#32 : BitVec 32) = FKind.add.neutral .f32 hφ) (g : Fin a) (p : Fin b) :
    multiReduction .add [2] ⟨2, ![a, b]⟩ src 0x00000000#32 h hφ hacc (ix2 g p) = ∑ k : Fin c, src (ix3 g p k) := by
  rw [Ideal.multiReduction_add_single]
  exact Finset.sum_congr rfl fun k _ => congrArg src (lift_axis2_ix3 h g p k)

/-! ## The kernel's steps -/

/-- A row statistic [1, 512] repeated along the 2048 columns. -/
def keep (y : FVec Ideal S1x512 .f32) : FVec Ideal S1x512x2048 .f32 :=
  broadcastTo S1x512x2048 (shapeCast S1x512x1 y shapeCasts_S1x512_S1x512x1) broadcasts_S1x512x1_S1x512x2048

theorem keep_apply (y : FVec Ideal S1x512 .f32) (r : Fin 512) (i : Fin 2048) :
    keep y (ix3 (0 : Fin 1) r i) = y (ix2 (0 : Fin 1) r) := by
  unfold keep
  refine (Cert.LibLayout3.broadcastTo_ab1_abc_apply _ broadcasts_S1x512x1_S1x512x2048 (0 : Fin 1) r i).trans ?_
  exact Cert.LibLayout3.shapeCast_ab_ab1_apply y shapeCasts_S1x512_S1x512x1 (0 : Fin 1) r (0 : Fin 1)

/-- The row maxima of the scores. -/
def rmax (S : FVec Ideal S1x512x2048 .f32) : FVec Ideal S1x512 .f32 :=
  multiReduction .maximumf [2] S1x512 S 0xFF800000#32 reduces_S1x512x2048_S1x512 (.inl rfl) rfl

theorem rmax_apply (S : FVec Ideal S1x512x2048 .f32) (r : Fin 512) :
    rmax S (ix2 (0 : Fin 1) r) = Cert.Spec.rowMax fun i : Fin 2048 => S (ix3 (0 : Fin 1) r i) :=
  multiReduction_max_axis2 S reduces_S1x512x2048_S1x512 (.inl rfl) rfl (0 : Fin 1) r

/-- The row sums. -/
def rsum (E : FVec Ideal S1x512x2048 .f32) : FVec Ideal S1x512 .f32 :=
  multiReduction .add [2] S1x512 E 0x00000000#32 reduces_S1x512x2048_S1x512 (.inl rfl) rfl

theorem rsum_apply (E : FVec Ideal S1x512x2048 .f32) (r : Fin 512) :
    rsum E (ix2 (0 : Fin 1) r) = ∑ i : Fin 2048, E (ix3 (0 : Fin 1) r i) :=
  multiReduction_add_axis2 E reduces_S1x512x2048_S1x512 (.inl rfl) rfl (0 : Fin 1) r

/-- The exponentials of the scores less their row maximum. -/
def expo (S : FVec Ideal S1x512x2048 .f32) : FVec Ideal S1x512x2048 .f32 := exp (subf S (keep (rmax S)))

theorem expo_apply (S : FVec Ideal S1x512x2048 .f32) (r : Fin 512) (i : Fin 2048) :
    expo S (ix3 (0 : Fin 1) r i)
      = Ideal.exp (S (ix3 (0 : Fin 1) r i) - Cert.Spec.rowMax fun i' : Fin 2048 => S (ix3 (0 : Fin 1) r i')) := by
  show Ideal.exp (S (ix3 (0 : Fin 1) r i) - keep (rmax S) (ix3 (0 : Fin 1) r i)) = _
  rw [keep_apply, rmax_apply]

/-- The softmax weights. -/
def soft (S : FVec Ideal S1x512x2048 .f32) : FVec Ideal S1x512x2048 .f32 := divf (expo S) (keep (rsum (expo S)))

theorem soft_apply (S : FVec Ideal S1x512x2048 .f32) (r : Fin 512) (i : Fin 2048) :
    soft S (ix3 (0 : Fin 1) r i) = Cert.Spec.softRow (fun i' : Fin 2048 => S (ix3 (0 : Fin 1) r i')) i := by
  show Ideal.div (expo S (ix3 (0 : Fin 1) r i)) (keep (rsum (expo S)) (ix3 (0 : Fin 1) r i)) = _
  rw [keep_apply, rsum_apply, expo_apply]
  unfold Cert.Spec.softRow
  refine congrArg (Ideal.div _) ?_
  exact Finset.sum_congr rfl fun i' _ => expo_apply S r i'

/-- The scaled scores. -/
def scores (q : FVec Ideal S1x512x64 .bf16) (k : FVec Ideal S1x2048x64 .bf16) : FVec Ideal S1x512x2048 .f32 :=
  mulf (matmul dot_S1x512x64_S1x2048x64_S1x512x2048_2_2_1_1_0_0 none q k (constant S1x512x2048 .f32 0x00000000#32))
    (broadcast S1x512x2048 (Scalar.ofBits .f32 0x3E000000#32))

theorem scores_apply (q : FVec Ideal S1x512x64 .bf16) (k : FVec Ideal S1x2048x64 .bf16) (r : Fin 512) (i : Fin 2048) :
    scores q k (ix3 (0 : Fin 1) r i)
      = Cert.Spec.scoreRow (fun d' : Fin 64 => q (ix3 (0 : Fin 1) r d')) (fun (i : Fin 2048) (d' : Fin 64) => k (ix3 (0 : Fin 1) i d')) i := by
  show FloatOps.matmul dot_S1x512x64_S1x2048x64_S1x512x2048_2_2_1_1_0_0 none q k (constant (F := Ideal) S1x512x2048 .f32 0x00000000#32)
      (ix3 (0 : Fin 1) r i) * Cert.Spec.eighth = _
  unfold Cert.Spec.scoreRow
  refine congrArg (· * Cert.Spec.eighth) ?_
  refine bmm_zero_ix3_nt dot_S1x512x64_S1x2048x64_S1x512x2048_2_2_1_1_0_0 rfl rfl
    (fun j c => ?_) (fun j c => ?_) (fun j c => ?_) (fun j c => ?_) (fun j c => ?_) (fun j c => ?_) none q k (0 : Fin 1) r i
  · unfold DotDims.lhsIdx
    rw [dif_pos (show (0 : Fin S1x512x64.rank) ∈ dot_S1x512x64_S1x2048x64_S1x512x2048_2_2_1_1_0_0.lhsBatch by decide)]
    rfl
  · unfold DotDims.lhsIdx
    rw [dif_neg (show ¬(1 : Fin S1x512x64.rank) ∈ dot_S1x512x64_S1x2048x64_S1x512x2048_2_2_1_1_0_0.lhsBatch by decide),
      dif_pos (show (1 : Fin S1x512x64.rank) ∈ dot_S1x512x64_S1x2048x64_S1x512x2048_2_2_1_1_0_0.lhsNonContracting by decide)]
    rfl
  · exact dot_S1x512x64_S1x2048x64_S1x512x2048_2_2_1_1_0_0.lhsIdx_val_of_single rfl j c
  · unfold DotDims.rhsIdx
    rw [dif_pos (show (0 : Fin S1x2048x64.rank) ∈ dot_S1x512x64_S1x2048x64_S1x512x2048_2_2_1_1_0_0.rhsBatch by decide)]
    rfl
  · unfold DotDims.rhsIdx
    rw [dif_neg (show ¬(1 : Fin S1x2048x64.rank) ∈ dot_S1x512x64_S1x2048x64_S1x512x2048_2_2_1_1_0_0.rhsBatch by decide),
      dif_pos (show (1 : Fin S1x2048x64.rank) ∈ dot_S1x512x64_S1x2048x64_S1x512x2048_2_2_1_1_0_0.rhsNonContracting by decide)]
    rfl
  · exact dot_S1x512x64_S1x2048x64_S1x512x2048_2_2_1_1_0_0.rhsIdx_val_of_single rfl j c

/-- The weights applied to the values, at (0, r, d). -/
theorem apply_values (W : FVec Ideal S1x512x2048 .bf16) (v : FVec Ideal S1x2048x64 .bf16) (r : Fin 512) (d : Fin 64) :
    FloatOps.matmul dot_S1x512x2048_S1x2048x64_S1x512x64_2_1_1_2_0_0 none W v (constant (F := Ideal) S1x512x64 .f32 0x00000000#32)
      (ix3 (0 : Fin 1) r d) = ∑ i : Fin 2048, W (ix3 (0 : Fin 1) r i) * v (ix3 (0 : Fin 1) i d) := by
  refine bmm_zero_ix3_nn dot_S1x512x2048_S1x2048x64_S1x512x64_2_1_1_2_0_0 rfl rfl
    (fun j c => ?_) (fun j c => ?_) (fun j c => ?_) (fun j c => ?_) (fun j c => ?_) (fun j c => ?_) none W v (0 : Fin 1) r d
  · unfold DotDims.lhsIdx
    rw [dif_pos (show (0 : Fin S1x512x2048.rank) ∈ dot_S1x512x2048_S1x2048x64_S1x512x64_2_1_1_2_0_0.lhsBatch by decide)]
    rfl
  · unfold DotDims.lhsIdx
    rw [dif_neg (show ¬(1 : Fin S1x512x2048.rank) ∈ dot_S1x512x2048_S1x2048x64_S1x512x64_2_1_1_2_0_0.lhsBatch by decide),
      dif_pos (show (1 : Fin S1x512x2048.rank) ∈ dot_S1x512x2048_S1x2048x64_S1x512x64_2_1_1_2_0_0.lhsNonContracting by decide)]
    rfl
  · exact dot_S1x512x2048_S1x2048x64_S1x512x64_2_1_1_2_0_0.lhsIdx_val_of_single rfl j c
  · unfold DotDims.rhsIdx
    rw [dif_pos (show (0 : Fin S1x2048x64.rank) ∈ dot_S1x512x2048_S1x2048x64_S1x512x64_2_1_1_2_0_0.rhsBatch by decide)]
    rfl
  · exact dot_S1x512x2048_S1x2048x64_S1x512x64_2_1_1_2_0_0.rhsIdx_val_of_single rfl j c
  · unfold DotDims.rhsIdx
    rw [dif_neg (show ¬(2 : Fin S1x2048x64.rank) ∈ dot_S1x512x2048_S1x2048x64_S1x512x64_2_1_1_2_0_0.rhsBatch by decide),
      dif_pos (show (2 : Fin S1x2048x64.rank) ∈ dot_S1x512x2048_S1x2048x64_S1x512x64_2_1_1_2_0_0.rhsNonContracting by decide)]
    rfl

/-- The stored value as the weights of the scores applied to the values. -/
theorem k3_pay1_eq (q : Vec Ideal S1x512x64 .bf16) (k v : Vec Ideal S1x2048x64 .bf16) :
    k3_pay1 (F := Ideal) q k v
      = truncf .bf16 (matmul (φ₂ := .bf16) dot_S1x512x2048_S1x2048x64_S1x512x64_2_1_1_2_0_0 none
          (truncf .bf16 (soft (scores q k)) bitsLt_bf16_f32) v (constant S1x512x64 .f32 0x00000000#32)) bitsLt_bf16_f32 := by
  unfold k3_pay1
  rw [shapeCast_self q, shapeCast_self k, shapeCast_self v]
  rfl

/-- The attention kernel's stored value at (0, r, d): the specification's attention entry of query row r against the
    keys, applied to column d of the values. -/
theorem k3_pay1_apply (q : Vec Ideal S1x512x64 .bf16) (k v : Vec Ideal S1x2048x64 .bf16) (r : Fin 512) (d : Fin 64) :
    k3_pay1 (F := Ideal) q k v (ix3 (0 : Fin 1) r d)
      = Cert.Spec.attnEntry (fun d' : Fin 64 => q (ix3 (0 : Fin 1) r d'))
          (fun (i : Fin 2048) (d' : Fin 64) => k (ix3 (0 : Fin 1) i d')) (fun i : Fin 2048 => v (ix3 (0 : Fin 1) i d)) := by
  rw [k3_pay1_eq, truncf_apply]
  refine (apply_values _ v r d).trans ?_
  unfold Cert.Spec.attnEntry
  refine Finset.sum_congr rfl fun i _ => ?_
  rw [truncf_apply, soft_apply]
  have hS : (fun i' : Fin 2048 => scores q k (ix3 (0 : Fin 1) r i'))
      = Cert.Spec.scoreRow (fun d' : Fin 64 => q (ix3 (0 : Fin 1) r d')) (fun (i : Fin 2048) (d' : Fin 64) => k (ix3 (0 : Fin 1) i d')) :=
    funext fun i' => scores_apply q k r i'
  rw [hS]

end Cert.KernelIdeal.PayVal

end
-- ==== Proof.KIVal3.lean ====
/-
  Region 3 from blocks to the array: after all 192 grid points the result array [48, 2048, 64] holds the attention
  heads. Grid point t = g · 4 + i stores, as block (g, i) of the result, the attention of query rows i · 512 … of
  batch-head row g against all 2048 key and value rows of the same row g; entry (g, s, d) of the result lies in the
  block of the point with i = s / 512, and every point writes its block back.
-/
import proofs.«165060_j71665824301623_2_alg».proof.Proof.KIR3
import proofs.«165060_j71665824301623_2_alg».proof.Proof.PayAttn
import proofs.«165060_j71665824301623_2_alg».proof.Proof.Spec
import Idealize.ShloMosaic.Lib.Pipeline.Value

noncomputable section

namespace Cert.KernelIdeal.Val

open Cert.KernelIdeal Cert.KernelIdeal.Gen Cert.KernelIdeal.Fr Cert.KernelIdeal.PayVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz_r3 : (![0, 0, 0] : Fin 3 → Nat) = fun _ => 0 := funext fun a => by fin_cases a <;> rfl

/-- The block indices of the four windows at grid point t, as arithmetic in t. -/
theorem idx_facts_r3 : ∀ t : Fin cfg3.N,
    win3_0.index t (0 : Fin 3) = t.val / 4 ∧ win3_0.index t (1 : Fin 3) = t.val % 4 ∧ win3_0.index t (2 : Fin 3) = 0
    ∧ win3_1.index t (0 : Fin 3) = t.val / 4 ∧ win3_1.index t (1 : Fin 3) = 0 ∧ win3_1.index t (2 : Fin 3) = 0
    ∧ win3_2.index t (0 : Fin 3) = t.val / 4 ∧ win3_2.index t (1 : Fin 3) = 0 ∧ win3_2.index t (2 : Fin 3) = 0
    ∧ win3_3.index t (0 : Fin 3) = t.val / 4 ∧ win3_3.index t (1 : Fin 3) = t.val % 4 ∧ win3_3.index t (2 : Fin 3) = 0 :=
  (by decide +kernel : ∀ t : Fin grid3.N, _)

/-- An attention entry depends on its three families only through their values. -/
theorem attnEntry_congr_r3 {D K : ℕ} {q q' : Fin D → EReal} {k k' : Fin K → Fin D → EReal} {v v' : Fin K → EReal}
    (hq : ∀ d, q d = q' d) (hk : ∀ i d, k i d = k' i d) (hv : ∀ i, v i = v' i) :
    Cert.Spec.attnEntry q k v = Cert.Spec.attnEntry q' k' v' := by
  obtain rfl : q = q' := funext hq
  obtain rfl : k = k' := funext fun i => funext (hk i)
  obtain rfl : v = v' := funext hv
  rfl

/-- The stored value at one entry of the output block, from the three input blocks. -/
theorem pay_r3 (q : Vec Ideal S1x512x64 .bf16) (k v : Vec Ideal S1x2048x64 .bf16) (j : S1x512x64.Idx) :
    k3_pay1 (F := Ideal) q k v j
      = Cert.Spec.attnEntry (fun d' : Fin 64 => q (ix3 (0 : Fin 1) (j 1) d'))
          (fun (i : Fin 2048) (d' : Fin 64) => k (ix3 (0 : Fin 1) i d')) (fun i : Fin 2048 => v (ix3 (0 : Fin 1) i (j 2))) := by
  obtain ⟨a, r, d, rfl⟩ : ∃ (a : Fin 1) (r : Fin 512) (d : Fin 64), j = ix3 a r d := ⟨_, _, _, eq_ix3 j⟩
  obtain rfl : a = 0 := Subsingleton.elim _ _
  exact k3_pay1_apply q k v r d

/-- The query block at point t, read at (0, r, d), is the array at (t / 4, (t % 4) · 512 + r, d). -/
theorem blk_q_r3 (c : Dev nD) (t : Fin cfg3.N) (y : S1x512x64.Idx) (k : S48x2048x64.Idx)
    (h0 : (k 0).val = t.val / 4) (h1 : (k 1).val = t.val % 4 * 512 + (y 1).val) (h2 : (k 2).val = (y 2).val) :
    iblk3 V c 0 t y = V c main_v0 k := by
  obtain ⟨f00, f01, f02, -, -, -, -, -, -, -, -, -⟩ := idx_facts_r3 t
  have hy0 : (y 0).val < 1 := (y 0).isLt
  unfold iblk3
  rw [View.read_apply]
  show V c main_v0 _ = V c main_v0 _
  refine congrArg (V c main_v0) (funext fun a => Fin.ext ?_)
  match a with
  | ⟨0, _⟩ => show win3_0.index t (0 : Fin 3) * 1 + 1 * (y 0).val = (k 0).val; omega
  | ⟨1, _⟩ => show win3_0.index t (1 : Fin 3) * 512 + 1 * (y 1).val = (k 1).val; omega
  | ⟨2, _⟩ => show win3_0.index t (2 : Fin 3) * 64 + 1 * (y 2).val = (k 2).val; omega

/-- The key block at point t is all 2048 rows of batch-head row t / 4. -/
theorem blk_k_r3 (c : Dev nD) (t : Fin cfg3.N) (y : S1x2048x64.Idx) (k : S48x2048x64.Idx)
    (h0 : (k 0).val = t.val / 4) (h1 : (k 1).val = (y 1).val) (h2 : (k 2).val = (y 2).val) :
    iblk3 V c 1 t y = V c main_v1 k := by
  obtain ⟨-, -, -, f10, f11, f12, -, -, -, -, -, -⟩ := idx_facts_r3 t
  have hy0 : (y 0).val < 1 := (y 0).isLt
  unfold iblk3
  rw [View.read_apply]
  show V c main_v1 _ = V c main_v1 _
  refine congrArg (V c main_v1) (funext fun a => Fin.ext ?_)
  match a with
  | ⟨0, _⟩ => show win3_1.index t (0 : Fin 3) * 1 + 1 * (y 0).val = (k 0).val; omega
  | ⟨1, _⟩ => show win3_1.index t (1 : Fin 3) * 2048 + 1 * (y 1).val = (k 1).val; omega
  | ⟨2, _⟩ => show win3_1.index t (2 : Fin 3) * 64 + 1 * (y 2).val = (k 2).val; omega

/-- The value block at point t is all 2048 rows of batch-head row t / 4. -/
theorem blk_v_r3 (c : Dev nD) (t : Fin cfg3.N) (y : S1x2048x64.Idx) (k : S48x2048x64.Idx)
    (h0 : (k 0).val = t.val / 4) (h1 : (k 1).val = (y 1).val) (h2 : (k 2).val = (y 2).val) :
    iblk3 V c 2 t y = V c main_v2 k := by
  obtain ⟨-, -, -, -, -, -, f20, f21, f22, -, -, -⟩ := idx_facts_r3 t
  have hy0 : (y 0).val < 1 := (y 0).isLt
  unfold iblk3
  rw [View.read_apply]
  show V c main_v2 _ = V c main_v2 _
  refine congrArg (V c main_v2) (funext fun a => Fin.ext ?_)
  match a with
  | ⟨0, _⟩ => show win3_2.index t (0 : Fin 3) * 1 + 1 * (y 0).val = (k 0).val; omega
  | ⟨1, _⟩ => show win3_2.index t (1 : Fin 3) * 2048 + 1 * (y 1).val = (k 1).val; omega
  | ⟨2, _⟩ => show win3_2.index t (2 : Fin 3) * 64 + 1 * (y 2).val = (k 2).val; omega

/-- What point t writes back is block t of the attention heads. -/
theorem flushed_r3 (c : Dev nD) (t : Fin cfg3.N) :
    (dat3 (F := Ideal) V c).flushed 3 t
      = ((cfg3.win 3).blk t).view.read (Elt Ideal) (Cert.Spec.attn (V c main_v0) (V c main_v1) (V c main_v2)) := by
  show (cfg3.win 3).cut (grid3.coords t) ((dat3 (F := Ideal) V c).after 3 t) = _
  rw [after3_3]
  unfold out3_3
  rw [View.canon_unit_zero hz_r3]
  simp only [View.ld_unit_zero (S := S1x512x64) hz_r3, View.ld_unit_zero (S := S1x2048x64) hz_r3]
  obtain ⟨-, -, -, -, -, -, -, -, -, f30, f31, f32⟩ := idx_facts_r3 t
  funext j
  have hj0 : (j 0).val < 1 := (j 0).isLt
  have hj1 : (j 1).val < 512 := (j 1).isLt
  have hj2 : (j 2).val < 64 := (j 2).isLt
  rw [View.read_apply]
  show k3_pay1 (F := Ideal) (iblk3 V c 0 t) (iblk3 V c 1 t) (iblk3 V c 2 t) ((cfg3.win 3).xinj (grid3.coords t) j)
    = Cert.Spec.attn (V c main_v0) (V c main_v1) (V c main_v2) (((cfg3.win 3).blk t).view.emb j)
  refine (pay_r3 (iblk3 V c 0 t) (iblk3 V c 1 t) (iblk3 V c 2 t) ((cfg3.win 3).xinj (grid3.coords t) j)).trans ?_
  unfold Cert.Spec.attn Cert.Spec.attnE
  refine attnEntry_congr_r3 (fun d' => ?_) (fun i d' => ?_) (fun i => ?_)
  · refine blk_q_r3 V c t _ _ ?_ ?_ rfl
    · show win3_3.index t (0 : Fin 3) * 1 + 1 * (j 0).val = t.val / 4; omega
    · show win3_3.index t (1 : Fin 3) * 512 + 1 * (j 1).val = t.val % 4 * 512 + (j 1).val; omega
  · refine blk_k_r3 V c t _ _ ?_ rfl rfl
    show win3_3.index t (0 : Fin 3) * 1 + 1 * (j 0).val = t.val / 4; omega
  · refine blk_v_r3 V c t _ _ ?_ rfl ?_
    · show win3_3.index t (0 : Fin 3) * 1 + 1 * (j 0).val = t.val / 4; omega
    · show win3_3.index t (2 : Fin 3) * 64 + 1 * (j 2).val = (j 2).val; omega

/-- An index of the result array is in point t's block iff each coordinate is in the block's range on its axis. -/
theorem mem_blk_r3 (t : Fin cfg3.N) (i : S48x2048x64.Idx) :
    i ∈ ((cfg3.win 3).blk t).view.set
      ↔ ∀ a : Fin 3, win3_3.index t a * S1x512x64.size a ≤ (i a).val
          ∧ (i a).val < win3_3.index t a * S1x512x64.size a + S1x512x64.size a := by
  show i ∈ ((View.whole main_v3).slice (win3_3.rect t)).set ↔ _
  rw [View.set_slice_whole, Rect.mem_set_unit]
  exact Iff.rfl

/-- Entry (g, s, d) lies in the block of the point with row g and query block s / 512. -/
theorem cover_r3 (i : S48x2048x64.Idx) :
    ∃ t : Fin cfg3.N, (cfg3.win 3).flush t = true ∧ i ∈ ((cfg3.win 3).blk t).view.set := by
  have h0 : (i 0).val < 48 := (i 0).isLt
  have h1 : (i 1).val < 2048 := (i 1).isLt
  have h2 : (i 2).val < 64 := (i 2).isLt
  obtain ⟨t, ht⟩ : ∃ t : Fin cfg3.N, t.val = (i 0).val * 4 + (i 1).val / 512 :=
    ⟨⟨_, by rw [show cfg3.N = 192 from N_3]; omega⟩, rfl⟩
  obtain ⟨-, -, -, -, -, -, -, -, -, f30, f31, f32⟩ := idx_facts_r3 t
  refine ⟨t, flush3_3 t, ?_⟩
  rw [mem_blk_r3]
  intro a
  match a with
  | ⟨0, _⟩ =>
    show win3_3.index t (0 : Fin 3) * 1 ≤ (i 0).val ∧ (i 0).val < win3_3.index t (0 : Fin 3) * 1 + 1; omega
  | ⟨1, _⟩ =>
    show win3_3.index t (1 : Fin 3) * 512 ≤ (i 1).val ∧ (i 1).val < win3_3.index t (1 : Fin 3) * 512 + 512; omega
  | ⟨2, _⟩ =>
    show win3_3.index t (2 : Fin 3) * 64 ≤ (i 2).val ∧ (i 2).val < win3_3.index t (2 : Fin 3) * 64 + 64; omega

/-- The result array of region 3 after its last grid point is the attention heads of the three projected arrays. -/
theorem arr3 (c : Dev nD) :
    (dat3 (F := Ideal) V c).arrAt 3 cfg3.N = Cert.Spec.attn (V c main_v0) (V c main_v1) (V c main_v2) :=
  (dat3 (F := Ideal) V c).arrAt_eq_of_cover 3 (Cert.Spec.attn (V c main_v0) (V c main_v1) (V c main_v2))
    (fun t _ => flushed_r3 V c t) cover_r3

end Cert.KernelIdeal.Val

end
-- ==== Proof.KIVal4a.lean ====
/-
  Region 4 (head merge and output projection), the parts that speak only of the windows' blocks. Grid point
  t = (b · 2 + i) · 12 + h reads block (b · 12 + h, i) of the attention heads [48, 2048, 64], the 64 rows h · 64 … of
  the transposed output weight, and owns block (b, i) of the result [4, 2048, 768], which it writes back when h = 11.
  Stated here: the block indices as arithmetic in t; the two input blocks read at an entry as entries of their
  arrays; the array index of an entry of the output block; which entries a point's output block holds and that the
  points with h = 11 cover the result; and the merged sum against a transposed weight matrix as the specification's.
-/
import proofs.«165060_j71665824301623_2_alg».proof.Proof.Gen.KernelIdeal.Points
import proofs.«165060_j71665824301623_2_alg».proof.Proof.Gen.KernelIdeal.Launch
import proofs.«165060_j71665824301623_2_alg».proof.Proof.Spec
import Idealize.ShloMosaic.Lib.Pipeline.Value
import Idealize.ShloMosaic.Lib.Pipeline.FrameBody

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A grid point of region 4 is below 96. -/
theorem lt_r4 (t : Fin cfg4.N) : t.val < 96 := t.isLt.trans_eq N_4

/-- The block indices of the three windows and the weight rows' offset at grid point t, as arithmetic in t. -/
theorem idx_facts_r4 : ∀ t : Fin cfg4.N,
    win4_0.index t (0 : Fin 3) = t.val / 24 * 12 + t.val % 12 ∧ win4_0.index t (1 : Fin 3) = t.val / 12 % 2
    ∧ win4_0.index t (2 : Fin 3) = 0
    ∧ win4_1.index t (0 : Fin 2) = 0 ∧ win4_1.index t (1 : Fin 2) = 0
    ∧ win4_2.index t (0 : Fin 3) = t.val / 24 ∧ win4_2.index t (1 : Fin 3) = t.val / 12 % 2 ∧ win4_2.index t (2 : Fin 3) = 0
    ∧ k4_off1 (grid4.coords t) = ![64 * (t.val % 12), 0] :=
  (by decide +kernel : ∀ t : Fin grid4.N, _)

/-- The heads' block at point t, read at (0, r, d), is the array at ((t / 24) · 12 + t % 12, (t / 12 % 2) · 1024 + r, d). -/
theorem blk_o_r4 (c : Dev nD) (t : Fin cfg4.N) (r : Fin 1024) (d : Fin 64) :
    ((cfg4.win 0).blk t).view.read (Elt Ideal) (V c main_v3) (ix3 (0 : Fin 1) r d)
      = V c main_v3 (ix3 (⟨t.val / 24 * 12 + t.val % 12, by have := lt_r4 t; omega⟩ : Fin 48)
          (⟨t.val / 12 % 2 * 1024 + r.val, by have := r.isLt; omega⟩ : Fin 2048) d) := by
  obtain ⟨f00, f01, f02, -, -, -, -, -, -⟩ := idx_facts_r4 t
  rw [View.read_apply]
  show V c main_v3 _ = V c main_v3 _
  refine congrArg (V c main_v3) (funext fun a => Fin.ext ?_)
  match a with
  | ⟨0, _⟩ => show win4_0.index t (0 : Fin 3) * 1 + 1 * 0 = t.val / 24 * 12 + t.val % 12; omega
  | ⟨1, _⟩ => show win4_0.index t (1 : Fin 3) * 1024 + 1 * r.val = t.val / 12 % 2 * 1024 + r.val; omega
  | ⟨2, _⟩ => show win4_0.index t (2 : Fin 3) * 64 + 1 * d.val = d.val; omega

/-- The 64 weight rows the body loads at point t, read at (d, e): the weight window's one block is the whole matrix,
    and the rows start at 64 · (t % 12). -/
theorem blk_w_r4 (c : Dev nD) (t : Fin cfg4.N) (d : Fin 64) (e : Fin 768) :
    View.ld (((cfg4.win 1).blk t).view.read (Elt Ideal) (V c main_v4))
        (Rect.unit (s := S768x768) (k4_off1 (grid4.coords t)) S64x768.size (k4_off1_inb (grid4.coords t))) (ix2 d e)
      = V c main_v4 (ix2 (⟨t.val % 12 * 64 + d.val, by have := d.isLt; omega⟩ : Fin 768) e) := by
  obtain ⟨-, -, -, f10, f11, -, -, -, foff⟩ := idx_facts_r4 t
  show ((cfg4.win 1).blk t).view.read (Elt Ideal) (V c main_v4)
      ((Rect.unit (s := S768x768) (k4_off1 (grid4.coords t)) S64x768.size (k4_off1_inb (grid4.coords t))).emb (ix2 d e)) = _
  rw [View.read_apply]
  show V c main_v4 _ = V c main_v4 _
  refine congrArg (V c main_v4) (funext fun a => Fin.ext ?_)
  match a with
  | ⟨0, _⟩ =>
    show win4_1.index t (0 : Fin 2) * 768 + 1 * (k4_off1 (grid4.coords t) (0 : Fin 2) + 1 * d.val) = t.val % 12 * 64 + d.val
    rw [foff]
    show win4_1.index t (0 : Fin 2) * 768 + 1 * (64 * (t.val % 12) + 1 * d.val) = t.val % 12 * 64 + d.val
    omega
  | ⟨1, _⟩ =>
    show win4_1.index t (1 : Fin 2) * 768 + 1 * (k4_off1 (grid4.coords t) (1 : Fin 2) + 1 * e.val) = e.val
    rw [foff]
    show win4_1.index t (1 : Fin 2) * 768 + 1 * (0 + 1 * e.val) = e.val
    omega

/-- The array index of an entry of point t's output block: (t / 24, (t / 12 % 2) · 1024 + row, column). -/
theorem emb_j_r4 (t : Fin cfg4.N) (j : S1x1024x768.Idx) :
    ((cfg4.win 2).blk t).view.emb j
      = ix3 (⟨t.val / 24, by have := lt_r4 t; omega⟩ : Fin 4)
          (⟨t.val / 12 % 2 * 1024 + (j 1).val, by have : (j 1).val < 1024 := (j 1).isLt; omega⟩ : Fin 2048) (j 2) := by
  obtain ⟨-, -, -, -, -, f20, f21, f22, -⟩ := idx_facts_r4 t
  have hj0 : (j 0).val < 1 := (j 0).isLt
  refine funext fun a => Fin.ext ?_
  match a with
  | ⟨0, _⟩ => show win4_2.index t (0 : Fin 3) * 1 + 1 * (j 0).val = t.val / 24; omega
  | ⟨1, _⟩ => show win4_2.index t (1 : Fin 3) * 1024 + 1 * (j 1).val = t.val / 12 % 2 * 1024 + (j 1).val; omega
  | ⟨2, _⟩ => show win4_2.index t (2 : Fin 3) * 768 + 1 * (j 2).val = (j 2).val; omega

/-- The same at explicit coordinates (0, r, e). -/
theorem emb_o_r4 (t : Fin cfg4.N) (r : Fin 1024) (e : Fin 768) :
    ((cfg4.win 2).blk t).view.emb (ix3 (0 : Fin 1) r e)
      = ix3 (⟨t.val / 24, by have := lt_r4 t; omega⟩ : Fin 4)
          (⟨t.val / 12 % 2 * 1024 + r.val, by have := r.isLt; omega⟩ : Fin 2048) e :=
  emb_j_r4 t (ix3 (0 : Fin 1) r e)

/-- An index of the result array is in point t's block iff each coordinate is in the block's range on its axis. -/
theorem mem_blk_r4 (t : Fin cfg4.N) (i : S4x2048x768.Idx) :
    i ∈ ((cfg4.win 2).blk t).view.set
      ↔ ∀ a : Fin 3, win4_2.index t a * S1x1024x768.size a ≤ (i a).val
          ∧ (i a).val < win4_2.index t a * S1x1024x768.size a + S1x1024x768.size a := by
  show i ∈ ((View.whole main_v5).slice (win4_2.rect t)).set ↔ _
  rw [View.set_slice_whole, Rect.mem_set_unit]
  exact Iff.rfl

/-- Entry (b, s, e) lies in the block of the writing-back point with batch b, row block s / 1024 and the last head. -/
theorem cover_r4 (i : S4x2048x768.Idx) :
    ∃ t : Fin cfg4.N, (cfg4.win 2).flush t = true ∧ i ∈ ((cfg4.win 2).blk t).view.set := by
  have h0 : (i 0).val < 4 := (i 0).isLt
  have h1 : (i 1).val < 2048 := (i 1).isLt
  have h2 : (i 2).val < 768 := (i 2).isLt
  obtain ⟨t, ht⟩ : ∃ t : Fin cfg4.N, t.val = ((i 0).val * 2 + (i 1).val / 1024) * 12 + 11 :=
    ⟨⟨_, by rw [show cfg4.N = 96 from N_4]; omega⟩, rfl⟩
  obtain ⟨-, -, -, -, -, f20, f21, f22, -⟩ := idx_facts_r4 t
  refine ⟨t, (flush4_2 t).mpr (by omega), ?_⟩
  rw [mem_blk_r4]
  intro a
  match a with
  | ⟨0, _⟩ =>
    show win4_2.index t (0 : Fin 3) * 1 ≤ (i 0).val ∧ (i 0).val < win4_2.index t (0 : Fin 3) * 1 + 1; omega
  | ⟨1, _⟩ =>
    show win4_2.index t (1 : Fin 3) * 1024 ≤ (i 1).val ∧ (i 1).val < win4_2.index t (1 : Fin 3) * 1024 + 1024; omega
  | ⟨2, _⟩ =>
    show win4_2.index t (2 : Fin 3) * 768 ≤ (i 2).val ∧ (i 2).val < win4_2.index t (2 : Fin 3) * 768 + 768; omega

/-- The heads merged and projected by a weight matrix stored [in, out]: the sum over heads and offsets of each
    head's entry times the weight at (h · 64 + d, e). -/
def mergeT (oh : Cert.Spec.Heads) (wt : Cert.Spec.Mat) (b : Fin 4) (s : Fin 2048) (e : Fin 768) : EReal :=
  ∑ h : Fin 12, ∑ d : Fin 64, oh (ix3 (Cert.Spec.bh b h) s d) * wt (ix2 (Cert.Spec.hd h d) e)

/-- Against the transpose of a matrix stored [out, in] this is the specification's merge: the transposed matrix at
    (a, e) is the matrix at (e, a). -/
theorem mergeT_transpose (oh : Cert.Spec.Heads) (wo : Cert.Spec.Mat) (hT : S768x768.Transposes [1, 0] S768x768)
    (b : Fin 4) (s : Fin 2048) (e : Fin 768) :
    mergeT oh (transpose S768x768 [1, 0] wo hT) b s e = Cert.Spec.mergeE oh wo b s e := by
  unfold mergeT Cert.Spec.mergeE
  refine Finset.sum_congr rfl fun h _ => Finset.sum_congr rfl fun d _ => ?_
  refine congrArg (oh (ix3 (Cert.Spec.bh b h) s d) * ·) ?_
  exact transpose_apply [1, 0] wo hT (ix2 (Cert.Spec.hd h d) e) (ix2 e (Cert.Spec.hd h d)) (fun a => match a with
    | ⟨0, _⟩ => rfl
    | ⟨1, _⟩ => rfl)

end Cert.KernelIdeal.Val

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.PayMerge.lean ====
/-
  The head-merge and output-projection kernel's three stored values, read at one entry.

  The first store writes the zero block. The second adds to the accumulator block the product of one head's
  [1024, 64] outputs with the head's 64 rows of the output weight: at (r, e) the accumulator's entry plus the sum over
  the head's offsets d of o (0, r, d) * w (d, e). The third store is the accumulator block viewed [1, 1024, 768].
  Over the extended reals a change of float format is the identity and the product into the zero block is the plain
  sum over the contracted axis.
-/
import proofs.«165060_j71665824301623_2_alg».proof.Proof.Gen.KernelIdeal.Skeleton
import proofs.«165060_j71665824301623_2_alg».proof.Proof.Spec
import proofs.«165060_j71665824301623_2_alg».proof.Proof.LibMatmul
import Idealize.ShloMosaic.PureOps.Ideal.Laws
import Idealize.ShloMosaic.Lib.ValueIdx
import Idealize.ShloMosaic.Lib.Pipeline.Value
import Idealize.ShloMosaic.Lib.ValueLayout

set_option synthInstance.maxSize 4096

noncomputable section

namespace Cert.KernelIdeal.PayVal

open Idealize.ShloMosaic Idealize.ShloMosaic.ValueIdx Cert.KernelIdeal Cert.KernelIdeal.Gen

/-- The zero block at every entry. -/
theorem k4_pay1_apply (r : Fin 1024) (e : Fin 768) : k4_pay1 (F := Ideal) (ix2 r e) = 0 := by
  unfold k4_pay1
  rw [shapeCast_self]
  exact Ideal.ofBits_zero_f32

/-- A [1, 1024, 64] block viewed [1024, 64] reads (0, r, d) at (r, d). -/
theorem cast_S1x1024x64_S1024x64_apply (o : Vec Ideal S1x1024x64 .bf16) (r : Fin 1024) (d : Fin 64) :
    shapeCast S1024x64 o shapeCasts_S1x1024x64_S1024x64 (ix2 r d) = o (ix3 (0 : Fin 1) r d) := by
  refine shapeCast_apply o shapeCasts_S1x1024x64_S1024x64 (ix2 r d) (ix3 (0 : Fin 1) r d) ?_
  rw [Shape.rowMajor_val_three, Shape.rowMajor_val_two]
  show ((0 : ℕ) * 1024 + r.val) * 64 + d.val = r.val * 64 + d.val
  omega

/-- The accumulator's entry plus the head's contribution. -/
theorem k4_pay2_apply (o : Vec Ideal S1x1024x64 .bf16) (w : Vec Ideal S64x768 .f32) (acc : Vec Ideal S1024x768 .f32)
    (r : Fin 1024) (e : Fin 768) :
    k4_pay2 (F := Ideal) o w acc (ix2 r e) = acc (ix2 r e) + ∑ d : Fin 64, o (ix3 (0 : Fin 1) r d) * w (ix2 d e) := by
  unfold k4_pay2
  rw [shapeCast_self, addf_apply]
  refine congrArg (acc (ix2 r e) + ·) ?_
  refine (Cert.LibMatmul.matmul_zero_ix2 dot_S1024x64_S64x768_S1024x768_1_0_0_1_n_n rfl rfl
    (fun i q => ?_) (fun i q => ?_) (fun i q => ?_) (fun i q => ?_) none _ _ r e).trans ?_
  · unfold DotDims.lhsIdx
    rw [dif_neg (show ¬(0 : Fin S1024x64.rank) ∈ dot_S1024x64_S64x768_S1024x768_1_0_0_1_n_n.lhsBatch by decide),
      dif_pos (show (0 : Fin S1024x64.rank) ∈ dot_S1024x64_S64x768_S1024x768_1_0_0_1_n_n.lhsNonContracting by decide)]
    rfl
  · exact dot_S1024x64_S64x768_S1024x768_1_0_0_1_n_n.lhsIdx_val_of_single rfl i q
  · exact dot_S1024x64_S64x768_S1024x768_1_0_0_1_n_n.rhsIdx_val_of_single rfl i q
  · unfold DotDims.rhsIdx
    rw [dif_neg (show ¬(1 : Fin S64x768.rank) ∈ dot_S1024x64_S64x768_S1024x768_1_0_0_1_n_n.rhsBatch by decide),
      dif_pos (show (1 : Fin S64x768.rank) ∈ dot_S1024x64_S64x768_S1024x768_1_0_0_1_n_n.rhsNonContracting by decide)]
    rfl
  · refine Finset.sum_congr rfl fun d _ => ?_
    rw [cast_S1x1024x64_S1024x64_apply, truncf_apply, shapeCast_self]

/-- The accumulator block viewed [1, 1024, 768] reads (r, e) at (0, r, e). -/
theorem k4_pay3_apply (a : Vec Ideal S1024x768 .f32) (r : Fin 1024) (e : Fin 768) :
    k4_pay3 (F := Ideal) a (ix3 (0 : Fin 1) r e) = a (ix2 r e) := by
  unfold k4_pay3
  refine shapeCast_apply a shapeCasts_S1024x768_S1x1024x768 (ix3 (0 : Fin 1) r e) (ix2 r e) ?_
  rw [Shape.rowMajor_val_three, Shape.rowMajor_val_two]
  show r.val * 768 + e.val = ((0 : ℕ) * 1024 + r.val) * 768 + e.val
  omega

end Cert.KernelIdeal.PayVal

end
-- ==== Proof.KIVal4.lean ====
/-
  The last region from blocks to the array. Within one run of twelve consecutive grid points — one batch b and one
  block i of 1024 rows, the heads h = 0 … 11 in turn — the accumulator starts from zeros and gains, at head h, the
  product of the head's 1024 × 64 block of the attention output with the 64 rows h · 64 … of the transposed output
  weights. After the run's last point it therefore holds, at (r, e), the sum over all heads and offsets of
  O[b·12+h, i·1024+r, d] · Wt[h·64+d, e], and that point copies it into block (b, i) of the result, the only
  write-back of the run. Every entry of the result lies in such a block.
-/
import proofs.«165060_j71665824301623_2_alg».proof.Proof.KIR4
import proofs.«165060_j71665824301623_2_alg».proof.Proof.KIVal4a
import proofs.«165060_j71665824301623_2_alg».proof.Proof.PayMerge
import proofs.«165060_j71665824301623_2_alg».proof.Proof.Spec
import Idealize.ShloMosaic.Lib.Pipeline.Value

noncomputable section

namespace Cert.KernelIdeal.Val

open Cert.KernelIdeal Cert.KernelIdeal.Gen Cert.KernelIdeal.Fr Cert.KernelIdeal.PayVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What grid point `n` adds to the accumulator at (r, e): the product of row r of its attention block with column
    e of its 64 rows of the transposed weights (zero past the grid, where it is never used). -/
def add4 (oh : Cert.Spec.Heads) (wt : Cert.Spec.Mat) (n : ℕ) (r : Fin 1024) (e : Fin 768) : EReal :=
  if h : n < cfg4.N then
    ∑ d : Fin 64,
      oh (ix3 (⟨n / 24 * 12 + n % 12, by have := h.trans_eq N_4; omega⟩ : Fin 48)
          (⟨n / 12 % 2 * 1024 + r.val, by have := r.isLt; omega⟩ : Fin 2048) d)
        * wt (ix2 (⟨n % 12 * 64 + d.val, by have := d.isLt; omega⟩ : Fin 768) e)
  else 0

/-- One accumulation step at an entry: what was there plus the point's addend. -/
theorem step_r4 (c : Dev nD) (t : Fin cfg4.N) (s : Vec Ideal S1024x768 .f32) (r : Fin 1024) (e : Fin 768) :
    acc4 (F := Ideal) (grid4.coords t) (iblk4 V c 0 t) (iblk4 V c 1 t) s (ix2 r e) = s (ix2 r e) + add4 (V c main_v3) (V c main_v4) t.val r e := by
  unfold acc4
  rw [k4_pay2_apply]
  refine congrArg (s (ix2 r e) + ·) ?_
  unfold add4
  rw [dif_pos t.isLt]
  refine Finset.sum_congr rfl fun d _ => ?_
  refine congrArg₂ (· * ·) ?_ ?_
  · refine (congrFun (View.ld_unit_zero (S := S1x1024x64) zeros4_3 inb_S1x1024x64_S1x1024x64_0_0_0 (iblk4 V c 0 t)) (ix3 (0 : Fin 1) r d)).trans ?_
    unfold iblk4
    exact blk_o_r4 V c t r d
  · unfold iblk4
    exact blk_w_r4 V c t d e

/-- The accumulator's contents depend on the position only through its value. -/
theorem sAt4_congr (c : Dev nD) (a b : ℕ) (ha : a < cfg4.N) (hb : b < cfg4.N) (e : a = b) :
    sAt4 (F := Ideal) V c a ha = sAt4 (F := Ideal) V c b hb := by
  subst e; rfl

/-- After the point at offset j of the run starting at 12 · q, the accumulator holds the sum of the addends of the
    run's points so far. -/
theorem fold_r4 (c : Dev nD) (q : ℕ) : ∀ (j : ℕ) (_ : j < 12) (h : 12 * q + j < cfg4.N) (r : Fin 1024) (e : Fin 768),
    sAt4 (F := Ideal) V c (12 * q + j) h (ix2 r e) = ∑ s ∈ Finset.range (j + 1), add4 (V c main_v3) (V c main_v4) (12 * q + s) r e
  | 0, _, h, r, e => by
    refine (congrFun (sAt4_first' V c ⟨12 * q + 0, h⟩ (by show (12 * q + 0) % 12 = 0; omega)) _).trans ?_
    refine (step_r4 V c ⟨12 * q + 0, h⟩ _ r e).trans ?_
    rw [k4_pay1_apply, zero_add, Finset.sum_range_one]
  | j + 1, hj, h, r, e => by
    refine (congrFun (sAt4_next' V c ⟨12 * q + (j + 1), h⟩ (by show (12 * q + (j + 1)) % 12 ≠ 0; omega)) _).trans ?_
    refine (step_r4 V c ⟨12 * q + (j + 1), h⟩ _ r e).trans ?_
    rw [Finset.sum_range_succ]
    refine congrArg₂ (· + ·) ?_ rfl
    refine (congrFun (sAt4_congr V c _ (12 * q + j) _ (by omega) (by show 12 * q + (j + 1) - 1 = 12 * q + j; omega)) _).trans ?_
    exact fold_r4 c q j (by omega) (by omega) r e

/-- The merged heads against the transposed weights, as an array over [4, 2048, 768]. -/
def merged (oh : Cert.Spec.Heads) (wt : Cert.Spec.Mat) : Cert.Spec.Act := fun i => mergeT oh wt (i 0) (i 1) (i 2)

/-- After the last point of a run the accumulator holds, at (r, e), the merged heads at batch t / 24, row
    (t / 12 % 2) · 1024 + r, column e. -/
theorem last_r4 (c : Dev nD) (t : Fin cfg4.N) (h11 : t.val % 12 = 11) (r : Fin 1024) (e : Fin 768) :
    sAt4 (F := Ideal) V c t.val t.isLt (ix2 r e)
      = mergeT (V c main_v3) (V c main_v4) (⟨t.val / 24, by have := lt_r4 t; omega⟩ : Fin 4)
          (⟨t.val / 12 % 2 * 1024 + r.val, by have := r.isLt; omega⟩ : Fin 2048) e := by
  have ht := lt_r4 t
  have e1 : t.val = 12 * (t.val / 12) + 11 := by omega
  have h' : 12 * (t.val / 12) + 11 < cfg4.N := lt_of_lt_of_eq (by omega : 12 * (t.val / 12) + 11 < 96) N_4.symm
  refine (congrFun (sAt4_congr V c _ _ t.isLt h' e1) _).trans ?_
  rw [fold_r4 V c (t.val / 12) 11 (by norm_num) h' r e, Finset.sum_range]
  unfold mergeT
  refine Finset.sum_congr rfl fun hh _ => ?_
  have hhl := hh.isLt
  have hn : 12 * (t.val / 12) + hh.val < cfg4.N := lt_of_lt_of_eq (by omega : 12 * (t.val / 12) + hh.val < 96) N_4.symm
  unfold add4
  rw [dif_pos hn]
  refine Finset.sum_congr rfl fun d _ => ?_
  have hd := d.isLt
  refine congrArg₂ (· * ·) (congrArg (V c main_v3) ?_) (congrArg (V c main_v4) ?_)
  · refine funext fun a => Fin.ext ?_
    match a with
    | ⟨0, _⟩ => show (12 * (t.val / 12) + hh.val) / 24 * 12 + (12 * (t.val / 12) + hh.val) % 12 = t.val / 24 * 12 + hh.val; omega
    | ⟨1, _⟩ => show (12 * (t.val / 12) + hh.val) / 12 % 2 * 1024 + r.val = t.val / 12 % 2 * 1024 + r.val; omega
    | ⟨2, _⟩ => rfl
  · refine funext fun a => Fin.ext ?_
    match a with
    | ⟨0, _⟩ => show (12 * (t.val / 12) + hh.val) % 12 * 64 + d.val = hh.val * 64 + d.val; omega
    | ⟨1, _⟩ => rfl

/-- What a point that writes back writes is its block of the merged heads. -/
theorem flushed_r4 (c : Dev nD) (t : Fin cfg4.N) (hf : (cfg4.win 2).flush t = true) :
    (dat4 (F := Ideal) V c).flushed 2 t
      = ((cfg4.win 2).blk t).view.read (Elt Ideal) (merged (V c main_v3) (V c main_v4)) := by
  have h11 : t.val % 12 = 11 := (flush4_2 t).mp hf
  show (cfg4.win 2).cut (grid4.coords t) ((dat4 (F := Ideal) V c).after 2 t) = _
  rw [after4_2_last V c t h11, View.canon_unit_zero zeros4_3]
  funext j
  rw [View.read_apply, emb_j_r4 t j]
  obtain ⟨a, r, e, rfl⟩ : ∃ (a : Fin 1) (r : Fin 1024) (e : Fin 768), j = ix3 a r e := ⟨_, _, _, eq_ix3 j⟩
  obtain rfl : a = 0 := Subsingleton.elim _ _
  show k4_pay3 (F := Ideal) (sAt4 (F := Ideal) V c t.val t.isLt) (ix3 (0 : Fin 1) r e) = _
  rw [k4_pay3_apply]
  exact last_r4 V c t h11 r e

/-- The result array of the last region after its last grid point is the merged heads against the transposed
    weights. -/
theorem arr4 (c : Dev nD) :
    (dat4 (F := Ideal) V c).arrAt 2 cfg4.N = merged (V c main_v3) (V c main_v4) :=
  (dat4 (F := Ideal) V c).arrAt_eq_of_cover 2 (merged (V c main_v3) (V c main_v4))
    (fun t hf => flushed_r4 V c t hf) cover_r4

end Cert.KernelIdeal.Val

end
-- ==== Proof.KIChain.lean ====
/-
  The contents of the intermediate arrays along the idealized kernel's run, as functions of the launch memory:
  the three projections, the attention heads, the transposed output weights.
-/
import proofs.«165060_j71665824301623_2_alg».proof.Proof.KIRun
import proofs.«165060_j71665824301623_2_alg».proof.Proof.KIVal0
import proofs.«165060_j71665824301623_2_alg».proof.Proof.KIVal1
import proofs.«165060_j71665824301623_2_alg».proof.Proof.KIVal2
import proofs.«165060_j71665824301623_2_alg».proof.Proof.KIVal3
import proofs.«165060_j71665824301623_2_alg».proof.Proof.KIVal4
import proofs.«165060_j71665824301623_2_alg».proof.Proof.KILast
import Idealize.ShloMosaic.Lib.StableHlo.Run

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg)

/-- Before region 1 the second activation array and its weights are as launched. -/
theorem V1_arg1 (c : Dev nD) : V1 m ρ c main_arg1 = m ((c : Thread nD τ).loc main_arg1) := W1_of_ne m ρ c main_arg1 (by decide)
theorem V1_arg4 (c : Dev nD) : V1 m ρ c main_arg4 = m ((c : Thread nD τ).loc main_arg4) := W1_of_ne m ρ c main_arg4 (by decide)
/-- Before region 2 the third activation array and its weights are as launched. -/
theorem V2_arg2 (c : Dev nD) : V2 m ρ c main_arg2 = m ((c : Thread nD τ).loc main_arg2) :=
  (W2_of_ne m ρ c main_arg2 (by decide)).trans (W1_of_ne m ρ c main_arg2 (by decide))
theorem V2_arg5 (c : Dev nD) : V2 m ρ c main_arg5 = m ((c : Thread nD τ).loc main_arg5) :=
  (W2_of_ne m ρ c main_arg5 (by decide)).trans (W1_of_ne m ρ c main_arg5 (by decide))

/-- The query projection, from region 0 on. -/
theorem W1_v0 (c : Dev nD) : W1 m ρ c (Proc.devRef .tc main_v0)
    = Cert.Spec.proj (m ((c : Thread nD τ).loc main_arg0)) (m ((c : Thread nD τ).loc main_arg3)) :=
  (W1_arr m ρ c 2).trans (arr0 (V0 m ρ) c)
theorem V3_v0 (c : Dev nD) : V3 m ρ c main_v0
    = Cert.Spec.proj (m ((c : Thread nD τ).loc main_arg0)) (m ((c : Thread nD τ).loc main_arg3)) :=
  (W3_of_ne m ρ c main_v0 (by decide)).trans ((W2_of_ne m ρ c main_v0 (by decide)).trans (W1_v0 m ρ c))
/-- The key projection, from region 1 on. -/
theorem V3_v1 (c : Dev nD) : V3 m ρ c main_v1
    = Cert.Spec.proj (m ((c : Thread nD τ).loc main_arg1)) (m ((c : Thread nD τ).loc main_arg4)) :=
  (W3_of_ne m ρ c main_v1 (by decide)).trans (((W2_arr m ρ c 2).trans (arr1 (V1 m ρ) c)).trans (by rw [V1_arg1, V1_arg4]))
/-- The value projection, from region 2 on. -/
theorem V3_v2 (c : Dev nD) : V3 m ρ c main_v2
    = Cert.Spec.proj (m ((c : Thread nD τ).loc main_arg2)) (m ((c : Thread nD τ).loc main_arg5)) :=
  ((W3_arr m ρ c 2).trans (arr2 (V2 m ρ) c)).trans (by rw [V2_arg2, V2_arg5])

/-- The attention heads, from region 3 on. -/
theorem W4_v3 (c : Dev nD) : W4 m ρ c (Proc.devRef .tc main_v3)
    = Cert.Spec.attn (Cert.Spec.proj (m ((c : Thread nD τ).loc main_arg0)) (m ((c : Thread nD τ).loc main_arg3)))
        (Cert.Spec.proj (m ((c : Thread nD τ).loc main_arg1)) (m ((c : Thread nD τ).loc main_arg4)))
        (Cert.Spec.proj (m ((c : Thread nD τ).loc main_arg2)) (m ((c : Thread nD τ).loc main_arg5))) :=
  ((W4_arr m ρ c 3).trans (arr3 (V3 m ρ) c)).trans (by rw [V3_v0, V3_v1, V3_v2])

/-- The output weights reach the transpose as launched. -/
theorem W4_arg6 (c : Dev nD) : W4 m ρ c (Proc.devRef .tc main_arg6) = m ((c : Thread nD τ).loc main_arg6) :=
  (W4_of_ne m ρ c main_arg6 (by decide)).trans ((W3_of_ne m ρ c main_arg6 (by decide)).trans
    ((W2_of_ne m ρ c main_arg6 (by decide)).trans (W1_of_ne m ρ c main_arg6 (by decide))))

/-- The transpose leaves the attention heads in place -/
theorem V5_v3 (c : Dev nD) : V5 m ρ c main_v3 = W4 m ρ c (Proc.devRef .tc main_v3) :=
  StableHlo.after_of_forall_not_mem (b := Proc.devRef .tc main_v3) _ _ (List.forall_iff_forall_mem.mp (by
    simp only [hostOps4, List.Forall, StableHlo.unary_writes, Finset.mem_singleton]
    exact StableHlo.devRef_ne_of_ne (by decide)))

/-- and writes the transposed output weights. -/
theorem V5_v4 (c : Dev nD) : V5 m ρ c main_v4
    = transpose S768x768 [1, 0] (m ((c : Thread nD τ).loc main_arg6)) transposes_S768x768_S768x768_1_0 := by
  have e : (V5 m ρ c main_v4 : S768x768.Idx → EReal)
      = transpose S768x768 [1, 0] (W4 m ρ c (Proc.devRef .tc main_arg6)) transposes_S768x768_S768x768_1_0 := by
    dsimp only [V5, W5, hostOps4]; after_results
  rw [e, W4_arg6]

/-- The result: the last region leaves the merged heads against the transposed output weights, which is the
    specification's multi-head attention of the seven argument arrays. -/
theorem W6_v5 (c : Dev nD) : W6 m ρ (last4 (F := Ideal)) c (Proc.devRef .tc main_v5)
    = Cert.Spec.mha (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W6_arr m ρ (last4 (F := Ideal)) c 2).trans ?_
  refine (arr4 (V5 m ρ) c).trans ?_
  funext j
  show mergeT (V5 m ρ c main_v3) (V5 m ρ c main_v4) (j 0) (j 1) (j 2) = Cert.Spec.mergeE _ _ (j 0) (j 1) (j 2)
  rw [V5_v3, W4_v3, V5_v4]
  exact mergeT_transpose _ _ _ _ _ _

/-- The idealized kernel's run: every weakly fair execution terminates, nothing faulting, with the result array at
    the specification's multi-head attention of the launch contents of the arguments, and the arguments as launched. -/
theorem kernel_run : θ_run defs (onTc (τ := τ) (main (F := Ideal))) ⟨m, fun _ => 0, ρ⟩ (fun r => ∀ c : Dev nD,
      r.2.mem ((c.tc : Thread nD τ).loc main_v5)
        = Cert.Spec.mha (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v5 (by decide))).trans (W6_v5 m ρ c),
     (h c _ (mem_uc main_arg0 (by decide))).trans (W6_main_arg0 m ρ (last4 (F := Ideal)) c),
     (h c _ (mem_uc main_arg1 (by decide))).trans (W6_main_arg1 m ρ (last4 (F := Ideal)) c),
     (h c _ (mem_uc main_arg2 (by decide))).trans (W6_main_arg2 m ρ (last4 (F := Ideal)) c),
     (h c _ (mem_uc main_arg3 (by decide))).trans (W6_main_arg3 m ρ (last4 (F := Ideal)) c),
     (h c _ (mem_uc main_arg4 (by decide))).trans (W6_main_arg4 m ρ (last4 (F := Ideal)) c),
     (h c _ (mem_uc main_arg5 (by decide))).trans (W6_main_arg5 m ρ (last4 (F := Ideal)) c),
     (h c _ (mem_uc main_arg6 (by decide))).trans (W6_main_arg6 m ρ (last4 (F := Ideal)) c)⟩) (run_all m ρ (last4 (F := Ideal)))

end Cert.KernelIdeal.Val

end
-- ==== Proof.RefValue.lean ====
/-
  The reference program's result, read entry by entry, is the specification's multi-head attention.

  Each stage of the program is read at explicit coordinates (b, h, s, d) over the argument arrays as variables:
  the three projections split by heads; the scores, which the program divides by the square root of 64 and the
  specification multiplies by 1/8; the row maximum, a fold of max from minus infinity followed by a second maximum
  with minus infinity; the exponentials and their sum from zero; the softmax weights; the heads; the merge of
  (head, offset) into the model coordinate h · 64 + d; and the last contraction over the 768 model coordinates,
  which is the double sum over heads and offsets. Nothing needs the entries to be finite.
-/
import proofs.«165060_j71665824301623_2_alg».proof.Proof.Gen.ReferenceIdeal.Run
import proofs.«165060_j71665824301623_2_alg».proof.Proof.Gen.ReferenceIdeal.Read
import proofs.«165060_j71665824301623_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-- The word 0x42800000 denotes the real 64. -/
theorem ofBits_64 : Ideal.ofBits .f32 0x42800000#32 = ((64 : ℝ) : EReal) := by
  simp [Ideal.ofBits, Ideal.ieee, -EReal.coe_mul]; norm_num

/-- The word 0x3E000000 denotes the real 1/8. -/
theorem ofBits_eighth : Ideal.ofBits .f32 0x3E000000#32 = ((1 / 8 : ℝ) : EReal) := by
  simp [Ideal.ofBits, Ideal.ieee, -EReal.coe_mul]; norm_num

/-- The word 0xFF800000 denotes minus infinity, the least extended real. -/
theorem ofBits_negInf : Ideal.ofBits .f32 0xFF800000#32 = (⊥ : EReal) := by
  simp [Ideal.ofBits, Ideal.ieee]

/-- The square root of 64 is 8, since 64 = 8². -/
theorem sqrt_64 : Ideal.sqrt ((64 : ℝ) : EReal) = ((8 : ℝ) : EReal) := by
  show (if (64 : ℝ) < 0 then (⊥ : EReal) else ((Real.sqrt 64 : ℝ) : EReal)) = _
  rw [if_neg (by norm_num)]
  have : Real.sqrt 64 = 8 := by
    rw [show (64 : ℝ) = 8 ^ 2 by norm_num]; exact Real.sqrt_sq (by norm_num)
  rw [this]

/-- Dividing by 8 is multiplying by 1/8, for every extended real. -/
theorem div_eight (x : EReal) : Ideal.div x ((8 : ℝ) : EReal) = x * eighth := by
  rw [Ideal.div_coe (by norm_num)]; unfold eighth; rw [ofBits_eighth]

/-- A maximum with minus infinity is the other operand. -/
theorem max_negInf (y : EReal) : max negInf y = y := by
  unfold negInf; rw [ofBits_negInf]; exact bot_sup_eq y
abbrev ActT : Type := (⟨S4x2048x768, .f32⟩ : BufTy).Contents (Elt Ideal)
abbrev MatT : Type := (⟨S768x768, .f32⟩ : BufTy).Contents (Elt Ideal)

theorem v5_eq (x : ActT) (w : MatT) : val_main_v5 (F := Ideal) x w = val_main_v2 (F := Ideal) x w := rfl
theorem v8_eq (x : ActT) (w : MatT) : val_main_v8 (F := Ideal) x w = val_main_v2 (F := Ideal) x w := rfl

/-- The projected, reshaped and transposed activations at (b, h, s, d): the projection split by heads. -/
theorem v2_read (x : ActT) (w : MatT) (b : Fin 4) (h : Fin 12) (s : Fin 2048) (d : Fin 64) :
    val_main_v2 (F := Ideal) x w (ix4 b h s d) = projE x w b h s d := by
  rw [val_main_v2_apply, val_main_v1_apply, val_main_v0_apply]
  unfold projE
  refine Finset.sum_congr rfl fun e _ => ?_
  have hb := b.isLt; have hh := h.isLt; have hs := s.isLt; have hd := d.isLt
  have e1 : lidx_main_v0 (idx_main_v1 (idx_main_v2 (ix4 b h s d))) e = ix3 b s e := by
    funext a; refine Fin.ext ?_
    match a with
    | ⟨0, _⟩ => show (((b.val * 2048 + s.val) * 12 + h.val) * 64 + d.val) / 1572864 = b.val; omega
    | ⟨1, _⟩ => show (((b.val * 2048 + s.val) * 12 + h.val) * 64 + d.val) / 768 % 2048 = s.val; omega
    | ⟨2, _⟩ => rfl
  have e2 : ridx_main_v0 (idx_main_v1 (idx_main_v2 (ix4 b h s d))) e = ix2 (Cert.Spec.hd h d) e := by
    funext a; refine Fin.ext ?_
    match a with
    | ⟨0, _⟩ => show (((b.val * 2048 + s.val) * 12 + h.val) * 64 + d.val) % 768 = h.val * 64 + d.val; omega
    | ⟨1, _⟩ => rfl
  rw [e1, e2]

/-- The scaled score row of batch b, head h, query position s against all key positions. -/
def scores (x0 x1 : ActT) (x3 x4 : MatT) (b : Fin 4) (h : Fin 12) (s : Fin 2048) : Fin 2048 → EReal :=
  scoreRow (fun d => projE x0 x3 b h s d) (fun i d => projE x1 x4 b h i d)

/-- The divisor array is 8 everywhere: the square root of the constant 64. -/
theorem v11_read (i : S4x12x2048x2048.Idx) : val_main_v11 (F := Ideal) i = ((8 : ℝ) : EReal) := by
  rw [val_main_v11_apply, val_main_v10_apply, val_main_cst_apply]
  show Ideal.sqrt (Ideal.ofBits .f32 0x42800000#32) = _
  rw [ofBits_64, sqrt_64]

/-- The scores before scaling: the contraction of the query and key projections over the head offset. -/
theorem v9_read (x0 x1 : ActT) (x3 x4 : MatT) (b : Fin 4) (h : Fin 12) (s t : Fin 2048) :
    val_main_v9 (F := Ideal) x0 x1 x3 x4 (ix4 b h s t)
      = ∑ d : Fin 64, projE x0 x3 b h s d * projE x1 x4 b h t d := by
  rw [val_main_v9_apply]
  refine Finset.sum_congr rfl fun d _ => ?_
  have e1 : lidx_main_v9 (ix4 b h s t) d = ix4 b h s d := by
    funext a; match a with | ⟨0, _⟩ => rfl | ⟨1, _⟩ => rfl | ⟨2, _⟩ => rfl | ⟨3, _⟩ => rfl
  have e2 : ridx_main_v9 (ix4 b h s t) d = ix4 b h t d := by
    funext a; match a with | ⟨0, _⟩ => rfl | ⟨1, _⟩ => rfl | ⟨2, _⟩ => rfl | ⟨3, _⟩ => rfl
  rw [e1, e2, v5_eq, v2_read, v2_read]

/-- The scaled scores at (b, h, s, t). -/
theorem v12_read (x0 x1 : ActT) (x3 x4 : MatT) (b : Fin 4) (h : Fin 12) (s t : Fin 2048) :
    val_main_v12 (F := Ideal) x0 x1 x3 x4 (ix4 b h s t) = scores x0 x1 x3 x4 b h s t := by
  rw [val_main_v12_apply, v11_read, v9_read]
  show Ideal.div _ _ = _
  rw [div_eight]
  rfl

/-- The maximum-reduction along the key axis, started at minus infinity, is the row maximum of the scores. -/
theorem v13_read (x0 x1 : ActT) (x3 x4 : MatT) (b : Fin 4) (h : Fin 12) (s : Fin 2048) :
    val_main_v13 (F := Ideal) x0 x1 x3 x4 (ix3 b h s) = rowMax (scores x0 x1 x3 x4 b h s) := by
  unfold val_main_v13
  have hr : S4x12x2048x2048.Reduces [3] S4x12x2048 := by decide
  have key := Host.reduce_eq_fold_single (max : EReal → EReal → EReal) (val_main_v12 (F := Ideal) x0 x1 x3 x4)
    (val_main_cst_0 (F := Ideal)) reducesTo_S4x12x2048x2048_S4x12x2048_d3 hr h_S_ (ix3 b h s)
  refine key.trans ?_
  unfold rowMax
  have aux : ∀ t : Fin 2048, val_main_v12 (F := Ideal) x0 x1 x3 x4 (hr.lift (ix3 b h s) t) = scores x0 x1 x3 x4 b h s t := by
    intro t
    have e : hr.lift (ix3 b h s) t = ix4 b h s t :=
      funext fun a => Fin.ext (by match a with | ⟨0, _⟩ => rfl | ⟨1, _⟩ => rfl | ⟨2, _⟩ => rfl | ⟨3, _⟩ => rfl)
    rw [e, v12_read]
  have ef : (val_main_v12 (F := Ideal) x0 x1 x3 x4 ∘ hr.lift (ix3 b h s)) = scores x0 x1 x3 x4 b h s :=
    funext fun t => aux t
  rw [ef]
  rfl

/-- The row maximum after the second maximum with minus infinity. -/
theorem v15_read (x0 x1 : ActT) (x3 x4 : MatT) (b : Fin 4) (h : Fin 12) (s : Fin 2048) :
    val_main_v15 (F := Ideal) x0 x1 x3 x4 (ix3 b h s) = rowMax (scores x0 x1 x3 x4 b h s) := by
  rw [val_main_v15_apply, val_main_v14_apply, val_main_cst_1_apply, v13_read]
  exact max_negInf _

/-- The row maximum broadcast back along the key axis. -/
theorem v17_read (x0 x1 : ActT) (x3 x4 : MatT) (b : Fin 4) (h : Fin 12) (s t : Fin 2048) :
    val_main_v17 (F := Ideal) x0 x1 x3 x4 (ix4 b h s t) = rowMax (scores x0 x1 x3 x4 b h s) := by
  rw [val_main_v17_apply, val_main_v16_apply]
  have e : idx_main_v16 (idx_main_v17 (ix4 b h s t)) = ix3 b h s := by
    funext a; match a with | ⟨0, _⟩ => rfl | ⟨1, _⟩ => rfl | ⟨2, _⟩ => rfl
  rw [e, v15_read]

/-- The exponential of a score less its row maximum. -/
theorem v19_read (x0 x1 : ActT) (x3 x4 : MatT) (b : Fin 4) (h : Fin 12) (s t : Fin 2048) :
    val_main_v19 (F := Ideal) x0 x1 x3 x4 (ix4 b h s t)
      = Ideal.exp (scores x0 x1 x3 x4 b h s t - rowMax (scores x0 x1 x3 x4 b h s)) := by
  rw [val_main_v19_apply, val_main_v18_apply, v12_read, v17_read]
  rfl

/-- The sum of the exponentials along the key axis, started at zero. -/
theorem v20_read (x0 x1 : ActT) (x3 x4 : MatT) (b : Fin 4) (h : Fin 12) (s : Fin 2048) :
    val_main_v20 (F := Ideal) x0 x1 x3 x4 (ix3 b h s)
      = ∑ t : Fin 2048, Ideal.exp (scores x0 x1 x3 x4 b h s t - rowMax (scores x0 x1 x3 x4 b h s)) := by
  rw [val_main_v20_apply, val_main_cst_2_apply]
  show Ideal.ofBits .f32 0x00000000#32 + _ = _
  rw [Ideal.ofBits_zero_f32, zero_add]
  refine Finset.sum_congr rfl fun t _ => ?_
  have e : idx_main_v20 (ix3 b h s) t = ix4 b h s t := by
    funext a; match a with | ⟨0, _⟩ => rfl | ⟨1, _⟩ => rfl | ⟨2, _⟩ => rfl | ⟨3, _⟩ => rfl
  rw [e, v19_read]

/-- The softmax weights at (b, h, s, t). -/
theorem v23_read (x0 x1 : ActT) (x3 x4 : MatT) (b : Fin 4) (h : Fin 12) (s t : Fin 2048) :
    val_main_v23 (F := Ideal) x0 x1 x3 x4 (ix4 b h s t) = softRow (scores x0 x1 x3 x4 b h s) t := by
  rw [val_main_v23_apply, val_main_v22_apply, val_main_v21_apply]
  have e : idx_main_v21 (idx_main_v22 (ix4 b h s t)) = ix3 b h s := by
    funext a; match a with | ⟨0, _⟩ => rfl | ⟨1, _⟩ => rfl | ⟨2, _⟩ => rfl
  rw [e, v20_read, v19_read]
  rfl

/-- One entry of an attention head at (b, h, s, d). -/
theorem v24_read (x0 x1 x2 : ActT) (x3 x4 x5 : MatT) (b : Fin 4) (h : Fin 12) (s : Fin 2048) (d : Fin 64) :
    val_main_v24 (F := Ideal) x0 x1 x2 x3 x4 x5 (ix4 b h s d)
      = attnEntry (fun d' => projE x0 x3 b h s d') (fun i d' => projE x1 x4 b h i d') (fun i => projE x2 x5 b h i d) := by
  rw [val_main_v24_apply]
  unfold attnEntry
  refine Finset.sum_congr rfl fun t _ => ?_
  have e1 : lidx_main_v24 (ix4 b h s d) t = ix4 b h s t := by
    funext a; match a with | ⟨0, _⟩ => rfl | ⟨1, _⟩ => rfl | ⟨2, _⟩ => rfl | ⟨3, _⟩ => rfl
  have e2 : ridx_main_v24 (ix4 b h s d) t = ix4 b h t d := by
    funext a; match a with | ⟨0, _⟩ => rfl | ⟨1, _⟩ => rfl | ⟨2, _⟩ => rfl | ⟨3, _⟩ => rfl
  rw [e1, e2, v8_eq, v2_read, v23_read]
  rfl

/-- A model coordinate is a pair (head, offset): (h, d) ↦ h · 64 + d is a bijection onto the 768 coordinates. -/
def hdEquiv : Fin 12 × Fin 64 ≃ Fin 768 where
  toFun p := hd p.1 p.2
  invFun k := (⟨k.val / 64, by have := k.isLt; omega⟩, ⟨k.val % 64, Nat.mod_lt _ (by norm_num)⟩)
  left_inv p := by
    obtain ⟨h, d⟩ := p
    have hh := h.isLt; have hd' := d.isLt
    refine Prod.ext (Fin.ext ?_) (Fin.ext ?_)
    · show (h.val * 64 + d.val) / 64 = h.val; omega
    · show (h.val * 64 + d.val) % 64 = d.val; omega
  right_inv k := by
    refine Fin.ext ?_
    show k.val / 64 * 64 + k.val % 64 = k.val
    omega

/-- A sum over the 768 model coordinates is the double sum over heads and offsets. -/
theorem sum_hd {M : Type*} [AddCommMonoid M] (f : Fin 768 → M) :
    ∑ k, f k = ∑ h : Fin 12, ∑ d : Fin 64, f (hd h d) := by
  rw [← Equiv.sum_comp hdEquiv f, Fintype.sum_prod_type]
  rfl

/-- The merged heads at (b, s, h · 64 + d) are head h's output at (s, d). -/
theorem v26_read (x0 x1 x2 : ActT) (x3 x4 x5 : MatT) (b : Fin 4) (s : Fin 2048) (h : Fin 12) (d : Fin 64) :
    val_main_v26 (F := Ideal) x0 x1 x2 x3 x4 x5 (ix3 b s (hd h d))
      = val_main_v24 (F := Ideal) x0 x1 x2 x3 x4 x5 (ix4 b h s d) := by
  rw [val_main_v26_apply, val_main_v25_apply]
  have hb := b.isLt; have hh := h.isLt; have hs := s.isLt; have hd' := d.isLt
  have e : idx_main_v25 (idx_main_v26 (ix3 b s (hd h d))) = ix4 b h s d := by
    funext a; refine Fin.ext ?_
    match a with
    | ⟨0, _⟩ => show ((b.val * 2048 + s.val) * 768 + (h.val * 64 + d.val)) / 1572864 = b.val; omega
    | ⟨1, _⟩ => show ((b.val * 2048 + s.val) * 768 + (h.val * 64 + d.val)) / 64 % 12 = h.val; omega
    | ⟨2, _⟩ => show ((b.val * 2048 + s.val) * 768 + (h.val * 64 + d.val)) / 768 % 2048 = s.val; omega
    | ⟨3, _⟩ => show ((b.val * 2048 + s.val) * 768 + (h.val * 64 + d.val)) % 64 = d.val; omega
  rw [e]

/-- The specification's attention heads, read at row b · 12 + h, in terms of the projections split by heads. -/
theorem attn_read (q k v : ActT) (wq wk wv : MatT) (b : Fin 4) (h : Fin 12) (s : Fin 2048) (d : Fin 64) :
    attn (proj q wq) (proj k wk) (proj v wv) (ix3 (bh b h) s d)
      = attnEntry (fun d' => projE q wq b h s d') (fun i d' => projE k wk b h i d') (fun i => projE v wv b h i d) := by
  show attnE _ _ _ (bh b h) s d = _
  unfold attnE
  simp only [proj_apply]

/-- The reference's result, as a function of its seven arguments, is the specification's multi-head attention. -/
theorem ref_eq (q k v : ActT) (wq wk wv wo : MatT) :
    val_main_v27 (F := Ideal) q k v wq wk wv wo = mha q k v wq wk wv wo := by
  funext j
  obtain ⟨b, s, e, rfl⟩ : ∃ (b : Fin 4) (s : Fin 2048) (e : Fin 768), j = ix3 b s e := ⟨_, _, _, eq_ix3 j⟩
  rw [val_main_v27_apply]
  show _ = mergeE _ wo b s e
  unfold mergeE
  rw [sum_hd]
  refine Finset.sum_congr rfl fun h _ => Finset.sum_congr rfl fun d _ => ?_
  have e1 : lidx_main_v27 (ix3 b s e) (hd h d) = ix3 b s (hd h d) := by
    funext a; match a with | ⟨0, _⟩ => rfl | ⟨1, _⟩ => rfl | ⟨2, _⟩ => rfl
  have e2 : ridx_main_v27 (ix3 b s e) (hd h d) = ix2 e (hd h d) := by
    funext a; match a with | ⟨0, _⟩ => rfl | ⟨1, _⟩ => rfl
  rw [e1, e2, v26_read, v24_read, attn_read]

/-- The reference program's result on a launch memory is the specification applied to its seven argument arrays. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v27 (F := Ideal) m c
      = Cert.Spec.mha (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  rw [val_main_v27_eq]
  exact ref_eq _ _ _ _ _ _ _

end Cert.ReferenceIdeal.RefValue

end
-- ==== Proof.lean ====
/-
  The certificate's five claims for a multi-head-attention kernel against its reference.

  The kernel is five grid launches: three linear projections that write their result split by heads, the attention
  of each head over blocks of 512 query rows (scaled scores, row softmax, product with the values), and the merge of
  the heads with the output projection, accumulated over the twelve heads of each row block. The reference computes
  the same with whole-array operations.

  Frames: each program runs to its end without a fault and leaves its seven argument arrays as launched. For the
  kernel — at the word level and idealized alike — this follows from the contents of every unscoped buffer at the
  boundaries between its launches: no launch and no host operation writes an argument. For the reference it is its
  run with the result dropped.

  Preserved: the idealization rewrote nothing, so there is nothing to state.

  Equal results over the extended reals: along the kernel's run the projections hold
  P[b·12+h, s, d] = Σ_e x[b, s, e] · w[h·64+d, e], the attention launch leaves each head's softmax-weighted values, and
  the last launch leaves Σ_h Σ_d O[b·12+h, s, d] · woᵀ[h·64+d, e]; the reference's composed term is the same
  function of the arguments: its division of the scores by √64 is the kernel's product with 1/8 on every extended
  real, both softmaxes start their maximum from minus infinity, and its one contraction over the 768 merged
  coordinates is the kernel's double sum over heads and offsets. No step needs the inputs to be finite.
-/
import proofs.«165060_j71665824301623_2_alg».proof.Defs
import proofs.«165060_j71665824301623_2_alg».proof.Proof.Gen.Kernel
import proofs.«165060_j71665824301623_2_alg».proof.Proof.Gen.KernelIdeal
import proofs.«165060_j71665824301623_2_alg».proof.Proof.Gen.ReferenceIdeal
import proofs.«165060_j71665824301623_2_alg».proof.Proof.Gen.Pre_finite_inputs
import proofs.«165060_j71665824301623_2_alg».proof.Proof.KLast
import proofs.«165060_j71665824301623_2_alg».proof.Proof.KILast
import proofs.«165060_j71665824301623_2_alg».proof.Proof.KIChain
import proofs.«165060_j71665824301623_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to its end and leaves its arguments as launched. -/
theorem frame_k : Cert.frame_Kernel := fun m ρ _ => Cert.Kernel.Fr.frame m ρ (Cert.Kernel.Fr.last4 (F := Bits))

/-- So does the idealized kernel. -/
theorem frame_ki : Cert.frame_KernelIdeal := fun m ρ _ => Cert.KernelIdeal.Fr.frame m ρ (Cert.KernelIdeal.Fr.last4 (F := Ideal))

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's multi-head attention of the arguments they were launched
    with, and the two launches agree on the arguments. -/
theorem algebraic : Cert.algebraic_KernelIdeal_ReferenceIdeal := by
  intro m ρ m' ρ' _ hagree
  refine ⟨_, Cert.KernelIdeal.Val.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1,
    (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
